-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x96x96 : Shape := ⟨4, ![1, 32, 96, 96]⟩
abbrev S_ : Shape := ⟨0, ![]⟩

class Facts : Prop where
  bcast_S_S1x32x96x96 : S_.BroadcastsInDim S1x32x96x96 (![] : Fin 0 → Fin S1x32x96x96.rank)
  reducesTo_S1x32x96x96_S_d0_1_2_3 : S1x32x96x96.ReducesTo [0, 1, 2, 3] S_
  h_S_ : 0 < S_.numel

variable [Facts]

def fn {F : FTy → Type} [FloatOps F] (main_arg0 : FVec F S1x32x96x96 .f32) : IVec S_ 1 :=
  let main_v0 : FVec F S1x32x96x96 .f32 := Host.absf main_arg0
  let main_cst : FVec F S_ .f32 := constant S_ .f32 0x7F800000#32
  let main_v1 : FVec F S1x32x96x96 .f32 := broadcastInDim S1x32x96x96 ![] bcast_S_S1x32x96x96 main_cst
  let main_v2 : IVec S1x32x96x96 1 := cmpf .olt main_v0 main_v1
  let main_c : IVec S_ 1 := constantI S_ 1 1#1
  let main_v3 : IVec S_ 1 := (fun x v => Host.reduce IntOp.andi x v reducesTo_S1x32x96x96_S_d0_1_2_3 h_S_) main_v2 main_c
  main_v3
-- ==== Kernel.lean ====
abbrev S1x32x96x96 : Shape := ⟨4, ![1, 32, 96, 96]⟩
abbrev S32x9216 : Shape := ⟨2, ![32, 9216]⟩
abbrev S32x3072 : Shape := ⟨2, ![32, 3072]⟩
abbrev S32x768 : Shape := ⟨2, ![32, 768]⟩
abbrev S40x768 : Shape := ⟨2, ![40, 768]⟩
abbrev S3072x768 : Shape := ⟨2, ![3072, 768]⟩
abbrev S8x3072 : Shape := ⟨2, ![8, 3072]⟩
abbrev S40x3072 : Shape := ⟨2, ![40, 3072]⟩
abbrev S1x768 : Shape := ⟨2, ![1, 768]⟩
abbrev S1x32x9216 : Shape := ⟨3, ![1, 32, 9216]⟩
abbrev S4x32x9216 : Shape := ⟨3, ![4, 32, 9216]⟩
abbrev S4x32x96x96 : Shape := ⟨4, ![4, 32, 96, 96]⟩

abbrev nBuf : Space → Nat
  | .hbm => 11
  | .vmem => 21
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S32x9216, .f32⟩
  | .hbm, ⟨3, _⟩ => ⟨S32x9216, .f32⟩
  | .hbm, ⟨4, _⟩ => ⟨S32x9216, .f32⟩
  | .hbm, ⟨5, _⟩ => ⟨S1x32x9216, .f32⟩
  | .hbm, ⟨6, _⟩ => ⟨S1x32x9216, .f32⟩
  | .hbm, ⟨7, _⟩ => ⟨S1x32x9216, .f32⟩
  | .hbm, ⟨8, _⟩ => ⟨S1x32x9216, .f32⟩
  | .hbm, ⟨9, _⟩ => ⟨S4x32x9216, .f32⟩
  | .hbm, ⟨10, _⟩ => ⟨S4x32x96x96, .f32⟩
  | .local _ .vmem, ⟨0, _⟩ => ⟨S32x3072, .f32⟩
  | .local _ .vmem, ⟨1, _⟩ => ⟨S32x3072, .f32⟩
  | .local _ .vmem, ⟨2, _⟩ => ⟨S32x768, .f32⟩
  | .local _ .vmem, ⟨3, _⟩ => ⟨S32x768, .f32⟩
  | .local _ .vmem, ⟨4, _⟩ => ⟨S32x768, .f32⟩
  | .local _ .vmem, ⟨5, _⟩ => ⟨S32x768, .f32⟩
  | .local _ .vmem, ⟨6, _⟩ => ⟨S40x768, .f32⟩
  | .local _ .vmem, ⟨7, _⟩ => ⟨S32x3072, .f32⟩
  | .local _ .vmem, ⟨8, _⟩ => ⟨S32x3072, .f32⟩
  | .local _ .vmem, ⟨9, _⟩ => ⟨S32x768, .f32⟩
  | .local _ .vmem, ⟨10, _⟩ => ⟨S32x768, .f32⟩
  | .local _ .vmem, ⟨11, _⟩ => ⟨S32x768, .f32⟩
  | .local _ .vmem, ⟨12, _⟩ => ⟨S32x768, .f32⟩
  | .local _ .vmem, ⟨13, _⟩ => ⟨S40x768, .f32⟩
  | .local _ .vmem, ⟨14, _⟩ => ⟨S32x3072, .f32⟩
  | .local _ .vmem, ⟨15, _⟩ => ⟨S32x3072, .f32⟩
  | .local _ .vmem, ⟨16, _⟩ => ⟨S32x768, .f32⟩
  | .local _ .vmem, ⟨17, _⟩ => ⟨S32x768, .f32⟩
  | .local _ .vmem, ⟨18, _⟩ => ⟨S32x768, .f32⟩
  | .local _ .vmem, ⟨19, _⟩ => ⟨S32x768, .f32⟩
  | .local _ .vmem, ⟨20, _⟩ => ⟨S40x768, .f32⟩
  | _, _ => ⟨S1x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![12, 3], ![false, false]⟩

def k0_cond2 (i : grid0.Coords) : BitVec 1 :=
  let arg1 : BitVec 32 := BitVec.ofNat 32 (i 1).val
  let c2_i32 : BitVec 32 := 2#32
  let v27 : BitVec 1 := Scalar.cmpi .eq arg1 c2_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![12, 3], ![false, false]⟩

def k1_cond2 (i : grid1.Coords) : BitVec 1 :=
  let arg1 : BitVec 32 := BitVec.ofNat 32 (i 1).val
  let c2_i32 : BitVec 32 := 2#32
  let v27 : BitVec 1 := Scalar.cmpi .eq arg1 c2_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S32x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![12, 3], ![false, false]⟩

def k2_cond2 (i : grid2.Coords) : BitVec 1 :=
  let arg1 : BitVec 32 := BitVec.ofNat 32 (i 1).val
  let c2_i32 : BitVec 32 := 2#32
  let v27 : BitVec 1 := Scalar.cmpi .eq arg1 c2_i32
  let v28 : BitVec 32 := Scalar.extui v27
  let c0_i32_13 : BitVec 32 := 0#32
  let v29 : BitVec 1 := Scalar.cmpi .ne v28 c0_i32_13
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x3072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S32x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S32x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S1x32x96x96_S32x9216 : S1x32x96x96.ShapeCasts S32x9216
  inb_S40x768_S40x768_0_0 : ∀ a, (![0, 0] : Fin 2 → Nat) a + S40x768.size a ≤ S40x768.size a
  h_S40x768 : 0 < S40x768.numel
  shapeCasts_S40x768_S40x768 : S40x768.ShapeCasts S40x768
  inb_S32x3072_S32x3072_0_0 : ∀ a, (![0, 0] : Fin 2 → Nat) a + S32x3072.size a ≤ S32x3072.size a
  h_S32x3072 : 0 < S32x3072.numel
  shapeCasts_S32x3072_S32x3072 : S32x3072.ShapeCasts S32x3072
  bitsLt_bf16_f32 : FTy.bits .bf16 < FTy.bits .f32
  inb_S32x768_S32x768_0_0 : ∀ a, (![0, 0] : Fin 2 → Nat) a + S32x768.size a ≤ S32x768.size a
  h_S32x768 : 0 < S32x768.numel
  shapeCasts_S32x768_S32x768 : S32x768.ShapeCasts S32x768
  iota_S8x3072_d0_w32 : S8x3072.Iotas .tc 32 [0]
  concatenates_S32x3072_S8x3072_S40x3072_d0 : Shape.Concatenates [S32x3072, S8x3072] S40x3072 0
  inb_S40x768_S32x768_0_0 : ∀ a, (![0, 0] : Fin 2 → Nat) a + S32x768.size a ≤ S40x768.size a
  inb_S40x768_S1x768_32_0 : ∀ a, (![32, 0] : Fin 2 → Nat) a + S1x768.size a ≤ S40x768.size a
  h_S1x768 : 0 < S1x768.numel
  broadcasts_S1x768_S32x768 : S1x768.Broadcasts S32x768
  bcast_S32x9216_S1x32x9216_1_2 : S32x9216.BroadcastsInDim S1x32x9216 (![1, 2] : Fin 2 → Fin S1x32x9216.rank)
  concatenates_S1x32x9216_S1x32x9216_S1x32x9216_S1x32x9216_S4x32x9216_d0 : Shape.Concatenates [S1x32x9216, S1x32x9216, S1x32x9216, S1x32x9216] S4x32x9216 0
  shapeCasts_S4x32x9216_S4x32x96x96 : S4x32x9216.ShapeCasts S4x32x96x96
  dot_S32x3072_S32x768_S3072x768_0_0_1_1_n_n_wf : DotDims.WF S32x3072 S32x768 S3072x768 [0] [0] [1] [1] [] []
  dot_S40x3072_S3072x768_S40x768_1_0_0_1_n_n_wf : DotDims.WF S40x3072 S3072x768 S40x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3072.size a ≤ S32x9216.size a
  hwx0_0 : ∀ i : grid0.Coords, EltTy.bits .f32 = 32 ∨ (Rect.block (s := S32x9216) S32x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x768.size a ≤ S32x9216.size a
  hwx0_1 : ∀ i : grid0.Coords, EltTy.bits .f32 = 32 ∨ (Rect.block (s := S32x9216) S32x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x768.size a ≤ S32x9216.size a
  hwx0_2 : ∀ i : grid0.Coords, EltTy.bits .f32 = 32 ∨ (Rect.block (s := S32x9216) S32x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x3072.size a ≤ S32x9216.size a
  hwx1_0 : ∀ i : grid1.Coords, EltTy.bits .f32 = 32 ∨ (Rect.block (s := S32x9216) S32x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x768.size a ≤ S32x9216.size a
  hwx1_1 : ∀ i : grid1.Coords, EltTy.bits .f32 = 32 ∨ (Rect.block (s := S32x9216) S32x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x768.size a ≤ S32x9216.size a
  hwx1_2 : ∀ i : grid1.Coords, EltTy.bits .f32 = 32 ∨ (Rect.block (s := S32x9216) S32x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x3072.size a ≤ S32x9216.size a
  hwx2_0 : ∀ i : grid2.Coords, EltTy.bits .f32 = 32 ∨ (Rect.block (s := S32x9216) S32x3072.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x768.size a ≤ S32x9216.size a
  hwx2_1 : ∀ i : grid2.Coords, EltTy.bits .f32 = 32 ∨ (Rect.block (s := S32x9216) S32x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x768.size a ≤ S32x9216.size a
  hwx2_2 : ∀ i : grid2.Coords, EltTy.bits .f32 = 32 ∨ (Rect.block (s := S32x9216) S32x768.size (cc2_transform_2 i) (hinb2_2 i)).WholeWords (EltTy.packing .f32)

variable [Facts₀]

def dot_S32x3072_S32x768_S3072x768_0_0_1_1_n_n : DotDims S32x3072 S32x768 S3072x768 where
  lhsContracting := [0]
  rhsContracting := [0]
  lhsNonContracting := [1]
  rhsNonContracting := [1]
  lhsBatch := []
  rhsBatch := []
  wf := dot_S32x3072_S32x768_S3072x768_0_0_1_1_n_n_wf
def dot_S40x3072_S3072x768_S40x768_1_0_0_1_n_n : DotDims S40x3072 S3072x768 S40x768 where
  lhsContracting := [1]
  rhsContracting := [0]
  lhsNonContracting := [0]
  rhsNonContracting := [1]
  lhsBatch := []
  rhsBatch := []
  wf := dot_S40x3072_S3072x768_S40x768_1_0_0_1_n_n_wf

abbrev win0_0 : Pipeline.Window sig grid0 :=
  Pipeline.Window.ofSpec (Memref.whole main_v0) S32x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S32x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S32x3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S32x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S32x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1x32x96x96 : Shape := ⟨4, ![1, 32, 96, 96]⟩
abbrev S32x9216 : Shape := ⟨2, ![32, 9216]⟩
abbrev S9216x9216 : Shape := ⟨2, ![9216, 9216]⟩
abbrev S_ : Shape := ⟨0, ![]⟩
abbrev S9216 : Shape := ⟨1, ![9216]⟩
abbrev S1x9216 : Shape := ⟨2, ![1, 9216]⟩
abbrev S1x32x9216 : Shape := ⟨3, ![1, 32, 9216]⟩
abbrev S4x32x9216 : Shape := ⟨3, ![4, 32, 9216]⟩
abbrev S4x32x96x96 : Shape := ⟨4, ![4, 32, 96, 96]⟩

abbrev nBuf : Space → Nat
  | .hbm => 62
  | .vmem => 0
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S9216x9216, .f32⟩
  | .hbm, ⟨3, _⟩ => ⟨S_, .f32⟩
  | .hbm, ⟨4, _⟩ => ⟨S9216x9216, .f32⟩
  | .hbm, ⟨5, _⟩ => ⟨S9216x9216, .f32⟩
  | .hbm, ⟨6, _⟩ => ⟨S9216x9216, .f32⟩
  | .hbm, ⟨7, _⟩ => ⟨S_, .f32⟩
  | .hbm, ⟨8, _⟩ => ⟨S9216, .f32⟩
  | .hbm, ⟨9, _⟩ => ⟨S1x9216, .f32⟩
  | .hbm, ⟨10, _⟩ => ⟨S9216x9216, .f32⟩
  | .hbm, ⟨11, _⟩ => ⟨S9216x9216, .f32⟩
  | .hbm, ⟨12, _⟩ => ⟨S32x9216, .f32⟩
  | .hbm, ⟨13, _⟩ => ⟨S_, .f32⟩
  | .hbm, ⟨14, _⟩ => ⟨S32x9216, .f32⟩
  | .hbm, ⟨15, _⟩ => ⟨S32x9216, .f32⟩
  | .hbm, ⟨16, _⟩ => ⟨S_, .f32⟩
  | .hbm, ⟨17, _⟩ => ⟨S32x9216, .f32⟩
  | .hbm, ⟨18, _⟩ => ⟨S32x9216, .f32⟩
  | .hbm, ⟨19, _⟩ => ⟨S32x9216, .f32⟩
  | .hbm, ⟨20, _⟩ => ⟨S9216x9216, .f32⟩
  | .hbm, ⟨21, _⟩ => ⟨S_, .f32⟩
  | .hbm, ⟨22, _⟩ => ⟨S9216x9216, .f32⟩
  | .hbm, ⟨23, _⟩ => ⟨S9216x9216, .f32⟩
  | .hbm, ⟨24, _⟩ => ⟨S9216x9216, .f32⟩
  | .hbm, ⟨25, _⟩ => ⟨S_, .f32⟩
  | .hbm, ⟨26, _⟩ => ⟨S9216, .f32⟩
  | .hbm, ⟨27, _⟩ => ⟨S1x9216, .f32⟩
  | .hbm, ⟨28, _⟩ => ⟨S9216x9216, .f32⟩
  | .hbm, ⟨29, _⟩ => ⟨S9216x9216, .f32⟩
  | .hbm, ⟨30, _⟩ => ⟨S32x9216, .f32⟩
  | .hbm, ⟨31, _⟩ => ⟨S_, .f32⟩
  | .hbm, ⟨32, _⟩ => ⟨S32x9216, .f32⟩
  | .hbm, ⟨33, _⟩ => ⟨S32x9216, .f32⟩
  | .hbm, ⟨34, _⟩ => ⟨S_, .f32⟩
  | .hbm, ⟨35, _⟩ => ⟨S32x9216, .f32⟩
  | .hbm, ⟨36, _⟩ => ⟨S32x9216, .f32⟩
  | .hbm, ⟨37, _⟩ => ⟨S32x9216, .f32⟩
  | .hbm, ⟨38, _⟩ => ⟨S9216x9216, .f32⟩
  | .hbm, ⟨39, _⟩ => ⟨S_, .f32⟩
  | .hbm, ⟨40, _⟩ => ⟨S9216x9216, .f32⟩
  | .hbm, ⟨41, _⟩ => ⟨S9216x9216, .f32⟩
  | .hbm, ⟨42, _⟩ => ⟨S9216x9216, .f32⟩
  | .hbm, ⟨43, _⟩ => ⟨S_, .f32⟩
  | .hbm, ⟨44, _⟩ => ⟨S9216, .f32⟩
  | .hbm, ⟨45, _⟩ => ⟨S1x9216, .f32⟩
  | .hbm, ⟨46, _⟩ => ⟨S9216x9216, .f32⟩
  | .hbm, ⟨47, _⟩ => ⟨S9216x9216, .f32⟩
  | .hbm, ⟨48, _⟩ => ⟨S32x9216, .f32⟩
  | .hbm, ⟨49, _⟩ => ⟨S_, .f32⟩
  | .hbm, ⟨50, _⟩ => ⟨S32x9216, .f32⟩
  | .hbm, ⟨51, _⟩ => ⟨S32x9216, .f32⟩
  | .hbm, ⟨52, _⟩ => ⟨S_, .f32⟩
  | .hbm, ⟨53, _⟩ => ⟨S32x9216, .f32⟩
  | .hbm, ⟨54, _⟩ => ⟨S32x9216, .f32⟩
  | .hbm, ⟨55, _⟩ => ⟨S32x9216, .f32⟩
  | .hbm, ⟨56, _⟩ => ⟨S1x32x9216, .f32⟩
  | .hbm, ⟨57, _⟩ => ⟨S1x32x9216, .f32⟩
  | .hbm, ⟨58, _⟩ => ⟨S1x32x9216, .f32⟩
  | .hbm, ⟨59, _⟩ => ⟨S1x32x9216, .f32⟩
  | .hbm, ⟨60, _⟩ => ⟨S4x32x9216, .f32⟩
  | .hbm, ⟨61, _⟩ => ⟨S4x32x96x96, .f32⟩
  | _, _ => ⟨S1x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_8 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]

class Facts₀ : Prop where
  shapeCasts_S1x32x96x96_S32x9216 : S1x32x96x96.ShapeCasts S32x9216
  bcast_S_S9216x9216 : S_.BroadcastsInDim S9216x9216 (![] : Fin 0 → Fin S9216x9216.rank)
  reducesTo_S9216x9216_S9216_d0 : S9216x9216.ReducesTo [0] S9216
  h_S_ : 0 < S_.numel
  bcast_S9216_S1x9216_1 : S9216.BroadcastsInDim S1x9216 (![1] : Fin 1 → Fin S1x9216.rank)
  bcast_S1x9216_S9216x9216_0_1 : S1x9216.BroadcastsInDim S9216x9216 (![0, 1] : Fin 2 → Fin S9216x9216.rank)
  bcast_S_S32x9216 : S_.BroadcastsInDim S32x9216 (![] : Fin 0 → Fin S32x9216.rank)
  bcast_S32x9216_S1x32x9216_1_2 : S32x9216.BroadcastsInDim S1x32x9216 (![1, 2] : Fin 2 → Fin S1x32x9216.rank)
  concatenates_S1x32x9216_S1x32x9216_S1x32x9216_S1x32x9216_S4x32x9216_d0 : Shape.Concatenates [S1x32x9216, S1x32x9216, S1x32x9216, S1x32x9216] S4x32x9216 0
  shapeCasts_S4x32x9216_S4x32x96x96 : S4x32x9216.ShapeCasts S4x32x96x96
  dot_S32x9216_S32x9216_S9216x9216_0_0_1_1_n_n_wf : DotDims.WF S32x9216 S32x9216 S9216x9216 [0] [0] [1] [1] [] []
  dot_S32x9216_S9216x9216_S32x9216_1_0_0_1_n_n_wf : DotDims.WF S32x9216 S9216x9216 S32x9216 [1] [0] [0] [1] [] []

variable [Facts₀]

def dot_S32x9216_S32x9216_S9216x9216_0_0_1_1_n_n : DotDims S32x9216 S32x9216 S9216x9216 where
  lhsContracting := [0]
  rhsContracting := [0]
  lhsNonContracting := [1]
  rhsNonContracting := [1]
  lhsBatch := []
  rhsBatch := []
  wf := dot_S32x9216_S32x9216_S9216x9216_0_0_1_1_n_n_wf
def dot_S32x9216_S9216x9216_S32x9216_1_0_0_1_n_n : DotDims S32x9216 S9216x9216 S32x9216 where
  lhsContracting := [1]
  rhsContracting := [0]
  lhsNonContracting := [0]
  rhsNonContracting := [1]
  lhsBatch := []
  rhsBatch := []
  wf := dot_S32x9216_S9216x9216_S32x9216_1_0_0_1_n_n_wf

class Facts : Prop extends Facts₀ where

variable [Facts]
-- ==== Proof.K.Body0.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.Kernel.Launch
import proofs.«117443_j19241453486857_2_alg».proof.Proof.Gen.Kernel.Skeleton
import proofs.«117443_j19241453486857_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff0 : (![0, 0] : Fin 2 → Nat) = fun _ => 0 := funext fun a => by fin_cases a <;> rfl

/-- The key block, the query block and the accumulator, each accessed whole; -/
abbrev rKeys0 : Rect S32x3072 := Rect.unit (s := S32x3072) ![0, 0] S32x3072.size inb_S32x3072_S32x3072_0_0
abbrev rQry0 : Rect S32x768 := Rect.unit (s := S32x768) ![0, 0] S32x768.size inb_S32x768_S32x768_0_0
abbrev rAcc0 : Rect S40x768 := Rect.unit (s := S40x768) ![0, 0] S40x768.size inb_S40x768_S40x768_0_0
/-- the accumulator's rows 0 to 31 (the weighted sums) and its row 32 (the degrees). -/
abbrev rTop0 : Rect S40x768 := Rect.unit (s := S40x768) ![0, 0] S32x768.size inb_S40x768_S32x768_0_0
abbrev rRow0 : Rect S40x768 := Rect.unit (s := S40x768) ![32, 0] S1x768.size inb_S40x768_S1x768_32_0

/-- Rows 0 to 31 of an accumulator: the weighted sums. -/
def top0 (s : Vec F S40x768 .f32) : Vec F S32x768 .f32 := View.ld s rTop0
/-- Row 32 of an accumulator: the degrees. -/
def row0 (s : Vec F S40x768 .f32) : Vec F S1x768 .f32 := View.ld s rRow0

section Whole
variable {κ : Kind} {sp : Space} {S : Shape} {e : EltTy}

/-- A load of a whole buffer reads its contents. -/
theorem readWhole0 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole0 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole0 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored0_first :
    va.read (Elt F) (va.writes (Elt F) fa
      [⟨rAcc0, k0_pay2 (vk.readAt (Elt F) rKeys0.toLoadRect fk) (vq.readAt (Elt F) rQry0.toLoadRect fq)
          (va.readCov [(⟨rAcc0, k0_pay1 (F := F)⟩ : View.Piece (Elt F) S40x768 .f32)] rAcc0.toLoadRect)⟩,
       ⟨rAcc0, k0_pay1 (F := F)⟩])
      = k0_pay2 (vk.read (Elt F) fk) (vq.read (Elt F) fq) (k0_pay1 (F := F)) := by
  refine (readStoreWhole0 (S := S40x768) va fa zeroOff0 _ _ _).trans ?_
  rw [readCovWhole0 (S := S40x768) va zeroOff0 _ _ [] rAcc0, readWhole0 (S := S32x3072) vk fk zeroOff0,
    readWhole0 (S := S32x768) vq fq zeroOff0, View.ld_unit_zero (S := S40x768) zeroOff0]

/-- The accumulator after a later reduction point: read, the point's terms added, stored. -/
theorem stored0_later :
    va.read (Elt F) (va.writes (Elt F) fa
      [⟨rAcc0, k0_pay2 (vk.readAt (Elt F) rKeys0.toLoadRect fk) (vq.readAt (Elt F) rQry0.toLoadRect fq)
          (va.readAt (Elt F) rAcc0.toLoadRect fa)⟩])
      = k0_pay2 (vk.read (Elt F) fk) (vq.read (Elt F) fq) (va.read (Elt F) fa) := by
  refine (readStoreWhole0 (S := S40x768) va fa zeroOff0 _ _ _).trans ?_
  rw [readWhole0 (S := S32x3072) vk fk zeroOff0, readWhole0 (S := S32x768) vq fq zeroOff0,
    readWhole0 (S := S40x768) va fa zeroOff0]

/-- The output block after a last reduction point: the step's value from the accumulator just stored. -/
theorem stored0_out (P : Vec F S40x768 .f32) :
    vo.read (Elt F) (vo.writes (Elt F) fo
      [⟨rQry0, k0_pay3 (va.readCov [(⟨rAcc0, P⟩ : View.Piece (Elt F) S40x768 .f32)] rTop0.toLoadRect)
          (va.readCov [(⟨rAcc0, P⟩ : View.Piece (Elt F) S40x768 .f32)] rRow0.toLoadRect)
          (vq.readAt (Elt F) rQry0.toLoadRect fq)⟩])
      = k0_pay3 (top0 P) (row0 P) (vq.read (Elt F) fq) := by
  refine (readStoreWhole0 (S := S32x768) vo fo zeroOff0 _ _ _).trans ?_
  rw [readCovWhole0 (S := S40x768) va zeroOff0 _ P [] rTop0, readCovWhole0 (S := S40x768) va zeroOff0 _ P [] rRow0,
    readWhole0 (S := S32x768) vq fq zeroOff0]
  rfl

end Stored

/-! ## The body's two conditions, from the reduction coordinate -/

theorem hzero0_first (i : grid0.Coords) (hi : (i 1).val = 0) :
    Scalar.cmpi .ne (Scalar.extui (Scalar.cmpi .eq (BitVec.ofNat 32 (i 1).val) 0#32)) 0#32 = 1#1 := by
  rw [hi]; decide
theorem hzero0_later (i : grid0.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin0_last (i : grid0.Coords) (hi : (i 1).val = 2) : k0_cond2 i = 1#1 := by
  unfold k0_cond2; dsimp only; rw [hi]; decide
theorem hfin0_earlier (i : grid0.Coords) (hi : (i 1).val ≠ 2) : ¬ (k0_cond2 i = 1#1) := by
  have h := (i 1).isLt
  have h' : (i 1).val < 3 := h
  have : (i 1).val = 0 ∨ (i 1).val = 1 := by omega
  unfold k0_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel0_first (c : Dev nD) (E : Set ℕ) (i : grid0.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k0_pay2 x0 x1 (k0_pay1 (F := F)))) -∗ K ⟨⟩))
      ⊢ wp frame (wpE (defs₀ (F := F)) Variants.none c none) E (cc0__ms_step_kernel i arg2 harg2 arg3 harg3 arg4 harg4 arg5 harg5) K := by
  have hc1 := hzero0_first i hi
  have hc2 := hfin0_earlier i (by omega)
  simp only [cc0__ms_step_kernel_eq_skeleton]; unfold cc0__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored0_first (F := F) _ _ _ _ _ _

set_option maxHeartbeats 1000000 in
/-- A middle reduction point (`k = 1`): the point's terms are added to the accumulator; the output block is left as
    found. -/
theorem sound_kernel0_mid (c : Dev nD) (E : Set ℕ) (i : grid0.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k0_pay2 x0 x1 s)) -∗ K ⟨⟩))
      ⊢ wp frame (wpE (defs₀ (F := F)) Variants.none c none) E (cc0__ms_step_kernel i arg2 harg2 arg3 harg3 arg4 harg4 arg5 harg5) K := by
  have hc1 := hzero0_later i (by omega)
  have hc2 := hfin0_earlier i (by omega)
  simp only [cc0__ms_step_kernel_eq_skeleton]; unfold cc0__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored0_later (F := F) _ _ _ _ _ _

set_option maxHeartbeats 1000000 in
/-- A last reduction point (`k = 2`): the point's terms are added to the accumulator, and the output block, whatever
    it held, gets the step's value from the finished sums, the degrees and the queries. -/
theorem sound_kernel0_last (c : Dev nD) (E : Set ℕ) (i : grid0.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (top0 (k0_pay2 x0 x1 s)) (row0 (k0_pay2 x0 x1 s)) x1)
            ∗ owns (c : Thread nD τ) arg5 fullShare (k0_pay2 x0 x1 s)) -∗ K ⟨⟩))
      ⊢ wp frame (wpE (defs₀ (F := F)) Variants.none c none) E (cc0__ms_step_kernel i arg2 harg2 arg3 harg3 arg4 harg4 arg5 harg5) K := by
  have hc1 := hzero0_later i (by omega)
  have hc2 := hfin0_last i hi
  simp only [cc0__ms_step_kernel_eq_skeleton]; unfold cc0__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored0_out (F := F) arg3.view arg4.view arg5.view f1 f2 _).trans ?_
    rw [readWhole0 (S := S32x3072) arg2.view f0 zeroOff0, readWhole0 (S := S32x768) arg3.view f1 zeroOff0,
      readWhole0 (S := S40x768) arg5.view f3 zeroOff0]
  iexists _; isplitr
  swap; · iexact H3
  ipureintro
  sl_unfold_run_names
  exact stored0_later (F := F) _ _ _ _ _ _

end Cert.Kernel.Step

end
-- ==== Proof.Shares.lean ====
/-
  One array read through two input windows is held at two complementary shares, one per window, that together
  make the full share; an output window's array is held whole.
-/
import Idealize.ShloMosaic.Lib.Pipeline.Kit

noncomputable section

namespace Cert.MeanShift

open Idealize.ShloMosaic Idealize.SL Idealize.SL.RA
open Idealize.SL.RA.PCS Idealize.SL.RA.RA Idealize.SL.RA.URA

/-- The two halves of the full share. -/
def shareL : PosShare TreeShare := fullShare.left
def shareR : PosShare TreeShare := fullShare.right

/-- They make the full share. -/
theorem full_mem_halves : fullShare ∈ shareL ·? shareR := PosShare.mem_left_op_right fullShare

/-- The share of each window's array: the keys' window and the queries' window halve their common array, the
    output window holds its own outright. -/
def winShare : Fin 3 → PosShare TreeShare
  | ⟨0, _⟩ => shareL
  | ⟨1, _⟩ => shareR
  | ⟨2, _⟩ => fullShare

end Cert.MeanShift

end
-- ==== Proof.K.Data0.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.K.Body0
import proofs.«117443_j19241453486857_2_alg».proof.Proof.Shares
import Idealize.ShloMosaic.Lib.Pipeline.FrameBody
import Idealize.ShloMosaic.Lib.Pipeline.Kit

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after `n` points: zero before the first; each point adds its key block's terms to what the
    point before left, or to zero when it opens a query block (`n % 3 = 0`). -/
def scr0 (c : Dev nD) : ℕ → Vec F S40x768 .f32
  | 0 => k0_pay1
  | n + 1 =>
    if h : n < cfg0.N then
      k0_pay2 (iblk0 V c 0 ⟨n, h⟩) (iblk0 V c 1 ⟨n, h⟩) (if n % 3 = 0 then k0_pay1 else scr0 c n)
    else scr0 c n

theorem scr0_zero (c : Dev nD) : scr0 V c 0 = k0_pay1 (F := F) := rfl

/-- The recursion at a point of the grid. -/
theorem scr0_succ (c : Dev nD) (t : Fin cfg0.N) :
    scr0 V c (t.val + 1) = k0_pay2 (iblk0 V c 0 t) (iblk0 V c 1 t) (if t.val % 3 = 0 then k0_pay1 else scr0 V c t.val) := by
  rw [scr0, dif_pos t.isLt]

/-- The output block after point `t` (meaningful where `t % 3 = 2`, the only points that store it): the step's value
    from the accumulator's finished sums and degrees and the query block. -/
def out0 (c : Dev nD) (t : Fin cfg0.N) : Vec F S32x768 .f32 :=
  k0_pay3 (top0 (scr0 V c (t.val + 1))) (row0 (scr0 V c (t.val + 1))) (iblk0 V c 1 t)

/-! ## The invariant -/

/-- Every scoped buffer but the call's accumulator and its staging buffers, at anything. -/
def rest0 (c : Dev nD) : sProp 𝕄 :=
  Pipeline.scopedRestBut (Ix := Unit) (Name := ℕ) (U := UR sig nD τ) (Lvl := ℕ) (Val := Elt F) spec0 c [cc0_scratch0]

/-- The scoped buffers that are no staging buffer of the call: its accumulator, and the rest. -/
theorem scopedRest_scratch0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) := by
  rw [Pipeline.scopedRest_split_of_list (win := spec0) (c := c) [cc0_scratch0] (by decide) (List.nodup_singleton _)]
  rfl

/-- Before point `t` (after point `t - 1`): the accumulator whole, at the running sum except where the next point
    re-zeroes it; every other scoped buffer no window of the call stages, at anything. -/
def Φ0 (c : Dev nD) (t : Fin (cfg0.N + 1)) : sProp 𝕄 :=
  iprop((∃ d : Vec F S40x768 .f32, ⌜t.val % 3 ≠ 0 → d = scr0 V c t.val⌝ ∗ owns (c : Thread nD τ) (Memref.whole cc0_scratch0) fullShare d) ∗ rest0 (F := F) c)

/-! ## The pipeline's proof data -/

/-- The proof data of the call on core `c`: the arrays as the call finds them; after the body at point `t` the two
    input windows' buffers at their blocks and the output window's at `out0`; the invariant `Φ0`; nothing owed; the
    two input windows, which read one array, at complementary halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Φ0 V c t
  q w := Cert.MeanShift.winShare w
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem Φ_eq0 (c : Dev nD) (t : Fin (cfg0.N + 1)) : (dat0 V c).Φ t = Φ0 V c t := by dsimp only [dat0]
theorem q_eq0 (c : Dev nD) (w : Fin cfg0.W) : (dat0 V c).q w = Cert.MeanShift.winShare w := by dsimp only [dat0]
theorem owed_eq0 (c : Dev nD) (t : Fin (cfg0.N + 1)) : (dat0 V c).owed t = 0 := by dsimp only [dat0]

/-! ## What the body finds in the input windows -/

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The grid's reduction coordinate, and where the output window is idle -/

/-- Point `t`'s reduction coordinate is `t % 3`. -/
theorem coordK0 : ∀ t : Fin cfg0.N, ((cfg0.grid.coords t) 1).val = t.val % 3 :=
  (by decide +kernel : ∀ t : Fin grid0.N, ((grid0.coords t) 1).val = t.val % 3)

/-- The output window is idle at the points that are not a query block's last, and is not written back there. -/
theorem idle0_out (t : Fin cfg0.N) (h : t.val % 3 ≠ 2) : cfg0.idle 2 (cfg0.grid.coords t) = true := by
  have hc := hfin0_earlier (cfg0.grid.coords t) (by rw [coordK0]; exact h)
  show (!(k0_cond2 (cfg0.grid.coords t) == 1#1)) = true
  simp only [Bool.not_eq_true', beq_eq_false_iff_ne, ne_eq]; exact hc
theorem live0_out (t : Fin cfg0.N) (h : t.val % 3 = 2) : cfg0.idle 2 (cfg0.grid.coords t) = false := by
  have hc := hfin0_last (cfg0.grid.coords t) (by rw [coordK0]; exact h)
  show (!(k0_cond2 (cfg0.grid.coords t) == 1#1)) = false
  rw [hc]; rfl
theorem noflush0_out (t : Fin cfg0.N) (h : t.val % 3 ≠ 2) : (cfg0.win 2).flush t = false :=
  Bool.eq_false_iff.mpr (mt (flush0_2 t).mp h)

/-- At a query block's last reduction point the output window is live: the body leaves it at what it stores. -/
theorem leaves0_last (c : Dev nD) (t : Fin cfg0.N) (h : t.val % 3 = 2) :
    (dat0 V c).leavesExact 2 t = owns (c : Thread nD τ) (st0_2 t) fullShare ((dat0 V c).after 2 t) := by
  unfold Dat.leavesExact; rw [live0_out t h]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the output window's buffer as found where the window is idle, at the step's value where it
    is stored. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have hcoord := coordK0 t
  rcases (show t.val % 3 = 0 ∨ t.val % 3 = 1 ∨ t.val % 3 = 2 by omega) with hk | hk | hk
  · rw [Dat.leavesExact_idle (dat0 V c) 2 t (idle0_out t (by omega)) (noflush0_out t (by omega))]
    simp only [before0_0, before0_1]
    rw [show (dat0 V c).owesAt () t.succ = (dat0 V c).owesAt () t.castSucc from rfl, after0_0, after0_1, Φ_eq0, Φ_eq0]
    unfold Φ0
    iintro ⟨⟨⟨%s, -, Hs⟩, Hr⟩, Ho, ⟨%d0, H0⟩, ⟨%d1, H1⟩, ⟨%d2, H2⟩⟩
    iapply (sound_kernel0_first c Set.univ (grid0.coords t) (hcoord.trans hk) _ _ _ _ _ _ _ _ (iblk0 V c 0 t) (iblk0 V c 1 t) ((dat0 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr0 V c (t.val + 1)
        rw [scr0_succ, if_pos hk]
      · iexact Hr
    isplitl [Ho]; · iexact Ho
    isplitl [H0]; · iexact H0
    isplitl [H1]; · iexact H1
    iexists d2; iexact H2
  · rw [Dat.leavesExact_idle (dat0 V c) 2 t (idle0_out t (by omega)) (noflush0_out t (by omega))]
    simp only [before0_0, before0_1]
    rw [show (dat0 V c).owesAt () t.succ = (dat0 V c).owesAt () t.castSucc from rfl, after0_0, after0_1, Φ_eq0, Φ_eq0]
    unfold Φ0
    iintro ⟨⟨⟨%s, %hs, Hs⟩, Hr⟩, Ho, ⟨%d0, H0⟩, ⟨%d1, H1⟩, ⟨%d2, H2⟩⟩
    have hs' : s = scr0 V c t.val := hs (by show t.val % 3 ≠ 0; omega)
    subst hs'
    iapply (sound_kernel0_mid c Set.univ (grid0.coords t) (hcoord.trans hk) _ _ _ _ _ _ _ _ (iblk0 V c 0 t) (iblk0 V c 1 t) ((dat0 V c).before 2 t d2) (scr0 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr0 V c (t.val + 1)
        rw [scr0_succ, if_neg (by omega)]
      · iexact Hr
    isplitl [Ho]; · iexact Ho
    isplitl [H0]; · iexact H0
    isplitl [H1]; · iexact H1
    iexists d2; iexact H2
  · rw [leaves0_last V c t hk]
    simp only [before0_0, before0_1]
    rw [show (dat0 V c).owesAt () t.succ = (dat0 V c).owesAt () t.castSucc from rfl, after0_0, after0_1, after0_2, Φ_eq0, Φ_eq0]
    unfold Φ0 out0
    iintro ⟨⟨⟨%s, %hs, Hs⟩, Hr⟩, Ho, ⟨%d0, H0⟩, ⟨%d1, H1⟩, ⟨%d2, H2⟩⟩
    have hs' : s = scr0 V c t.val := hs (by show t.val % 3 ≠ 0; omega)
    subst hs'
    have hnext : scr0 V c (t.val + 1) = k0_pay2 (iblk0 V c 0 t) (iblk0 V c 1 t) (scr0 V c t.val) := by
      rw [scr0_succ, if_neg (by omega)]
    rw [hnext]
    iapply (sound_kernel0_last c Set.univ (grid0.coords t) (hcoord.trans hk) _ _ _ _ _ _ _ _ (iblk0 V c 0 t) (iblk0 V c 1 t) (scr0 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr0 V c (t.val + 1)
        exact hnext.symm
      · iexact Hr
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Step

end
-- ==== Proof.K.Reg0.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.K.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef0 : Ref sig .tc := Pipeline.arrRef spec0 0
abbrev outRef0 : Ref sig .tc := Pipeline.arrRef spec0 2

section Reg
variable (V : (c : Dev nD) → (b : Ref sig .tc) → Buf (Elt F) ((c : Thread nD τ).loc b))

/-- The keys' window and the queries' window hold the two halves of their common array, the output window its own whole. -/
theorem shareK0 (c : Dev nD) : (dat0 V c).share 0 = Cert.MeanShift.shareL := by
  unfold Dat.share; rw [q_eq0]; rfl
theorem shareQ0 (c : Dev nD) : (dat0 V c).share 1 = Cert.MeanShift.shareR := by
  unfold Dat.share; rw [q_eq0]; rfl
theorem shareO0 (c : Dev nD) : (dat0 V c).share 2 = fullShare := by
  unfold Dat.share; rfl

/-- The pipeline's arrays at contents `G`, window by window: the read array twice, at the two halves, and the written
    array whole. -/
theorem arrays_eq0 (c : Dev nD) (G : (w : Fin cfg0.W) → Buf (Elt F) ((cfg0.win w).arr.view.loc (c.tc : Thread nD τ))) :
    ((dat0 V c).arrays G : sProp 𝕄)
      = iprop((((c : Thread nD τ).loc inRef0) ↦{Cert.MeanShift.shareL} G 0) ∗ (((c : Thread nD τ).loc inRef0) ↦{Cert.MeanShift.shareR} G 1)
          ∗ (((c : Thread nD τ).loc outRef0) ↦{fullShare} G 2)) := by
  unfold Dat.arrays
  rw [bigSep_W0, shareK0, shareQ0, shareO0, (arr_whole0 0).set_eq_univ, (arr_whole0 2).set_eq_univ]

/-- An input window's array is never written: at every point it holds the entry contents. -/
theorem arrAtK0 (c : Dev nD) (n : ℕ) : (dat0 V c).arrAt 0 n = V c inRef0 :=
  ((dat0 V c).arrAt_in 0 rfl n).trans (A_eq0 V c 0)
theorem arrAtQ0 (c : Dev nD) (n : ℕ) : (dat0 V c).arrAt 1 n = V c inRef0 :=
  ((dat0 V c).arrAt_in 1 rfl n).trans (A_eq0 V c 1)
/-- Before the first point the written array holds its entry contents. -/
theorem arrAtOz0 (c : Dev nD) : (dat0 V c).arrAt 2 0 = V c outRef0 :=
  A_eq0 V c 2

/-! ## The accumulator in and out of the invariant -/

/-- A whole scoped buffer owned at some contents is its points-to at some contents. -/
theorem whole_owns0 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [Φ_eq0, scopedRest_scratch0]; unfold Φ0
  refine sep_mono ?_ .rfl
  rw [← whole_owns0 c]
  iintro ⟨%d, H⟩
  iexists d
  isplitr
  · ipureintro; intro h; exact absurd rfl h
  iexact H

/-- The invariant at the last point gives the scoped buffers back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [Φ_eq0, scopedRest_scratch0]; unfold Φ0
  refine sep_mono ?_ .rfl
  rw [← whole_owns0 c]
  iintro ⟨%d, -, H⟩
  iexists d
  iexact H

end Reg

/-! ## Entry and exit over a valuation of the core's buffers -/

section RegW
variable (W : Dev nD → Valuation τ sig (Elt F))

/-- A valuation read at the TensorCore's references. -/
abbrev rd0 (c : Dev nD) (b : Ref sig .tc) : Buf (Elt F) ((c : Thread nD τ).loc b) := W c b

/-- The core's unscoped buffers at `W`: the two arrays the call touches, and the rest. -/
theorem held_split0 (c : Dev nD) :
    (StableHlo.held (c : Thread nD τ) (Pipeline.ucRefs τ sig) (W c) : sProp 𝕄)
      = iprop(((((c : Thread nD τ).loc inRef0) ↦{fullShare} rd0 W c inRef0) ∗ (((c : Thread nD τ).loc outRef0) ↦{fullShare} rd0 W c outRef0))
          ∗ Pipeline.unscopedRest spec0 c (rd0 W c)) := by
  rw [← Pipeline.unscopedBufs_held (Ix := Unit) (Name := ℕ) (U := UR sig nD τ) (Lvl := ℕ) c (W c)]
  have hs : (unscopedBufs c (rd0 W c) : sProp 𝕄)
      = iprop(Pipeline.arrBufs spec0 c (rd0 W c) ∗ Pipeline.unscopedRest spec0 c (rd0 W c)) :=
    Pipeline.unscopedBufs_split₀ (fun _ : Unit => cfg0) () winFacts₀0.arr_unscoped c (rd0 W c)
  rw [hs]
  unfold Pipeline.arrBufs
  rw [show Finset.univ.image (Pipeline.arrRef spec0) = ([inRef0, outRef0] : List (Ref sig .tc)).toFinset from by decide,
    bigSep_eq_bigSepL _ (by decide)]
  rfl

/-- ENTRY: of the unscoped buffers, the read array is split into its two halves, one per input window, and the
    written array goes whole to the output window; the rest bypasses the call. -/
theorem entry0 (c : Dev nD) :
    (StableHlo.held (c : Thread nD τ) (Pipeline.ucRefs τ sig) (W c) : sProp 𝕄)
      ⊢ iprop((dat0 (rd0 W) c).arrays ((dat0 (rd0 W) c).arrAt · 0) ∗ Pipeline.unscopedRest spec0 c (rd0 W c)) := by
  rw [held_split0, arrays_eq0, arrAtK0, arrAtQ0, arrAtOz0]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW0 (c : Dev nD) : Valuation τ sig (Elt F) :=
  Function.update (W c) (Proc.devRef .tc outRef0) ((dat0 (rd0 W) c).arrAt 2 cfg0.N)

theorem exitWout0 (c : Dev nD) : exitW0 W c (Proc.devRef .tc outRef0) = (dat0 (rd0 W) c).arrAt 2 cfg0.N := by
  unfold exitW0; exact Function.update_self ..
theorem exitWne0 (c : Dev nD) (b : Ref sig .tc) (h : b ≠ outRef0) : exitW0 W c (Proc.devRef .tc b) = W c (Proc.devRef .tc b) := by
  unfold exitW0; exact Function.update_of_ne (StableHlo.devRef_ne_of_ne h) ..

/-- EXIT: the two halves of the read array, both still at the entry contents, rejoin; the written array is at what
    the write-backs made of it; with the rest these are the unscoped buffers at `exitW0`. -/
theorem exit0 (c : Dev nD) :
    iprop((dat0 (rd0 W) c).arrays ((dat0 (rd0 W) c).arrAt · cfg0.N) ∗ Pipeline.unscopedRest spec0 c (rd0 W c))
      ⊢ (StableHlo.held (c : Thread nD τ) (Pipeline.ucRefs τ sig) (exitW0 W c) : sProp 𝕄) := by
  have hrest : (Pipeline.unscopedRest spec0 c (rd0 (exitW0 W) c) : sProp 𝕄) = Pipeline.unscopedRest spec0 c (rd0 W c) := by
    unfold Pipeline.unscopedRest
    refine bigSep_congr fun b hb => ?_
    have hne : b ≠ outRef0 := fun e => (Finset.mem_sdiff.mp hb).2 (Finset.mem_image.mpr ⟨2, Finset.mem_univ _, e.symm⟩)
    have e : rd0 (exitW0 W) c b = rd0 W c b := exitWne0 W c b hne
    rw [e]
  have eIn : rd0 (exitW0 W) c inRef0 = rd0 W c inRef0 := exitWne0 W c inRef0 (by decide)
  have eOut : rd0 (exitW0 W) c outRef0 = (dat0 (rd0 W) c).arrAt 2 cfg0.N := exitWout0 W c
  rw [held_split0, eIn, eOut, hrest, arrays_eq0, arrAtK0, arrAtQ0]
  refine sep_mono ?_ .rfl
  refine sep_assoc.2.trans ?_
  exact sep_mono (pointsTo_share Cert.MeanShift.full_mem_halves).2 .rfl

end RegW

end Cert.Kernel.Step

end
-- ==== Proof.K.Body1.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.Kernel.Launch
import proofs.«117443_j19241453486857_2_alg».proof.Proof.Gen.Kernel.Skeleton
import proofs.«117443_j19241453486857_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff1 : (![0, 0] : Fin 2 → Nat) = fun _ => 0 := funext fun a => by fin_cases a <;> rfl

/-- The key block, the query block and the accumulator, each accessed whole; -/
abbrev rKeys1 : Rect S32x3072 := Rect.unit (s := S32x3072) ![0, 0] S32x3072.size inb_S32x3072_S32x3072_0_0
abbrev rQry1 : Rect S32x768 := Rect.unit (s := S32x768) ![0, 0] S32x768.size inb_S32x768_S32x768_0_0
abbrev rAcc1 : Rect S40x768 := Rect.unit (s := S40x768) ![0, 0] S40x768.size inb_S40x768_S40x768_0_0
/-- the accumulator's rows 0 to 31 (the weighted sums) and its row 32 (the degrees). -/
abbrev rTop1 : Rect S40x768 := Rect.unit (s := S40x768) ![0, 0] S32x768.size inb_S40x768_S32x768_0_0
abbrev rRow1 : Rect S40x768 := Rect.unit (s := S40x768) ![32, 0] S1x768.size inb_S40x768_S1x768_32_0

/-- Rows 0 to 31 of an accumulator: the weighted sums. -/
def top1 (s : Vec F S40x768 .f32) : Vec F S32x768 .f32 := View.ld s rTop1
/-- Row 32 of an accumulator: the degrees. -/
def row1 (s : Vec F S40x768 .f32) : Vec F S1x768 .f32 := View.ld s rRow1

section Whole
variable {κ : Kind} {sp : Space} {S : Shape} {e : EltTy}

/-- A load of a whole buffer reads its contents. -/
theorem readWhole1 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole1 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole1 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored1_first :
    va.read (Elt F) (va.writes (Elt F) fa
      [⟨rAcc1, k1_pay2 (vk.readAt (Elt F) rKeys1.toLoadRect fk) (vq.readAt (Elt F) rQry1.toLoadRect fq)
          (va.readCov [(⟨rAcc1, k1_pay1 (F := F)⟩ : View.Piece (Elt F) S40x768 .f32)] rAcc1.toLoadRect)⟩,
       ⟨rAcc1, k1_pay1 (F := F)⟩])
      = k1_pay2 (vk.read (Elt F) fk) (vq.read (Elt F) fq) (k1_pay1 (F := F)) := by
  refine (readStoreWhole1 (S := S40x768) va fa zeroOff1 _ _ _).trans ?_
  rw [readCovWhole1 (S := S40x768) va zeroOff1 _ _ [] rAcc1, readWhole1 (S := S32x3072) vk fk zeroOff1,
    readWhole1 (S := S32x768) vq fq zeroOff1, View.ld_unit_zero (S := S40x768) zeroOff1]

/-- The accumulator after a later reduction point: read, the point's terms added, stored. -/
theorem stored1_later :
    va.read (Elt F) (va.writes (Elt F) fa
      [⟨rAcc1, k1_pay2 (vk.readAt (Elt F) rKeys1.toLoadRect fk) (vq.readAt (Elt F) rQry1.toLoadRect fq)
          (va.readAt (Elt F) rAcc1.toLoadRect fa)⟩])
      = k1_pay2 (vk.read (Elt F) fk) (vq.read (Elt F) fq) (va.read (Elt F) fa) := by
  refine (readStoreWhole1 (S := S40x768) va fa zeroOff1 _ _ _).trans ?_
  rw [readWhole1 (S := S32x3072) vk fk zeroOff1, readWhole1 (S := S32x768) vq fq zeroOff1,
    readWhole1 (S := S40x768) va fa zeroOff1]

/-- The output block after a last reduction point: the step's value from the accumulator just stored. -/
theorem stored1_out (P : Vec F S40x768 .f32) :
    vo.read (Elt F) (vo.writes (Elt F) fo
      [⟨rQry1, k1_pay3 (va.readCov [(⟨rAcc1, P⟩ : View.Piece (Elt F) S40x768 .f32)] rTop1.toLoadRect)
          (va.readCov [(⟨rAcc1, P⟩ : View.Piece (Elt F) S40x768 .f32)] rRow1.toLoadRect)
          (vq.readAt (Elt F) rQry1.toLoadRect fq)⟩])
      = k1_pay3 (top1 P) (row1 P) (vq.read (Elt F) fq) := by
  refine (readStoreWhole1 (S := S32x768) vo fo zeroOff1 _ _ _).trans ?_
  rw [readCovWhole1 (S := S40x768) va zeroOff1 _ P [] rTop1, readCovWhole1 (S := S40x768) va zeroOff1 _ P [] rRow1,
    readWhole1 (S := S32x768) vq fq zeroOff1]
  rfl

end Stored

/-! ## The body's two conditions, from the reduction coordinate -/

theorem hzero1_first (i : grid1.Coords) (hi : (i 1).val = 0) :
    Scalar.cmpi .ne (Scalar.extui (Scalar.cmpi .eq (BitVec.ofNat 32 (i 1).val) 0#32)) 0#32 = 1#1 := by
  rw [hi]; decide
theorem hzero1_later (i : grid1.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin1_last (i : grid1.Coords) (hi : (i 1).val = 2) : k1_cond2 i = 1#1 := by
  unfold k1_cond2; dsimp only; rw [hi]; decide
theorem hfin1_earlier (i : grid1.Coords) (hi : (i 1).val ≠ 2) : ¬ (k1_cond2 i = 1#1) := by
  have h := (i 1).isLt
  have h' : (i 1).val < 3 := h
  have : (i 1).val = 0 ∨ (i 1).val = 1 := by omega
  unfold k1_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel1_first (c : Dev nD) (E : Set ℕ) (i : grid1.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k1_pay2 x0 x1 (k1_pay1 (F := F)))) -∗ K ⟨⟩))
      ⊢ wp frame (wpE (defs₀ (F := F)) Variants.none c none) E (cc1__ms_step_kernel i arg2 harg2 arg3 harg3 arg4 harg4 arg5 harg5) K := by
  have hc1 := hzero1_first i hi
  have hc2 := hfin1_earlier i (by omega)
  simp only [cc1__ms_step_kernel_eq_skeleton]; unfold cc1__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored1_first (F := F) _ _ _ _ _ _

set_option maxHeartbeats 1000000 in
/-- A middle reduction point (`k = 1`): the point's terms are added to the accumulator; the output block is left as
    found. -/
theorem sound_kernel1_mid (c : Dev nD) (E : Set ℕ) (i : grid1.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k1_pay2 x0 x1 s)) -∗ K ⟨⟩))
      ⊢ wp frame (wpE (defs₀ (F := F)) Variants.none c none) E (cc1__ms_step_kernel i arg2 harg2 arg3 harg3 arg4 harg4 arg5 harg5) K := by
  have hc1 := hzero1_later i (by omega)
  have hc2 := hfin1_earlier i (by omega)
  simp only [cc1__ms_step_kernel_eq_skeleton]; unfold cc1__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored1_later (F := F) _ _ _ _ _ _

set_option maxHeartbeats 1000000 in
/-- A last reduction point (`k = 2`): the point's terms are added to the accumulator, and the output block, whatever
    it held, gets the step's value from the finished sums, the degrees and the queries. -/
theorem sound_kernel1_last (c : Dev nD) (E : Set ℕ) (i : grid1.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay3 (top1 (k1_pay2 x0 x1 s)) (row1 (k1_pay2 x0 x1 s)) x1)
            ∗ owns (c : Thread nD τ) arg5 fullShare (k1_pay2 x0 x1 s)) -∗ K ⟨⟩))
      ⊢ wp frame (wpE (defs₀ (F := F)) Variants.none c none) E (cc1__ms_step_kernel i arg2 harg2 arg3 harg3 arg4 harg4 arg5 harg5) K := by
  have hc1 := hzero1_later i (by omega)
  have hc2 := hfin1_last i hi
  simp only [cc1__ms_step_kernel_eq_skeleton]; unfold cc1__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored1_out (F := F) arg3.view arg4.view arg5.view f1 f2 _).trans ?_
    rw [readWhole1 (S := S32x3072) arg2.view f0 zeroOff1, readWhole1 (S := S32x768) arg3.view f1 zeroOff1,
      readWhole1 (S := S40x768) arg5.view f3 zeroOff1]
  iexists _; isplitr
  swap; · iexact H3
  ipureintro
  sl_unfold_run_names
  exact stored1_later (F := F) _ _ _ _ _ _

end Cert.Kernel.Step

end
-- ==== Proof.K.Data1.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.K.Body1
import proofs.«117443_j19241453486857_2_alg».proof.Proof.Shares
import Idealize.ShloMosaic.Lib.Pipeline.FrameBody
import Idealize.ShloMosaic.Lib.Pipeline.Kit

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after `n` points: zero before the first; each point adds its key block's terms to what the
    point before left, or to zero when it opens a query block (`n % 3 = 0`). -/
def scr1 (c : Dev nD) : ℕ → Vec F S40x768 .f32
  | 0 => k1_pay1
  | n + 1 =>
    if h : n < cfg1.N then
      k1_pay2 (iblk1 V c 0 ⟨n, h⟩) (iblk1 V c 1 ⟨n, h⟩) (if n % 3 = 0 then k1_pay1 else scr1 c n)
    else scr1 c n

theorem scr1_zero (c : Dev nD) : scr1 V c 0 = k1_pay1 (F := F) := rfl

/-- The recursion at a point of the grid. -/
theorem scr1_succ (c : Dev nD) (t : Fin cfg1.N) :
    scr1 V c (t.val + 1) = k1_pay2 (iblk1 V c 0 t) (iblk1 V c 1 t) (if t.val % 3 = 0 then k1_pay1 else scr1 V c t.val) := by
  rw [scr1, dif_pos t.isLt]

/-- The output block after point `t` (meaningful where `t % 3 = 2`, the only points that store it): the step's value
    from the accumulator's finished sums and degrees and the query block. -/
def out1 (c : Dev nD) (t : Fin cfg1.N) : Vec F S32x768 .f32 :=
  k1_pay3 (top1 (scr1 V c (t.val + 1))) (row1 (scr1 V c (t.val + 1))) (iblk1 V c 1 t)

/-! ## The invariant -/

/-- Every scoped buffer but the call's accumulator and its staging buffers, at anything. -/
def rest1 (c : Dev nD) : sProp 𝕄 :=
  Pipeline.scopedRestBut (Ix := Unit) (Name := ℕ) (U := UR sig nD τ) (Lvl := ℕ) (Val := Elt F) spec1 c [cc1_scratch0]

/-- The scoped buffers that are no staging buffer of the call: its accumulator, and the rest. -/
theorem scopedRest_scratch1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ rest1 (F := F) c) := by
  rw [Pipeline.scopedRest_split_of_list (win := spec1) (c := c) [cc1_scratch0] (by decide) (List.nodup_singleton _)]
  rfl

/-- Before point `t` (after point `t - 1`): the accumulator whole, at the running sum except where the next point
    re-zeroes it; every other scoped buffer no window of the call stages, at anything. -/
def Φ1 (c : Dev nD) (t : Fin (cfg1.N + 1)) : sProp 𝕄 :=
  iprop((∃ d : Vec F S40x768 .f32, ⌜t.val % 3 ≠ 0 → d = scr1 V c t.val⌝ ∗ owns (c : Thread nD τ) (Memref.whole cc1_scratch0) fullShare d) ∗ rest1 (F := F) c)

/-! ## The pipeline's proof data -/

/-- The proof data of the call on core `c`: the arrays as the call finds them; after the body at point `t` the two
    input windows' buffers at their blocks and the output window's at `out1`; the invariant `Φ1`; nothing owed; the
    two input windows, which read one array, at complementary halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Φ1 V c t
  q w := Cert.MeanShift.winShare w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem Φ_eq1 (c : Dev nD) (t : Fin (cfg1.N + 1)) : (dat1 V c).Φ t = Φ1 V c t := by dsimp only [dat1]
theorem q_eq1 (c : Dev nD) (w : Fin cfg1.W) : (dat1 V c).q w = Cert.MeanShift.winShare w := by dsimp only [dat1]
theorem owed_eq1 (c : Dev nD) (t : Fin (cfg1.N + 1)) : (dat1 V c).owed t = 0 := by dsimp only [dat1]

/-! ## What the body finds in the input windows -/

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The grid's reduction coordinate, and where the output window is idle -/

/-- Point `t`'s reduction coordinate is `t % 3`. -/
theorem coordK1 : ∀ t : Fin cfg1.N, ((cfg1.grid.coords t) 1).val = t.val % 3 :=
  (by decide +kernel : ∀ t : Fin grid1.N, ((grid1.coords t) 1).val = t.val % 3)

/-- The output window is idle at the points that are not a query block's last, and is not written back there. -/
theorem idle1_out (t : Fin cfg1.N) (h : t.val % 3 ≠ 2) : cfg1.idle 2 (cfg1.grid.coords t) = true := by
  have hc := hfin1_earlier (cfg1.grid.coords t) (by rw [coordK1]; exact h)
  show (!(k1_cond2 (cfg1.grid.coords t) == 1#1)) = true
  simp only [Bool.not_eq_true', beq_eq_false_iff_ne, ne_eq]; exact hc
theorem live1_out (t : Fin cfg1.N) (h : t.val % 3 = 2) : cfg1.idle 2 (cfg1.grid.coords t) = false := by
  have hc := hfin1_last (cfg1.grid.coords t) (by rw [coordK1]; exact h)
  show (!(k1_cond2 (cfg1.grid.coords t) == 1#1)) = false
  rw [hc]; rfl
theorem noflush1_out (t : Fin cfg1.N) (h : t.val % 3 ≠ 2) : (cfg1.win 2).flush t = false :=
  Bool.eq_false_iff.mpr (mt (flush1_2 t).mp h)

/-- At a query block's last reduction point the output window is live: the body leaves it at what it stores. -/
theorem leaves1_last (c : Dev nD) (t : Fin cfg1.N) (h : t.val % 3 = 2) :
    (dat1 V c).leavesExact 2 t = owns (c : Thread nD τ) (st1_2 t) fullShare ((dat1 V c).after 2 t) := by
  unfold Dat.leavesExact; rw [live1_out t h]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the output window's buffer as found where the window is idle, at the step's value where it
    is stored. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have hcoord := coordK1 t
  rcases (show t.val % 3 = 0 ∨ t.val % 3 = 1 ∨ t.val % 3 = 2 by omega) with hk | hk | hk
  · rw [Dat.leavesExact_idle (dat1 V c) 2 t (idle1_out t (by omega)) (noflush1_out t (by omega))]
    simp only [before1_0, before1_1]
    rw [show (dat1 V c).owesAt () t.succ = (dat1 V c).owesAt () t.castSucc from rfl, after1_0, after1_1, Φ_eq1, Φ_eq1]
    unfold Φ1
    iintro ⟨⟨⟨%s, -, Hs⟩, Hr⟩, Ho, ⟨%d0, H0⟩, ⟨%d1, H1⟩, ⟨%d2, H2⟩⟩
    iapply (sound_kernel1_first c Set.univ (grid1.coords t) (hcoord.trans hk) _ _ _ _ _ _ _ _ (iblk1 V c 0 t) (iblk1 V c 1 t) ((dat1 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr1 V c (t.val + 1)
        rw [scr1_succ, if_pos hk]
      · iexact Hr
    isplitl [Ho]; · iexact Ho
    isplitl [H0]; · iexact H0
    isplitl [H1]; · iexact H1
    iexists d2; iexact H2
  · rw [Dat.leavesExact_idle (dat1 V c) 2 t (idle1_out t (by omega)) (noflush1_out t (by omega))]
    simp only [before1_0, before1_1]
    rw [show (dat1 V c).owesAt () t.succ = (dat1 V c).owesAt () t.castSucc from rfl, after1_0, after1_1, Φ_eq1, Φ_eq1]
    unfold Φ1
    iintro ⟨⟨⟨%s, %hs, Hs⟩, Hr⟩, Ho, ⟨%d0, H0⟩, ⟨%d1, H1⟩, ⟨%d2, H2⟩⟩
    have hs' : s = scr1 V c t.val := hs (by show t.val % 3 ≠ 0; omega)
    subst hs'
    iapply (sound_kernel1_mid c Set.univ (grid1.coords t) (hcoord.trans hk) _ _ _ _ _ _ _ _ (iblk1 V c 0 t) (iblk1 V c 1 t) ((dat1 V c).before 2 t d2) (scr1 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr1 V c (t.val + 1)
        rw [scr1_succ, if_neg (by omega)]
      · iexact Hr
    isplitl [Ho]; · iexact Ho
    isplitl [H0]; · iexact H0
    isplitl [H1]; · iexact H1
    iexists d2; iexact H2
  · rw [leaves1_last V c t hk]
    simp only [before1_0, before1_1]
    rw [show (dat1 V c).owesAt () t.succ = (dat1 V c).owesAt () t.castSucc from rfl, after1_0, after1_1, after1_2, Φ_eq1, Φ_eq1]
    unfold Φ1 out1
    iintro ⟨⟨⟨%s, %hs, Hs⟩, Hr⟩, Ho, ⟨%d0, H0⟩, ⟨%d1, H1⟩, ⟨%d2, H2⟩⟩
    have hs' : s = scr1 V c t.val := hs (by show t.val % 3 ≠ 0; omega)
    subst hs'
    have hnext : scr1 V c (t.val + 1) = k1_pay2 (iblk1 V c 0 t) (iblk1 V c 1 t) (scr1 V c t.val) := by
      rw [scr1_succ, if_neg (by omega)]
    rw [hnext]
    iapply (sound_kernel1_last c Set.univ (grid1.coords t) (hcoord.trans hk) _ _ _ _ _ _ _ _ (iblk1 V c 0 t) (iblk1 V c 1 t) (scr1 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr1 V c (t.val + 1)
        exact hnext.symm
      · iexact Hr
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Step

end
-- ==== Proof.K.Reg1.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.K.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef1 : Ref sig .tc := Pipeline.arrRef spec1 0
abbrev outRef1 : Ref sig .tc := Pipeline.arrRef spec1 2

section Reg
variable (V : (c : Dev nD) → (b : Ref sig .tc) → Buf (Elt F) ((c : Thread nD τ).loc b))

/-- The keys' window and the queries' window hold the two halves of their common array, the output window its own whole. -/
theorem shareK1 (c : Dev nD) : (dat1 V c).share 0 = Cert.MeanShift.shareL := by
  unfold Dat.share; rw [q_eq1]; rfl
theorem shareQ1 (c : Dev nD) : (dat1 V c).share 1 = Cert.MeanShift.shareR := by
  unfold Dat.share; rw [q_eq1]; rfl
theorem shareO1 (c : Dev nD) : (dat1 V c).share 2 = fullShare := by
  unfold Dat.share; rfl

/-- The pipeline's arrays at contents `G`, window by window: the read array twice, at the two halves, and the written
    array whole. -/
theorem arrays_eq1 (c : Dev nD) (G : (w : Fin cfg1.W) → Buf (Elt F) ((cfg1.win w).arr.view.loc (c.tc : Thread nD τ))) :
    ((dat1 V c).arrays G : sProp 𝕄)
      = iprop((((c : Thread nD τ).loc inRef1) ↦{Cert.MeanShift.shareL} G 0) ∗ (((c : Thread nD τ).loc inRef1) ↦{Cert.MeanShift.shareR} G 1)
          ∗ (((c : Thread nD τ).loc outRef1) ↦{fullShare} G 2)) := by
  unfold Dat.arrays
  rw [bigSep_W1, shareK1, shareQ1, shareO1, (arr_whole1 0).set_eq_univ, (arr_whole1 2).set_eq_univ]

/-- An input window's array is never written: at every point it holds the entry contents. -/
theorem arrAtK1 (c : Dev nD) (n : ℕ) : (dat1 V c).arrAt 0 n = V c inRef1 :=
  ((dat1 V c).arrAt_in 0 rfl n).trans (A_eq1 V c 0)
theorem arrAtQ1 (c : Dev nD) (n : ℕ) : (dat1 V c).arrAt 1 n = V c inRef1 :=
  ((dat1 V c).arrAt_in 1 rfl n).trans (A_eq1 V c 1)
/-- Before the first point the written array holds its entry contents. -/
theorem arrAtOz1 (c : Dev nD) : (dat1 V c).arrAt 2 0 = V c outRef1 :=
  A_eq1 V c 2

/-! ## The accumulator in and out of the invariant -/

/-- A whole scoped buffer owned at some contents is its points-to at some contents. -/
theorem whole_owns1 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [Φ_eq1, scopedRest_scratch1]; unfold Φ1
  refine sep_mono ?_ .rfl
  rw [← whole_owns1 c]
  iintro ⟨%d, H⟩
  iexists d
  isplitr
  · ipureintro; intro h; exact absurd rfl h
  iexact H

/-- The invariant at the last point gives the scoped buffers back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [Φ_eq1, scopedRest_scratch1]; unfold Φ1
  refine sep_mono ?_ .rfl
  rw [← whole_owns1 c]
  iintro ⟨%d, -, H⟩
  iexists d
  iexact H

end Reg

/-! ## Entry and exit over a valuation of the core's buffers -/

section RegW
variable (W : Dev nD → Valuation τ sig (Elt F))

/-- A valuation read at the TensorCore's references. -/
abbrev rd1 (c : Dev nD) (b : Ref sig .tc) : Buf (Elt F) ((c : Thread nD τ).loc b) := W c b

/-- The core's unscoped buffers at `W`: the two arrays the call touches, and the rest. -/
theorem held_split1 (c : Dev nD) :
    (StableHlo.held (c : Thread nD τ) (Pipeline.ucRefs τ sig) (W c) : sProp 𝕄)
      = iprop(((((c : Thread nD τ).loc inRef1) ↦{fullShare} rd1 W c inRef1) ∗ (((c : Thread nD τ).loc outRef1) ↦{fullShare} rd1 W c outRef1))
          ∗ Pipeline.unscopedRest spec1 c (rd1 W c)) := by
  rw [← Pipeline.unscopedBufs_held (Ix := Unit) (Name := ℕ) (U := UR sig nD τ) (Lvl := ℕ) c (W c)]
  have hs : (unscopedBufs c (rd1 W c) : sProp 𝕄)
      = iprop(Pipeline.arrBufs spec1 c (rd1 W c) ∗ Pipeline.unscopedRest spec1 c (rd1 W c)) :=
    Pipeline.unscopedBufs_split₀ (fun _ : Unit => cfg1) () winFacts₀1.arr_unscoped c (rd1 W c)
  rw [hs]
  unfold Pipeline.arrBufs
  rw [show Finset.univ.image (Pipeline.arrRef spec1) = ([inRef1, outRef1] : List (Ref sig .tc)).toFinset from by decide,
    bigSep_eq_bigSepL _ (by decide)]
  rfl

/-- ENTRY: of the unscoped buffers, the read array is split into its two halves, one per input window, and the
    written array goes whole to the output window; the rest bypasses the call. -/
theorem entry1 (c : Dev nD) :
    (StableHlo.held (c : Thread nD τ) (Pipeline.ucRefs τ sig) (W c) : sProp 𝕄)
      ⊢ iprop((dat1 (rd1 W) c).arrays ((dat1 (rd1 W) c).arrAt · 0) ∗ Pipeline.unscopedRest spec1 c (rd1 W c)) := by
  rw [held_split1, arrays_eq1, arrAtK1, arrAtQ1, arrAtOz1]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW1 (c : Dev nD) : Valuation τ sig (Elt F) :=
  Function.update (W c) (Proc.devRef .tc outRef1) ((dat1 (rd1 W) c).arrAt 2 cfg1.N)

theorem exitWout1 (c : Dev nD) : exitW1 W c (Proc.devRef .tc outRef1) = (dat1 (rd1 W) c).arrAt 2 cfg1.N := by
  unfold exitW1; exact Function.update_self ..
theorem exitWne1 (c : Dev nD) (b : Ref sig .tc) (h : b ≠ outRef1) : exitW1 W c (Proc.devRef .tc b) = W c (Proc.devRef .tc b) := by
  unfold exitW1; exact Function.update_of_ne (StableHlo.devRef_ne_of_ne h) ..

/-- EXIT: the two halves of the read array, both still at the entry contents, rejoin; the written array is at what
    the write-backs made of it; with the rest these are the unscoped buffers at `exitW1`. -/
theorem exit1 (c : Dev nD) :
    iprop((dat1 (rd1 W) c).arrays ((dat1 (rd1 W) c).arrAt · cfg1.N) ∗ Pipeline.unscopedRest spec1 c (rd1 W c))
      ⊢ (StableHlo.held (c : Thread nD τ) (Pipeline.ucRefs τ sig) (exitW1 W c) : sProp 𝕄) := by
  have hrest : (Pipeline.unscopedRest spec1 c (rd1 (exitW1 W) c) : sProp 𝕄) = Pipeline.unscopedRest spec1 c (rd1 W c) := by
    unfold Pipeline.unscopedRest
    refine bigSep_congr fun b hb => ?_
    have hne : b ≠ outRef1 := fun e => (Finset.mem_sdiff.mp hb).2 (Finset.mem_image.mpr ⟨2, Finset.mem_univ _, e.symm⟩)
    have e : rd1 (exitW1 W) c b = rd1 W c b := exitWne1 W c b hne
    rw [e]
  have eIn : rd1 (exitW1 W) c inRef1 = rd1 W c inRef1 := exitWne1 W c inRef1 (by decide)
  have eOut : rd1 (exitW1 W) c outRef1 = (dat1 (rd1 W) c).arrAt 2 cfg1.N := exitWout1 W c
  rw [held_split1, eIn, eOut, hrest, arrays_eq1, arrAtK1, arrAtQ1]
  refine sep_mono ?_ .rfl
  refine sep_assoc.2.trans ?_
  exact sep_mono (pointsTo_share Cert.MeanShift.full_mem_halves).2 .rfl

end RegW

end Cert.Kernel.Step

end
-- ==== Proof.K.Body2.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.Kernel.Launch
import proofs.«117443_j19241453486857_2_alg».proof.Proof.Gen.Kernel.Skeleton
import proofs.«117443_j19241453486857_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff2 : (![0, 0] : Fin 2 → Nat) = fun _ => 0 := funext fun a => by fin_cases a <;> rfl

/-- The key block, the query block and the accumulator, each accessed whole; -/
abbrev rKeys2 : Rect S32x3072 := Rect.unit (s := S32x3072) ![0, 0] S32x3072.size inb_S32x3072_S32x3072_0_0
abbrev rQry2 : Rect S32x768 := Rect.unit (s := S32x768) ![0, 0] S32x768.size inb_S32x768_S32x768_0_0
abbrev rAcc2 : Rect S40x768 := Rect.unit (s := S40x768) ![0, 0] S40x768.size inb_S40x768_S40x768_0_0
/-- the accumulator's rows 0 to 31 (the weighted sums) and its row 32 (the degrees). -/
abbrev rTop2 : Rect S40x768 := Rect.unit (s := S40x768) ![0, 0] S32x768.size inb_S40x768_S32x768_0_0
abbrev rRow2 : Rect S40x768 := Rect.unit (s := S40x768) ![32, 0] S1x768.size inb_S40x768_S1x768_32_0

/-- Rows 0 to 31 of an accumulator: the weighted sums. -/
def top2 (s : Vec F S40x768 .f32) : Vec F S32x768 .f32 := View.ld s rTop2
/-- Row 32 of an accumulator: the degrees. -/
def row2 (s : Vec F S40x768 .f32) : Vec F S1x768 .f32 := View.ld s rRow2

section Whole
variable {κ : Kind} {sp : Space} {S : Shape} {e : EltTy}

/-- A load of a whole buffer reads its contents. -/
theorem readWhole2 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole2 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole2 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored2_first :
    va.read (Elt F) (va.writes (Elt F) fa
      [⟨rAcc2, k2_pay2 (vk.readAt (Elt F) rKeys2.toLoadRect fk) (vq.readAt (Elt F) rQry2.toLoadRect fq)
          (va.readCov [(⟨rAcc2, k2_pay1 (F := F)⟩ : View.Piece (Elt F) S40x768 .f32)] rAcc2.toLoadRect)⟩,
       ⟨rAcc2, k2_pay1 (F := F)⟩])
      = k2_pay2 (vk.read (Elt F) fk) (vq.read (Elt F) fq) (k2_pay1 (F := F)) := by
  refine (readStoreWhole2 (S := S40x768) va fa zeroOff2 _ _ _).trans ?_
  rw [readCovWhole2 (S := S40x768) va zeroOff2 _ _ [] rAcc2, readWhole2 (S := S32x3072) vk fk zeroOff2,
    readWhole2 (S := S32x768) vq fq zeroOff2, View.ld_unit_zero (S := S40x768) zeroOff2]

/-- The accumulator after a later reduction point: read, the point's terms added, stored. -/
theorem stored2_later :
    va.read (Elt F) (va.writes (Elt F) fa
      [⟨rAcc2, k2_pay2 (vk.readAt (Elt F) rKeys2.toLoadRect fk) (vq.readAt (Elt F) rQry2.toLoadRect fq)
          (va.readAt (Elt F) rAcc2.toLoadRect fa)⟩])
      = k2_pay2 (vk.read (Elt F) fk) (vq.read (Elt F) fq) (va.read (Elt F) fa) := by
  refine (readStoreWhole2 (S := S40x768) va fa zeroOff2 _ _ _).trans ?_
  rw [readWhole2 (S := S32x3072) vk fk zeroOff2, readWhole2 (S := S32x768) vq fq zeroOff2,
    readWhole2 (S := S40x768) va fa zeroOff2]

/-- The output block after a last reduction point: the step's value from the accumulator just stored. -/
theorem stored2_out (P : Vec F S40x768 .f32) :
    vo.read (Elt F) (vo.writes (Elt F) fo
      [⟨rQry2, k2_pay3 (va.readCov [(⟨rAcc2, P⟩ : View.Piece (Elt F) S40x768 .f32)] rTop2.toLoadRect)
          (va.readCov [(⟨rAcc2, P⟩ : View.Piece (Elt F) S40x768 .f32)] rRow2.toLoadRect)
          (vq.readAt (Elt F) rQry2.toLoadRect fq)⟩])
      = k2_pay3 (top2 P) (row2 P) (vq.read (Elt F) fq) := by
  refine (readStoreWhole2 (S := S32x768) vo fo zeroOff2 _ _ _).trans ?_
  rw [readCovWhole2 (S := S40x768) va zeroOff2 _ P [] rTop2, readCovWhole2 (S := S40x768) va zeroOff2 _ P [] rRow2,
    readWhole2 (S := S32x768) vq fq zeroOff2]
  rfl

end Stored

/-! ## The body's two conditions, from the reduction coordinate -/

theorem hzero2_first (i : grid2.Coords) (hi : (i 1).val = 0) :
    Scalar.cmpi .ne (Scalar.extui (Scalar.cmpi .eq (BitVec.ofNat 32 (i 1).val) 0#32)) 0#32 = 1#1 := by
  rw [hi]; decide
theorem hzero2_later (i : grid2.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin2_last (i : grid2.Coords) (hi : (i 1).val = 2) : k2_cond2 i = 1#1 := by
  unfold k2_cond2; dsimp only; rw [hi]; decide
theorem hfin2_earlier (i : grid2.Coords) (hi : (i 1).val ≠ 2) : ¬ (k2_cond2 i = 1#1) := by
  have h := (i 1).isLt
  have h' : (i 1).val < 3 := h
  have : (i 1).val = 0 ∨ (i 1).val = 1 := by omega
  unfold k2_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel2_first (c : Dev nD) (E : Set ℕ) (i : grid2.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k2_pay2 x0 x1 (k2_pay1 (F := F)))) -∗ K ⟨⟩))
      ⊢ wp frame (wpE (defs₀ (F := F)) Variants.none c none) E (cc2__ms_step_kernel i arg2 harg2 arg3 harg3 arg4 harg4 arg5 harg5) K := by
  have hc1 := hzero2_first i hi
  have hc2 := hfin2_earlier i (by omega)
  simp only [cc2__ms_step_kernel_eq_skeleton]; unfold cc2__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored2_first (F := F) _ _ _ _ _ _

set_option maxHeartbeats 1000000 in
/-- A middle reduction point (`k = 1`): the point's terms are added to the accumulator; the output block is left as
    found. -/
theorem sound_kernel2_mid (c : Dev nD) (E : Set ℕ) (i : grid2.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k2_pay2 x0 x1 s)) -∗ K ⟨⟩))
      ⊢ wp frame (wpE (defs₀ (F := F)) Variants.none c none) E (cc2__ms_step_kernel i arg2 harg2 arg3 harg3 arg4 harg4 arg5 harg5) K := by
  have hc1 := hzero2_later i (by omega)
  have hc2 := hfin2_earlier i (by omega)
  simp only [cc2__ms_step_kernel_eq_skeleton]; unfold cc2__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored2_later (F := F) _ _ _ _ _ _

set_option maxHeartbeats 1000000 in
/-- A last reduction point (`k = 2`): the point's terms are added to the accumulator, and the output block, whatever
    it held, gets the step's value from the finished sums, the degrees and the queries. -/
theorem sound_kernel2_last (c : Dev nD) (E : Set ℕ) (i : grid2.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k2_pay3 (top2 (k2_pay2 x0 x1 s)) (row2 (k2_pay2 x0 x1 s)) x1)
            ∗ owns (c : Thread nD τ) arg5 fullShare (k2_pay2 x0 x1 s)) -∗ K ⟨⟩))
      ⊢ wp frame (wpE (defs₀ (F := F)) Variants.none c none) E (cc2__ms_step_kernel i arg2 harg2 arg3 harg3 arg4 harg4 arg5 harg5) K := by
  have hc1 := hzero2_later i (by omega)
  have hc2 := hfin2_last i hi
  simp only [cc2__ms_step_kernel_eq_skeleton]; unfold cc2__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored2_out (F := F) arg3.view arg4.view arg5.view f1 f2 _).trans ?_
    rw [readWhole2 (S := S32x3072) arg2.view f0 zeroOff2, readWhole2 (S := S32x768) arg3.view f1 zeroOff2,
      readWhole2 (S := S40x768) arg5.view f3 zeroOff2]
  iexists _; isplitr
  swap; · iexact H3
  ipureintro
  sl_unfold_run_names
  exact stored2_later (F := F) _ _ _ _ _ _

end Cert.Kernel.Step

end
-- ==== Proof.K.Data2.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.K.Body2
import proofs.«117443_j19241453486857_2_alg».proof.Proof.Shares
import Idealize.ShloMosaic.Lib.Pipeline.FrameBody
import Idealize.ShloMosaic.Lib.Pipeline.Kit

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after `n` points: zero before the first; each point adds its key block's terms to what the
    point before left, or to zero when it opens a query block (`n % 3 = 0`). -/
def scr2 (c : Dev nD) : ℕ → Vec F S40x768 .f32
  | 0 => k2_pay1
  | n + 1 =>
    if h : n < cfg2.N then
      k2_pay2 (iblk2 V c 0 ⟨n, h⟩) (iblk2 V c 1 ⟨n, h⟩) (if n % 3 = 0 then k2_pay1 else scr2 c n)
    else scr2 c n

theorem scr2_zero (c : Dev nD) : scr2 V c 0 = k2_pay1 (F := F) := rfl

/-- The recursion at a point of the grid. -/
theorem scr2_succ (c : Dev nD) (t : Fin cfg2.N) :
    scr2 V c (t.val + 1) = k2_pay2 (iblk2 V c 0 t) (iblk2 V c 1 t) (if t.val % 3 = 0 then k2_pay1 else scr2 V c t.val) := by
  rw [scr2, dif_pos t.isLt]

/-- The output block after point `t` (meaningful where `t % 3 = 2`, the only points that store it): the step's value
    from the accumulator's finished sums and degrees and the query block. -/
def out2 (c : Dev nD) (t : Fin cfg2.N) : Vec F S32x768 .f32 :=
  k2_pay3 (top2 (scr2 V c (t.val + 1))) (row2 (scr2 V c (t.val + 1))) (iblk2 V c 1 t)

/-! ## The invariant -/

/-- Every scoped buffer but the call's accumulator and its staging buffers, at anything. -/
def rest2 (c : Dev nD) : sProp 𝕄 :=
  Pipeline.scopedRestBut (Ix := Unit) (Name := ℕ) (U := UR sig nD τ) (Lvl := ℕ) (Val := Elt F) spec2 c [cc2_scratch0]

/-- The scoped buffers that are no staging buffer of the call: its accumulator, and the rest. -/
theorem scopedRest_scratch2 (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 (F := F) c) := by
  rw [Pipeline.scopedRest_split_of_list (win := spec2) (c := c) [cc2_scratch0] (by decide) (List.nodup_singleton _)]
  rfl

/-- Before point `t` (after point `t - 1`): the accumulator whole, at the running sum except where the next point
    re-zeroes it; every other scoped buffer no window of the call stages, at anything. -/
def Φ2 (c : Dev nD) (t : Fin (cfg2.N + 1)) : sProp 𝕄 :=
  iprop((∃ d : Vec F S40x768 .f32, ⌜t.val % 3 ≠ 0 → d = scr2 V c t.val⌝ ∗ owns (c : Thread nD τ) (Memref.whole cc2_scratch0) fullShare d) ∗ rest2 (F := F) c)

/-! ## The pipeline's proof data -/

/-- The proof data of the call on core `c`: the arrays as the call finds them; after the body at point `t` the two
    input windows' buffers at their blocks and the output window's at `out2`; the invariant `Φ2`; nothing owed; the
    two input windows, which read one array, at complementary halves of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := Φ2 V c t
  q w := Cert.MeanShift.winShare w
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem Φ_eq2 (c : Dev nD) (t : Fin (cfg2.N + 1)) : (dat2 V c).Φ t = Φ2 V c t := by dsimp only [dat2]
theorem q_eq2 (c : Dev nD) (w : Fin cfg2.W) : (dat2 V c).q w = Cert.MeanShift.winShare w := by dsimp only [dat2]
theorem owed_eq2 (c : Dev nD) (t : Fin (cfg2.N + 1)) : (dat2 V c).owed t = 0 := by dsimp only [dat2]

/-! ## What the body finds in the input windows -/

/-- An input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The grid's reduction coordinate, and where the output window is idle -/

/-- Point `t`'s reduction coordinate is `t % 3`. -/
theorem coordK2 : ∀ t : Fin cfg2.N, ((cfg2.grid.coords t) 1).val = t.val % 3 :=
  (by decide +kernel : ∀ t : Fin grid2.N, ((grid2.coords t) 1).val = t.val % 3)

/-- The output window is idle at the points that are not a query block's last, and is not written back there. -/
theorem idle2_out (t : Fin cfg2.N) (h : t.val % 3 ≠ 2) : cfg2.idle 2 (cfg2.grid.coords t) = true := by
  have hc := hfin2_earlier (cfg2.grid.coords t) (by rw [coordK2]; exact h)
  show (!(k2_cond2 (cfg2.grid.coords t) == 1#1)) = true
  simp only [Bool.not_eq_true', beq_eq_false_iff_ne, ne_eq]; exact hc
theorem live2_out (t : Fin cfg2.N) (h : t.val % 3 = 2) : cfg2.idle 2 (cfg2.grid.coords t) = false := by
  have hc := hfin2_last (cfg2.grid.coords t) (by rw [coordK2]; exact h)
  show (!(k2_cond2 (cfg2.grid.coords t) == 1#1)) = false
  rw [hc]; rfl
theorem noflush2_out (t : Fin cfg2.N) (h : t.val % 3 ≠ 2) : (cfg2.win 2).flush t = false :=
  Bool.eq_false_iff.mpr (mt (flush2_2 t).mp h)

/-- At a query block's last reduction point the output window is live: the body leaves it at what it stores. -/
theorem leaves2_last (c : Dev nD) (t : Fin cfg2.N) (h : t.val % 3 = 2) :
    (dat2 V c).leavesExact 2 t = owns (c : Thread nD τ) (st2_2 t) fullShare ((dat2 V c).after 2 t) := by
  unfold Dat.leavesExact; rw [live2_out t h]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the output window's buffer as found where the window is idle, at the step's value where it
    is stored. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (dat2 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have hcoord := coordK2 t
  rcases (show t.val % 3 = 0 ∨ t.val % 3 = 1 ∨ t.val % 3 = 2 by omega) with hk | hk | hk
  · rw [Dat.leavesExact_idle (dat2 V c) 2 t (idle2_out t (by omega)) (noflush2_out t (by omega))]
    simp only [before2_0, before2_1]
    rw [show (dat2 V c).owesAt () t.succ = (dat2 V c).owesAt () t.castSucc from rfl, after2_0, after2_1, Φ_eq2, Φ_eq2]
    unfold Φ2
    iintro ⟨⟨⟨%s, -, Hs⟩, Hr⟩, Ho, ⟨%d0, H0⟩, ⟨%d1, H1⟩, ⟨%d2, H2⟩⟩
    iapply (sound_kernel2_first c Set.univ (grid2.coords t) (hcoord.trans hk) _ _ _ _ _ _ _ _ (iblk2 V c 0 t) (iblk2 V c 1 t) ((dat2 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr2 V c (t.val + 1)
        rw [scr2_succ, if_pos hk]
      · iexact Hr
    isplitl [Ho]; · iexact Ho
    isplitl [H0]; · iexact H0
    isplitl [H1]; · iexact H1
    iexists d2; iexact H2
  · rw [Dat.leavesExact_idle (dat2 V c) 2 t (idle2_out t (by omega)) (noflush2_out t (by omega))]
    simp only [before2_0, before2_1]
    rw [show (dat2 V c).owesAt () t.succ = (dat2 V c).owesAt () t.castSucc from rfl, after2_0, after2_1, Φ_eq2, Φ_eq2]
    unfold Φ2
    iintro ⟨⟨⟨%s, %hs, Hs⟩, Hr⟩, Ho, ⟨%d0, H0⟩, ⟨%d1, H1⟩, ⟨%d2, H2⟩⟩
    have hs' : s = scr2 V c t.val := hs (by show t.val % 3 ≠ 0; omega)
    subst hs'
    iapply (sound_kernel2_mid c Set.univ (grid2.coords t) (hcoord.trans hk) _ _ _ _ _ _ _ _ (iblk2 V c 0 t) (iblk2 V c 1 t) ((dat2 V c).before 2 t d2) (scr2 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr2 V c (t.val + 1)
        rw [scr2_succ, if_neg (by omega)]
      · iexact Hr
    isplitl [Ho]; · iexact Ho
    isplitl [H0]; · iexact H0
    isplitl [H1]; · iexact H1
    iexists d2; iexact H2
  · rw [leaves2_last V c t hk]
    simp only [before2_0, before2_1]
    rw [show (dat2 V c).owesAt () t.succ = (dat2 V c).owesAt () t.castSucc from rfl, after2_0, after2_1, after2_2, Φ_eq2, Φ_eq2]
    unfold Φ2 out2
    iintro ⟨⟨⟨%s, %hs, Hs⟩, Hr⟩, Ho, ⟨%d0, H0⟩, ⟨%d1, H1⟩, ⟨%d2, H2⟩⟩
    have hs' : s = scr2 V c t.val := hs (by show t.val % 3 ≠ 0; omega)
    subst hs'
    have hnext : scr2 V c (t.val + 1) = k2_pay2 (iblk2 V c 0 t) (iblk2 V c 1 t) (scr2 V c t.val) := by
      rw [scr2_succ, if_neg (by omega)]
    rw [hnext]
    iapply (sound_kernel2_last c Set.univ (grid2.coords t) (hcoord.trans hk) _ _ _ _ _ _ _ _ (iblk2 V c 0 t) (iblk2 V c 1 t) (scr2 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr2 V c (t.val + 1)
        exact hnext.symm
      · iexact Hr
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Step

end
-- ==== Proof.K.Reg2.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.K.Data2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef2 : Ref sig .tc := Pipeline.arrRef spec2 0
abbrev outRef2 : Ref sig .tc := Pipeline.arrRef spec2 2

section Reg
variable (V : (c : Dev nD) → (b : Ref sig .tc) → Buf (Elt F) ((c : Thread nD τ).loc b))

/-- The keys' window and the queries' window hold the two halves of their common array, the output window its own whole. -/
theorem shareK2 (c : Dev nD) : (dat2 V c).share 0 = Cert.MeanShift.shareL := by
  unfold Dat.share; rw [q_eq2]; rfl
theorem shareQ2 (c : Dev nD) : (dat2 V c).share 1 = Cert.MeanShift.shareR := by
  unfold Dat.share; rw [q_eq2]; rfl
theorem shareO2 (c : Dev nD) : (dat2 V c).share 2 = fullShare := by
  unfold Dat.share; rfl

/-- The pipeline's arrays at contents `G`, window by window: the read array twice, at the two halves, and the written
    array whole. -/
theorem arrays_eq2 (c : Dev nD) (G : (w : Fin cfg2.W) → Buf (Elt F) ((cfg2.win w).arr.view.loc (c.tc : Thread nD τ))) :
    ((dat2 V c).arrays G : sProp 𝕄)
      = iprop((((c : Thread nD τ).loc inRef2) ↦{Cert.MeanShift.shareL} G 0) ∗ (((c : Thread nD τ).loc inRef2) ↦{Cert.MeanShift.shareR} G 1)
          ∗ (((c : Thread nD τ).loc outRef2) ↦{fullShare} G 2)) := by
  unfold Dat.arrays
  rw [bigSep_W2, shareK2, shareQ2, shareO2, (arr_whole2 0).set_eq_univ, (arr_whole2 2).set_eq_univ]

/-- An input window's array is never written: at every point it holds the entry contents. -/
theorem arrAtK2 (c : Dev nD) (n : ℕ) : (dat2 V c).arrAt 0 n = V c inRef2 :=
  ((dat2 V c).arrAt_in 0 rfl n).trans (A_eq2 V c 0)
theorem arrAtQ2 (c : Dev nD) (n : ℕ) : (dat2 V c).arrAt 1 n = V c inRef2 :=
  ((dat2 V c).arrAt_in 1 rfl n).trans (A_eq2 V c 1)
/-- Before the first point the written array holds its entry contents. -/
theorem arrAtOz2 (c : Dev nD) : (dat2 V c).arrAt 2 0 = V c outRef2 :=
  A_eq2 V c 2

/-! ## The accumulator in and out of the invariant -/

/-- A whole scoped buffer owned at some contents is its points-to at some contents. -/
theorem whole_owns2 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [Φ_eq2, scopedRest_scratch2]; unfold Φ2
  refine sep_mono ?_ .rfl
  rw [← whole_owns2 c]
  iintro ⟨%d, H⟩
  iexists d
  isplitr
  · ipureintro; intro h; exact absurd rfl h
  iexact H

/-- The invariant at the last point gives the scoped buffers back, the accumulator's contents forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [Φ_eq2, scopedRest_scratch2]; unfold Φ2
  refine sep_mono ?_ .rfl
  rw [← whole_owns2 c]
  iintro ⟨%d, -, H⟩
  iexists d
  iexact H

end Reg

/-! ## Entry and exit over a valuation of the core's buffers -/

section RegW
variable (W : Dev nD → Valuation τ sig (Elt F))

/-- A valuation read at the TensorCore's references. -/
abbrev rd2 (c : Dev nD) (b : Ref sig .tc) : Buf (Elt F) ((c : Thread nD τ).loc b) := W c b

/-- The core's unscoped buffers at `W`: the two arrays the call touches, and the rest. -/
theorem held_split2 (c : Dev nD) :
    (StableHlo.held (c : Thread nD τ) (Pipeline.ucRefs τ sig) (W c) : sProp 𝕄)
      = iprop(((((c : Thread nD τ).loc inRef2) ↦{fullShare} rd2 W c inRef2) ∗ (((c : Thread nD τ).loc outRef2) ↦{fullShare} rd2 W c outRef2))
          ∗ Pipeline.unscopedRest spec2 c (rd2 W c)) := by
  rw [← Pipeline.unscopedBufs_held (Ix := Unit) (Name := ℕ) (U := UR sig nD τ) (Lvl := ℕ) c (W c)]
  have hs : (unscopedBufs c (rd2 W c) : sProp 𝕄)
      = iprop(Pipeline.arrBufs spec2 c (rd2 W c) ∗ Pipeline.unscopedRest spec2 c (rd2 W c)) :=
    Pipeline.unscopedBufs_split₀ (fun _ : Unit => cfg2) () winFacts₀2.arr_unscoped c (rd2 W c)
  rw [hs]
  unfold Pipeline.arrBufs
  rw [show Finset.univ.image (Pipeline.arrRef spec2) = ([inRef2, outRef2] : List (Ref sig .tc)).toFinset from by decide,
    bigSep_eq_bigSepL _ (by decide)]
  rfl

/-- ENTRY: of the unscoped buffers, the read array is split into its two halves, one per input window, and the
    written array goes whole to the output window; the rest bypasses the call. -/
theorem entry2 (c : Dev nD) :
    (StableHlo.held (c : Thread nD τ) (Pipeline.ucRefs τ sig) (W c) : sProp 𝕄)
      ⊢ iprop((dat2 (rd2 W) c).arrays ((dat2 (rd2 W) c).arrAt · 0) ∗ Pipeline.unscopedRest spec2 c (rd2 W c)) := by
  rw [held_split2, arrays_eq2, arrAtK2, arrAtQ2, arrAtOz2]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW2 (c : Dev nD) : Valuation τ sig (Elt F) :=
  Function.update (W c) (Proc.devRef .tc outRef2) ((dat2 (rd2 W) c).arrAt 2 cfg2.N)

theorem exitWout2 (c : Dev nD) : exitW2 W c (Proc.devRef .tc outRef2) = (dat2 (rd2 W) c).arrAt 2 cfg2.N := by
  unfold exitW2; exact Function.update_self ..
theorem exitWne2 (c : Dev nD) (b : Ref sig .tc) (h : b ≠ outRef2) : exitW2 W c (Proc.devRef .tc b) = W c (Proc.devRef .tc b) := by
  unfold exitW2; exact Function.update_of_ne (StableHlo.devRef_ne_of_ne h) ..

/-- EXIT: the two halves of the read array, both still at the entry contents, rejoin; the written array is at what
    the write-backs made of it; with the rest these are the unscoped buffers at `exitW2`. -/
theorem exit2 (c : Dev nD) :
    iprop((dat2 (rd2 W) c).arrays ((dat2 (rd2 W) c).arrAt · cfg2.N) ∗ Pipeline.unscopedRest spec2 c (rd2 W c))
      ⊢ (StableHlo.held (c : Thread nD τ) (Pipeline.ucRefs τ sig) (exitW2 W c) : sProp 𝕄) := by
  have hrest : (Pipeline.unscopedRest spec2 c (rd2 (exitW2 W) c) : sProp 𝕄) = Pipeline.unscopedRest spec2 c (rd2 W c) := by
    unfold Pipeline.unscopedRest
    refine bigSep_congr fun b hb => ?_
    have hne : b ≠ outRef2 := fun e => (Finset.mem_sdiff.mp hb).2 (Finset.mem_image.mpr ⟨2, Finset.mem_univ _, e.symm⟩)
    have e : rd2 (exitW2 W) c b = rd2 W c b := exitWne2 W c b hne
    rw [e]
  have eIn : rd2 (exitW2 W) c inRef2 = rd2 W c inRef2 := exitWne2 W c inRef2 (by decide)
  have eOut : rd2 (exitW2 W) c outRef2 = (dat2 (rd2 W) c).arrAt 2 cfg2.N := exitWout2 W c
  rw [held_split2, eIn, eOut, hrest, arrays_eq2, arrAtK2, arrAtQ2]
  refine sep_mono ?_ .rfl
  refine sep_assoc.2.trans ?_
  exact sep_mono (pointsTo_share Cert.MeanShift.full_mem_halves).2 .rfl

end RegW

end Cert.Kernel.Step

end
-- ==== Proof.K.Run.lean ====
/-
  The whole program as a run of segments: a reshape of the argument into channels-by-points, three mean-shift steps,
  and the stacking of the argument's points with the three iterates.

  The core's unscoped buffers are followed from the launch through every segment: `W0` at launch, `W1` after the
  reshape, `W2`, `W3`, `W4` after the first, second and third step — each step changing only the array it writes —
  and `W5` after the stacking.  Every final state holds `W5` in the unscoped buffers; in particular the argument is
  as launched.
-/
import proofs.«117443_j19241453486857_2_alg».proof.Proof.K.Reg0
import proofs.«117443_j19241453486857_2_alg».proof.Proof.K.Reg1
import proofs.«117443_j19241453486857_2_alg».proof.Proof.K.Reg2
import proofs.«117443_j19241453486857_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (⟨m, fun _ => 0, ρ⟩ : MemSt nD τ sig (Elt F)).mem ((c : Dev nD), b)
/-- After the reshape of the argument (the first step's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the first step: its written array at what the write-backs made of it, every other buffer as entered. -/
def W2 : Dev nD → Valuation τ sig (Elt F) := exitW0 (W1 m ρ)
abbrev V2 : (c : Dev nD) → (b : Ref sig .tc) → Buf (Elt F) ((c : Thread nD τ).loc b) := fun c b => W2 m ρ c b
/-- After the second step. -/
def W3 : Dev nD → Valuation τ sig (Elt F) := exitW1 (W2 m ρ)
abbrev V3 : (c : Dev nD) → (b : Ref sig .tc) → Buf (Elt F) ((c : Thread nD τ).loc b) := fun c b => W3 m ρ c b
/-- After the third step. -/
def W4 : Dev nD → Valuation τ sig (Elt F) := exitW2 (W3 m ρ)
/-- After the stacking: what the program ends with. -/
abbrev W5 : Dev nD → Valuation τ sig (Elt F) := fun c => StableHlo.after hostOps3 (W4 m ρ c)

/-! ### Reading the fold -/

/-- What each step leaves in the array it writes. -/
theorem W2_main_v1 (c : Dev nD) : W2 m ρ c (Proc.devRef .tc main_v1) = (dat0 (V1 m ρ) c).arrAt 2 cfg0.N := exitWout0 (W1 m ρ) c
theorem W3_main_v2 (c : Dev nD) : W3 m ρ c (Proc.devRef .tc main_v2) = (dat1 (V2 m ρ) c).arrAt 2 cfg1.N := exitWout1 (W2 m ρ) c
theorem W4_main_v3 (c : Dev nD) : W4 m ρ c (Proc.devRef .tc main_v3) = (dat2 (V3 m ρ) c).arrAt 2 cfg2.N := exitWout2 (W3 m ρ) c

/-- Every other buffer passes through a step unchanged. -/
theorem W2_of (c : Dev nD) (r : Ref sig .tc) (h : r ≠ main_v1) : W2 m ρ c (Proc.devRef .tc r) = W1 m ρ c (Proc.devRef .tc r) := exitWne0 (W1 m ρ) c r h
theorem W3_of (c : Dev nD) (r : Ref sig .tc) (h : r ≠ main_v2) : W3 m ρ c (Proc.devRef .tc r) = W2 m ρ c (Proc.devRef .tc r) := exitWne1 (W2 m ρ) c r h
theorem W4_of (c : Dev nD) (r : Ref sig .tc) (h : r ≠ main_v3) : W4 m ρ c (Proc.devRef .tc r) = W3 m ρ c (Proc.devRef .tc r) := exitWne2 (W3 m ρ) c r h

/-- A buffer no operation of a host stretch writes passes through it unchanged. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h

/-- The argument ends as launched: no host stretch writes it, no step may change it. -/
theorem W5_main_arg0 (c : Dev nD) : W5 m ρ c (Proc.devRef .tc main_arg0) = m ((c : Thread nD τ).loc main_arg0) :=
  (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl

/-! ## The proof data family and the thread state -/

/-- Every pipeline's proof data, each at its step's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The steps as segments -/

set_option backward.isDefEq.respectTransparency.types false in
/-- The first step over the thread state: entered from every unscoped buffer at `W1`, left at `W2`. The array
    it reads is split between its two input windows at entry and rejoined at exit; the accumulator enters the
    invariant at any contents and leaves it forgotten; the generator register bypasses the call; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := entry0 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (dat0 (V1 m ρ) c).Φ 0 from rfl]
    iintro ⟨-, -, Hr⟩
    iapply (hin0 (V1 m ρ) c)
    iexact Hr
  hout c := by
    rw [Pipeline.ownSems0_none, show (pdats m ρ 0 c).Φ (Fin.last _) = (dat0 (V1 m ρ) c).Φ (Fin.last cfg0.N) from rfl]
    iintro H
    isplitr; · iempintro
    isplitr; · iempintro
    iapply (hout0 (V1 m ρ) c)
    iexact H
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := exit0 (W1 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second step over the thread state: entered from every unscoped buffer at `W2`, left at `W3`. The array
    it reads is split between its two input windows at entry and rejoined at exit; the accumulator enters the
    invariant at any contents and leaves it forgotten; the generator register bypasses the call; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(emp)
  Y c := iprop(emp)
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) := entry1 (W2 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (V2 m ρ) c).Φ 0 from rfl]
    iintro ⟨-, -, Hr⟩
    iapply (hin1 (V2 m ρ) c)
    iexact Hr
  hout c := by
    rw [Pipeline.ownSems0_none, show (pdats m ρ 1 c).Φ (Fin.last _) = (dat1 (V2 m ρ) c).Φ (Fin.last cfg1.N) from rfl]
    iintro H
    isplitr; · iempintro
    isplitr; · iempintro
    iapply (hout1 (V2 m ρ) c)
    iexact H
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := exit1 (W2 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The third step over the thread state: entered from every unscoped buffer at `W3`, left at `W4`. The array
    it reads is split between its two input windows at entry and rejoined at exit; the accumulator enters the
    invariant at any contents and leaves it forgotten; the generator register bypasses the call; nothing is owed. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(emp)
  Y c := iprop(emp)
  Z c := iprop(Pipeline.unscopedRest (Ix := Unit) (Name := ℕ) (U := UR sig nD τ) (Lvl := ℕ) spec2 c (V3 m ρ c) ∗ ∃ r, prngReg c r)
  hentry c := by
    rw [Pipeline.ownSems0_none]
    have hsplit : (StableHlo.held (c : Thread nD τ) (Pipeline.ucRefs τ sig) (W3 m ρ c) : sProp 𝕄)
        ⊢ iprop((pdats m ρ 2 c).arrays ((pdats m ρ 2 c).arrAt · 0)
          ∗ Pipeline.unscopedRest (Ix := Unit) (Name := ℕ) (U := UR sig nD τ) (Lvl := ℕ) spec2 c (V3 m ρ c)) := entry2 (W3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (dat2 (V3 m ρ) c).Φ 0 from rfl]
    iintro ⟨-, -, Hr⟩
    iapply (hin2 (V3 m ρ) c)
    iexact Hr
  hout c := by
    rw [Pipeline.ownSems0_none, show (pdats m ρ 2 c).Φ (Fin.last _) = (dat2 (V3 m ρ) c).Φ (Fin.last cfg2.N) from rfl]
    iintro H
    isplitr; · iempintro
    isplitr; · iempintro
    iapply (hout2 (V3 m ρ) c)
    iexact H
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (V3 m ρ c))
        ⊢ (StableHlo.held (c : Thread nD τ) (Pipeline.ucRefs τ sig) (W4 m ρ c) : sProp 𝕄) := exit2 (W3 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's five segments in order: the reshape, the three steps, the stacking. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state satisfies any `Q` that follows from its unscoped buffers holding `W5`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl,
      fun c => (show iprop(StableHlo.held (c : Thread nD τ) (Pipeline.ucRefs τ sig) (W5 m ρ c) ∗ R c) ⊢ _ from sep_assoc.2)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every final state holds `W5` in every unscoped buffer of every core. -/
theorem run : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_of m ρ fun _ h => h

/-- THE FRAME: every final state has the argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_of m ρ fun _ h c => (h c _ (mem_uc main_arg0 (by decide))).trans (W5_main_arg0 m ρ c)

end Cert.Kernel.Step

end
-- ==== Proof.KI.Body0.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.KernelIdeal.Launch
import proofs.«117443_j19241453486857_2_alg».proof.Proof.Gen.KernelIdeal.Skeleton
import proofs.«117443_j19241453486857_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff0 : (![0, 0] : Fin 2 → Nat) = fun _ => 0 := funext fun a => by fin_cases a <;> rfl

/-- The key block, the query block and the accumulator, each accessed whole; -/
abbrev rKeys0 : Rect S32x3072 := Rect.unit (s := S32x3072) ![0, 0] S32x3072.size inb_S32x3072_S32x3072_0_0
abbrev rQry0 : Rect S32x768 := Rect.unit (s := S32x768) ![0, 0] S32x768.size inb_S32x768_S32x768_0_0
abbrev rAcc0 : Rect S40x768 := Rect.unit (s := S40x768) ![0, 0] S40x768.size inb_S40x768_S40x768_0_0
/-- the accumulator's rows 0 to 31 (the weighted sums) and its row 32 (the degrees). -/
abbrev rTop0 : Rect S40x768 := Rect.unit (s := S40x768) ![0, 0] S32x768.size inb_S40x768_S32x768_0_0
abbrev rRow0 : Rect S40x768 := Rect.unit (s := S40x768) ![32, 0] S1x768.size inb_S40x768_S1x768_32_0

/-- Rows 0 to 31 of an accumulator: the weighted sums. -/
def top0 (s : Vec F S40x768 .f32) : Vec F S32x768 .f32 := View.ld s rTop0
/-- Row 32 of an accumulator: the degrees. -/
def row0 (s : Vec F S40x768 .f32) : Vec F S1x768 .f32 := View.ld s rRow0

section Whole
variable {κ : Kind} {sp : Space} {S : Shape} {e : EltTy}

/-- A load of a whole buffer reads its contents. -/
theorem readWhole0 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole0 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole0 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored0_first :
    va.read (Elt F) (va.writes (Elt F) fa
      [⟨rAcc0, k0_pay2 (vk.readAt (Elt F) rKeys0.toLoadRect fk) (vq.readAt (Elt F) rQry0.toLoadRect fq)
          (va.readCov [(⟨rAcc0, k0_pay1 (F := F)⟩ : View.Piece (Elt F) S40x768 .f32)] rAcc0.toLoadRect)⟩,
       ⟨rAcc0, k0_pay1 (F := F)⟩])
      = k0_pay2 (vk.read (Elt F) fk) (vq.read (Elt F) fq) (k0_pay1 (F := F)) := by
  refine (readStoreWhole0 (S := S40x768) va fa zeroOff0 _ _ _).trans ?_
  rw [readCovWhole0 (S := S40x768) va zeroOff0 _ _ [] rAcc0, readWhole0 (S := S32x3072) vk fk zeroOff0,
    readWhole0 (S := S32x768) vq fq zeroOff0, View.ld_unit_zero (S := S40x768) zeroOff0]

/-- The accumulator after a later reduction point: read, the point's terms added, stored. -/
theorem stored0_later :
    va.read (Elt F) (va.writes (Elt F) fa
      [⟨rAcc0, k0_pay2 (vk.readAt (Elt F) rKeys0.toLoadRect fk) (vq.readAt (Elt F) rQry0.toLoadRect fq)
          (va.readAt (Elt F) rAcc0.toLoadRect fa)⟩])
      = k0_pay2 (vk.read (Elt F) fk) (vq.read (Elt F) fq) (va.read (Elt F) fa) := by
  refine (readStoreWhole0 (S := S40x768) va fa zeroOff0 _ _ _).trans ?_
  rw [readWhole0 (S := S32x3072) vk fk zeroOff0, readWhole0 (S := S32x768) vq fq zeroOff0,
    readWhole0 (S := S40x768) va fa zeroOff0]

/-- The output block after a last reduction point: the step's value from the accumulator just stored. -/
theorem stored0_out (P : Vec F S40x768 .f32) :
    vo.read (Elt F) (vo.writes (Elt F) fo
      [⟨rQry0, k0_pay3 (va.readCov [(⟨rAcc0, P⟩ : View.Piece (Elt F) S40x768 .f32)] rTop0.toLoadRect)
          (va.readCov [(⟨rAcc0, P⟩ : View.Piece (Elt F) S40x768 .f32)] rRow0.toLoadRect)
          (vq.readAt (Elt F) rQry0.toLoadRect fq)⟩])
      = k0_pay3 (top0 P) (row0 P) (vq.read (Elt F) fq) := by
  refine (readStoreWhole0 (S := S32x768) vo fo zeroOff0 _ _ _).trans ?_
  rw [readCovWhole0 (S := S40x768) va zeroOff0 _ P [] rTop0, readCovWhole0 (S := S40x768) va zeroOff0 _ P [] rRow0,
    readWhole0 (S := S32x768) vq fq zeroOff0]
  rfl

end Stored

/-! ## The body's two conditions, from the reduction coordinate -/

theorem hzero0_first (i : grid0.Coords) (hi : (i 1).val = 0) :
    Scalar.cmpi .ne (Scalar.extui (Scalar.cmpi .eq (BitVec.ofNat 32 (i 1).val) 0#32)) 0#32 = 1#1 := by
  rw [hi]; decide
theorem hzero0_later (i : grid0.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin0_last (i : grid0.Coords) (hi : (i 1).val = 2) : k0_cond2 i = 1#1 := by
  unfold k0_cond2; dsimp only; rw [hi]; decide
theorem hfin0_earlier (i : grid0.Coords) (hi : (i 1).val ≠ 2) : ¬ (k0_cond2 i = 1#1) := by
  have h := (i 1).isLt
  have h' : (i 1).val < 3 := h
  have : (i 1).val = 0 ∨ (i 1).val = 1 := by omega
  unfold k0_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel0_first (c : Dev nD) (E : Set ℕ) (i : grid0.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k0_pay2 x0 x1 (k0_pay1 (F := F)))) -∗ K ⟨⟩))
      ⊢ wp frame (wpE (defs₀ (F := F)) Variants.none c none) E (cc0__ms_step_kernel i arg2 harg2 arg3 harg3 arg4 harg4 arg5 harg5) K := by
  have hc1 := hzero0_first i hi
  have hc2 := hfin0_earlier i (by omega)
  simp only [cc0__ms_step_kernel_eq_skeleton]; unfold cc0__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored0_first (F := F) _ _ _ _ _ _

set_option maxHeartbeats 1000000 in
/-- A middle reduction point (`k = 1`): the point's terms are added to the accumulator; the output block is left as
    found. -/
theorem sound_kernel0_mid (c : Dev nD) (E : Set ℕ) (i : grid0.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k0_pay2 x0 x1 s)) -∗ K ⟨⟩))
      ⊢ wp frame (wpE (defs₀ (F := F)) Variants.none c none) E (cc0__ms_step_kernel i arg2 harg2 arg3 harg3 arg4 harg4 arg5 harg5) K := by
  have hc1 := hzero0_later i (by omega)
  have hc2 := hfin0_earlier i (by omega)
  simp only [cc0__ms_step_kernel_eq_skeleton]; unfold cc0__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored0_later (F := F) _ _ _ _ _ _

set_option maxHeartbeats 1000000 in
/-- A last reduction point (`k = 2`): the point's terms are added to the accumulator, and the output block, whatever
    it held, gets the step's value from the finished sums, the degrees and the queries. -/
theorem sound_kernel0_last (c : Dev nD) (E : Set ℕ) (i : grid0.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (top0 (k0_pay2 x0 x1 s)) (row0 (k0_pay2 x0 x1 s)) x1)
            ∗ owns (c : Thread nD τ) arg5 fullShare (k0_pay2 x0 x1 s)) -∗ K ⟨⟩))
      ⊢ wp frame (wpE (defs₀ (F := F)) Variants.none c none) E (cc0__ms_step_kernel i arg2 harg2 arg3 harg3 arg4 harg4 arg5 harg5) K := by
  have hc1 := hzero0_later i (by omega)
  have hc2 := hfin0_last i hi
  simp only [cc0__ms_step_kernel_eq_skeleton]; unfold cc0__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored0_out (F := F) arg3.view arg4.view arg5.view f1 f2 _).trans ?_
    rw [readWhole0 (S := S32x3072) arg2.view f0 zeroOff0, readWhole0 (S := S32x768) arg3.view f1 zeroOff0,
      readWhole0 (S := S40x768) arg5.view f3 zeroOff0]
  iexists _; isplitr
  swap; · iexact H3
  ipureintro
  sl_unfold_run_names
  exact stored0_later (F := F) _ _ _ _ _ _

end Cert.KernelIdeal.Step

end
-- ==== Proof.KI.Data0.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.KI.Body0
import proofs.«117443_j19241453486857_2_alg».proof.Proof.Shares
import Idealize.ShloMosaic.Lib.Pipeline.FrameBody
import Idealize.ShloMosaic.Lib.Pipeline.Kit

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after `n` points: zero before the first; each point adds its key block's terms to what the
    point before left, or to zero when it opens a query block (`n % 3 = 0`). -/
def scr0 (c : Dev nD) : ℕ → Vec F S40x768 .f32
  | 0 => k0_pay1
  | n + 1 =>
    if h : n < cfg0.N then
      k0_pay2 (iblk0 V c 0 ⟨n, h⟩) (iblk0 V c 1 ⟨n, h⟩) (if n % 3 = 0 then k0_pay1 else scr0 c n)
    else scr0 c n

theorem scr0_zero (c : Dev nD) : scr0 V c 0 = k0_pay1 (F := F) := rfl

/-- The recursion at a point of the grid. -/
theorem scr0_succ (c : Dev nD) (t : Fin cfg0.N) :
    scr0 V c (t.val + 1) = k0_pay2 (iblk0 V c 0 t) (iblk0 V c 1 t) (if t.val % 3 = 0 then k0_pay1 else scr0 V c t.val) := by
  rw [scr0, dif_pos t.isLt]

/-- The output block after point `t` (meaningful where `t % 3 = 2`, the only points that store it): the step's value
    from the accumulator's finished sums and degrees and the query block. -/
def out0 (c : Dev nD) (t : Fin cfg0.N) : Vec F S32x768 .f32 :=
  k0_pay3 (top0 (scr0 V c (t.val + 1))) (row0 (scr0 V c (t.val + 1))) (iblk0 V c 1 t)

/-! ## The invariant -/

/-- Every scoped buffer but the call's accumulator and its staging buffers, at anything. -/
def rest0 (c : Dev nD) : sProp 𝕄 :=
  Pipeline.scopedRestBut (Ix := Unit) (Name := ℕ) (U := UR sig nD τ) (Lvl := ℕ) (Val := Elt F) spec0 c [cc0_scratch0]

/-- The scoped buffers that are no staging buffer of the call: its accumulator, and the rest. -/
theorem scopedRest_scratch0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) := by
  rw [Pipeline.scopedRest_split_of_list (win := spec0) (c := c) [cc0_scratch0] (by decide) (List.nodup_singleton _)]
  rfl

/-- Before point `t` (after point `t - 1`): the accumulator whole, at the running sum except where the next point
    re-zeroes it; every other scoped buffer no window of the call stages, at anything. -/
def Φ0 (c : Dev nD) (t : Fin (cfg0.N + 1)) : sProp 𝕄 :=
  iprop((∃ d : Vec F S40x768 .f32, ⌜t.val % 3 ≠ 0 → d = scr0 V c t.val⌝ ∗ owns (c : Thread nD τ) (Memref.whole cc0_scratch0) fullShare d) ∗ rest0 (F := F) c)

/-! ## The pipeline's proof data -/

/-- The proof data of the call on core `c`: the arrays as the call finds them; after the body at point `t` the two
    input windows' buffers at their blocks and the output window's at `out0`; the invariant `Φ0`; nothing owed; the
    two input windows, which read one array, at complementary halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Φ0 V c t
  q w := Cert.MeanShift.winShare w
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem Φ_eq0 (c : Dev nD) (t : Fin (cfg0.N + 1)) : (dat0 V c).Φ t = Φ0 V c t := by dsimp only [dat0]
theorem q_eq0 (c : Dev nD) (w : Fin cfg0.W) : (dat0 V c).q w = Cert.MeanShift.winShare w := by dsimp only [dat0]
theorem owed_eq0 (c : Dev nD) (t : Fin (cfg0.N + 1)) : (dat0 V c).owed t = 0 := by dsimp only [dat0]

/-! ## What the body finds in the input windows -/

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The grid's reduction coordinate, and where the output window is idle -/

/-- Point `t`'s reduction coordinate is `t % 3`. -/
theorem coordK0 : ∀ t : Fin cfg0.N, ((cfg0.grid.coords t) 1).val = t.val % 3 :=
  (by decide +kernel : ∀ t : Fin grid0.N, ((grid0.coords t) 1).val = t.val % 3)

/-- The output window is idle at the points that are not a query block's last, and is not written back there. -/
theorem idle0_out (t : Fin cfg0.N) (h : t.val % 3 ≠ 2) : cfg0.idle 2 (cfg0.grid.coords t) = true := by
  have hc := hfin0_earlier (cfg0.grid.coords t) (by rw [coordK0]; exact h)
  show (!(k0_cond2 (cfg0.grid.coords t) == 1#1)) = true
  simp only [Bool.not_eq_true', beq_eq_false_iff_ne, ne_eq]; exact hc
theorem live0_out (t : Fin cfg0.N) (h : t.val % 3 = 2) : cfg0.idle 2 (cfg0.grid.coords t) = false := by
  have hc := hfin0_last (cfg0.grid.coords t) (by rw [coordK0]; exact h)
  show (!(k0_cond2 (cfg0.grid.coords t) == 1#1)) = false
  rw [hc]; rfl
theorem noflush0_out (t : Fin cfg0.N) (h : t.val % 3 ≠ 2) : (cfg0.win 2).flush t = false :=
  Bool.eq_false_iff.mpr (mt (flush0_2 t).mp h)

/-- At a query block's last reduction point the output window is live: the body leaves it at what it stores. -/
theorem leaves0_last (c : Dev nD) (t : Fin cfg0.N) (h : t.val % 3 = 2) :
    (dat0 V c).leavesExact 2 t = owns (c : Thread nD τ) (st0_2 t) fullShare ((dat0 V c).after 2 t) := by
  unfold Dat.leavesExact; rw [live0_out t h]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the output window's buffer as found where the window is idle, at the step's value where it
    is stored. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have hcoord := coordK0 t
  rcases (show t.val % 3 = 0 ∨ t.val % 3 = 1 ∨ t.val % 3 = 2 by omega) with hk | hk | hk
  · rw [Dat.leavesExact_idle (dat0 V c) 2 t (idle0_out t (by omega)) (noflush0_out t (by omega))]
    simp only [before0_0, before0_1]
    rw [show (dat0 V c).owesAt () t.succ = (dat0 V c).owesAt () t.castSucc from rfl, after0_0, after0_1, Φ_eq0, Φ_eq0]
    unfold Φ0
    iintro ⟨⟨⟨%s, -, Hs⟩, Hr⟩, Ho, ⟨%d0, H0⟩, ⟨%d1, H1⟩, ⟨%d2, H2⟩⟩
    iapply (sound_kernel0_first c Set.univ (grid0.coords t) (hcoord.trans hk) _ _ _ _ _ _ _ _ (iblk0 V c 0 t) (iblk0 V c 1 t) ((dat0 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr0 V c (t.val + 1)
        rw [scr0_succ, if_pos hk]
      · iexact Hr
    isplitl [Ho]; · iexact Ho
    isplitl [H0]; · iexact H0
    isplitl [H1]; · iexact H1
    iexists d2; iexact H2
  · rw [Dat.leavesExact_idle (dat0 V c) 2 t (idle0_out t (by omega)) (noflush0_out t (by omega))]
    simp only [before0_0, before0_1]
    rw [show (dat0 V c).owesAt () t.succ = (dat0 V c).owesAt () t.castSucc from rfl, after0_0, after0_1, Φ_eq0, Φ_eq0]
    unfold Φ0
    iintro ⟨⟨⟨%s, %hs, Hs⟩, Hr⟩, Ho, ⟨%d0, H0⟩, ⟨%d1, H1⟩, ⟨%d2, H2⟩⟩
    have hs' : s = scr0 V c t.val := hs (by show t.val % 3 ≠ 0; omega)
    subst hs'
    iapply (sound_kernel0_mid c Set.univ (grid0.coords t) (hcoord.trans hk) _ _ _ _ _ _ _ _ (iblk0 V c 0 t) (iblk0 V c 1 t) ((dat0 V c).before 2 t d2) (scr0 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr0 V c (t.val + 1)
        rw [scr0_succ, if_neg (by omega)]
      · iexact Hr
    isplitl [Ho]; · iexact Ho
    isplitl [H0]; · iexact H0
    isplitl [H1]; · iexact H1
    iexists d2; iexact H2
  · rw [leaves0_last V c t hk]
    simp only [before0_0, before0_1]
    rw [show (dat0 V c).owesAt () t.succ = (dat0 V c).owesAt () t.castSucc from rfl, after0_0, after0_1, after0_2, Φ_eq0, Φ_eq0]
    unfold Φ0 out0
    iintro ⟨⟨⟨%s, %hs, Hs⟩, Hr⟩, Ho, ⟨%d0, H0⟩, ⟨%d1, H1⟩, ⟨%d2, H2⟩⟩
    have hs' : s = scr0 V c t.val := hs (by show t.val % 3 ≠ 0; omega)
    subst hs'
    have hnext : scr0 V c (t.val + 1) = k0_pay2 (iblk0 V c 0 t) (iblk0 V c 1 t) (scr0 V c t.val) := by
      rw [scr0_succ, if_neg (by omega)]
    rw [hnext]
    iapply (sound_kernel0_last c Set.univ (grid0.coords t) (hcoord.trans hk) _ _ _ _ _ _ _ _ (iblk0 V c 0 t) (iblk0 V c 1 t) (scr0 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr0 V c (t.val + 1)
        exact hnext.symm
      · iexact Hr
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Step

end
-- ==== Proof.KI.Reg0.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.KI.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef0 : Ref sig .tc := Pipeline.arrRef spec0 0
abbrev outRef0 : Ref sig .tc := Pipeline.arrRef spec0 2

section Reg
variable (V : (c : Dev nD) → (b : Ref sig .tc) → Buf (Elt F) ((c : Thread nD τ).loc b))

/-- The keys' window and the queries' window hold the two halves of their common array, the output window its own whole. -/
theorem shareK0 (c : Dev nD) : (dat0 V c).share 0 = Cert.MeanShift.shareL := by
  unfold Dat.share; rw [q_eq0]; rfl
theorem shareQ0 (c : Dev nD) : (dat0 V c).share 1 = Cert.MeanShift.shareR := by
  unfold Dat.share; rw [q_eq0]; rfl
theorem shareO0 (c : Dev nD) : (dat0 V c).share 2 = fullShare := by
  unfold Dat.share; rfl

/-- The pipeline's arrays at contents `G`, window by window: the read array twice, at the two halves, and the written
    array whole. -/
theorem arrays_eq0 (c : Dev nD) (G : (w : Fin cfg0.W) → Buf (Elt F) ((cfg0.win w).arr.view.loc (c.tc : Thread nD τ))) :
    ((dat0 V c).arrays G : sProp 𝕄)
      = iprop((((c : Thread nD τ).loc inRef0) ↦{Cert.MeanShift.shareL} G 0) ∗ (((c : Thread nD τ).loc inRef0) ↦{Cert.MeanShift.shareR} G 1)
          ∗ (((c : Thread nD τ).loc outRef0) ↦{fullShare} G 2)) := by
  unfold Dat.arrays
  rw [bigSep_W0, shareK0, shareQ0, shareO0, (arr_whole0 0).set_eq_univ, (arr_whole0 2).set_eq_univ]

/-- An input window's array is never written: at every point it holds the entry contents. -/
theorem arrAtK0 (c : Dev nD) (n : ℕ) : (dat0 V c).arrAt 0 n = V c inRef0 :=
  ((dat0 V c).arrAt_in 0 rfl n).trans (A_eq0 V c 0)
theorem arrAtQ0 (c : Dev nD) (n : ℕ) : (dat0 V c).arrAt 1 n = V c inRef0 :=
  ((dat0 V c).arrAt_in 1 rfl n).trans (A_eq0 V c 1)
/-- Before the first point the written array holds its entry contents. -/
theorem arrAtOz0 (c : Dev nD) : (dat0 V c).arrAt 2 0 = V c outRef0 :=
  A_eq0 V c 2

/-! ## The accumulator in and out of the invariant -/

/-- A whole scoped buffer owned at some contents is its points-to at some contents. -/
theorem whole_owns0 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [Φ_eq0, scopedRest_scratch0]; unfold Φ0
  refine sep_mono ?_ .rfl
  rw [← whole_owns0 c]
  iintro ⟨%d, H⟩
  iexists d
  isplitr
  · ipureintro; intro h; exact absurd rfl h
  iexact H

/-- The invariant at the last point gives the scoped buffers back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [Φ_eq0, scopedRest_scratch0]; unfold Φ0
  refine sep_mono ?_ .rfl
  rw [← whole_owns0 c]
  iintro ⟨%d, -, H⟩
  iexists d
  iexact H

end Reg

/-! ## Entry and exit over a valuation of the core's buffers -/

section RegW
variable (W : Dev nD → Valuation τ sig (Elt F))

/-- A valuation read at the TensorCore's references. -/
abbrev rd0 (c : Dev nD) (b : Ref sig .tc) : Buf (Elt F) ((c : Thread nD τ).loc b) := W c b

/-- The core's unscoped buffers at `W`: the two arrays the call touches, and the rest. -/
theorem held_split0 (c : Dev nD) :
    (StableHlo.held (c : Thread nD τ) (Pipeline.ucRefs τ sig) (W c) : sProp 𝕄)
      = iprop(((((c : Thread nD τ).loc inRef0) ↦{fullShare} rd0 W c inRef0) ∗ (((c : Thread nD τ).loc outRef0) ↦{fullShare} rd0 W c outRef0))
          ∗ Pipeline.unscopedRest spec0 c (rd0 W c)) := by
  rw [← Pipeline.unscopedBufs_held (Ix := Unit) (Name := ℕ) (U := UR sig nD τ) (Lvl := ℕ) c (W c)]
  have hs : (unscopedBufs c (rd0 W c) : sProp 𝕄)
      = iprop(Pipeline.arrBufs spec0 c (rd0 W c) ∗ Pipeline.unscopedRest spec0 c (rd0 W c)) :=
    Pipeline.unscopedBufs_split₀ (fun _ : Unit => cfg0) () winFacts₀0.arr_unscoped c (rd0 W c)
  rw [hs]
  unfold Pipeline.arrBufs
  rw [show Finset.univ.image (Pipeline.arrRef spec0) = ([inRef0, outRef0] : List (Ref sig .tc)).toFinset from by decide,
    bigSep_eq_bigSepL _ (by decide)]
  rfl

/-- ENTRY: of the unscoped buffers, the read array is split into its two halves, one per input window, and the
    written array goes whole to the output window; the rest bypasses the call. -/
theorem entry0 (c : Dev nD) :
    (StableHlo.held (c : Thread nD τ) (Pipeline.ucRefs τ sig) (W c) : sProp 𝕄)
      ⊢ iprop((dat0 (rd0 W) c).arrays ((dat0 (rd0 W) c).arrAt · 0) ∗ Pipeline.unscopedRest spec0 c (rd0 W c)) := by
  rw [held_split0, arrays_eq0, arrAtK0, arrAtQ0, arrAtOz0]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW0 (c : Dev nD) : Valuation τ sig (Elt F) :=
  Function.update (W c) (Proc.devRef .tc outRef0) ((dat0 (rd0 W) c).arrAt 2 cfg0.N)

theorem exitWout0 (c : Dev nD) : exitW0 W c (Proc.devRef .tc outRef0) = (dat0 (rd0 W) c).arrAt 2 cfg0.N := by
  unfold exitW0; exact Function.update_self ..
theorem exitWne0 (c : Dev nD) (b : Ref sig .tc) (h : b ≠ outRef0) : exitW0 W c (Proc.devRef .tc b) = W c (Proc.devRef .tc b) := by
  unfold exitW0; exact Function.update_of_ne (StableHlo.devRef_ne_of_ne h) ..

/-- EXIT: the two halves of the read array, both still at the entry contents, rejoin; the written array is at what
    the write-backs made of it; with the rest these are the unscoped buffers at `exitW0`. -/
theorem exit0 (c : Dev nD) :
    iprop((dat0 (rd0 W) c).arrays ((dat0 (rd0 W) c).arrAt · cfg0.N) ∗ Pipeline.unscopedRest spec0 c (rd0 W c))
      ⊢ (StableHlo.held (c : Thread nD τ) (Pipeline.ucRefs τ sig) (exitW0 W c) : sProp 𝕄) := by
  have hrest : (Pipeline.unscopedRest spec0 c (rd0 (exitW0 W) c) : sProp 𝕄) = Pipeline.unscopedRest spec0 c (rd0 W c) := by
    unfold Pipeline.unscopedRest
    refine bigSep_congr fun b hb => ?_
    have hne : b ≠ outRef0 := fun e => (Finset.mem_sdiff.mp hb).2 (Finset.mem_image.mpr ⟨2, Finset.mem_univ _, e.symm⟩)
    have e : rd0 (exitW0 W) c b = rd0 W c b := exitWne0 W c b hne
    rw [e]
  have eIn : rd0 (exitW0 W) c inRef0 = rd0 W c inRef0 := exitWne0 W c inRef0 (by decide)
  have eOut : rd0 (exitW0 W) c outRef0 = (dat0 (rd0 W) c).arrAt 2 cfg0.N := exitWout0 W c
  rw [held_split0, eIn, eOut, hrest, arrays_eq0, arrAtK0, arrAtQ0]
  refine sep_mono ?_ .rfl
  refine sep_assoc.2.trans ?_
  exact sep_mono (pointsTo_share Cert.MeanShift.full_mem_halves).2 .rfl

end RegW

end Cert.KernelIdeal.Step

end
-- ==== Proof.KI.Body1.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.KernelIdeal.Launch
import proofs.«117443_j19241453486857_2_alg».proof.Proof.Gen.KernelIdeal.Skeleton
import proofs.«117443_j19241453486857_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff1 : (![0, 0] : Fin 2 → Nat) = fun _ => 0 := funext fun a => by fin_cases a <;> rfl

/-- The key block, the query block and the accumulator, each accessed whole; -/
abbrev rKeys1 : Rect S32x3072 := Rect.unit (s := S32x3072) ![0, 0] S32x3072.size inb_S32x3072_S32x3072_0_0
abbrev rQry1 : Rect S32x768 := Rect.unit (s := S32x768) ![0, 0] S32x768.size inb_S32x768_S32x768_0_0
abbrev rAcc1 : Rect S40x768 := Rect.unit (s := S40x768) ![0, 0] S40x768.size inb_S40x768_S40x768_0_0
/-- the accumulator's rows 0 to 31 (the weighted sums) and its row 32 (the degrees). -/
abbrev rTop1 : Rect S40x768 := Rect.unit (s := S40x768) ![0, 0] S32x768.size inb_S40x768_S32x768_0_0
abbrev rRow1 : Rect S40x768 := Rect.unit (s := S40x768) ![32, 0] S1x768.size inb_S40x768_S1x768_32_0

/-- Rows 0 to 31 of an accumulator: the weighted sums. -/
def top1 (s : Vec F S40x768 .f32) : Vec F S32x768 .f32 := View.ld s rTop1
/-- Row 32 of an accumulator: the degrees. -/
def row1 (s : Vec F S40x768 .f32) : Vec F S1x768 .f32 := View.ld s rRow1

section Whole
variable {κ : Kind} {sp : Space} {S : Shape} {e : EltTy}

/-- A load of a whole buffer reads its contents. -/
theorem readWhole1 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole1 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole1 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored1_first :
    va.read (Elt F) (va.writes (Elt F) fa
      [⟨rAcc1, k1_pay2 (vk.readAt (Elt F) rKeys1.toLoadRect fk) (vq.readAt (Elt F) rQry1.toLoadRect fq)
          (va.readCov [(⟨rAcc1, k1_pay1 (F := F)⟩ : View.Piece (Elt F) S40x768 .f32)] rAcc1.toLoadRect)⟩,
       ⟨rAcc1, k1_pay1 (F := F)⟩])
      = k1_pay2 (vk.read (Elt F) fk) (vq.read (Elt F) fq) (k1_pay1 (F := F)) := by
  refine (readStoreWhole1 (S := S40x768) va fa zeroOff1 _ _ _).trans ?_
  rw [readCovWhole1 (S := S40x768) va zeroOff1 _ _ [] rAcc1, readWhole1 (S := S32x3072) vk fk zeroOff1,
    readWhole1 (S := S32x768) vq fq zeroOff1, View.ld_unit_zero (S := S40x768) zeroOff1]

/-- The accumulator after a later reduction point: read, the point's terms added, stored. -/
theorem stored1_later :
    va.read (Elt F) (va.writes (Elt F) fa
      [⟨rAcc1, k1_pay2 (vk.readAt (Elt F) rKeys1.toLoadRect fk) (vq.readAt (Elt F) rQry1.toLoadRect fq)
          (va.readAt (Elt F) rAcc1.toLoadRect fa)⟩])
      = k1_pay2 (vk.read (Elt F) fk) (vq.read (Elt F) fq) (va.read (Elt F) fa) := by
  refine (readStoreWhole1 (S := S40x768) va fa zeroOff1 _ _ _).trans ?_
  rw [readWhole1 (S := S32x3072) vk fk zeroOff1, readWhole1 (S := S32x768) vq fq zeroOff1,
    readWhole1 (S := S40x768) va fa zeroOff1]

/-- The output block after a last reduction point: the step's value from the accumulator just stored. -/
theorem stored1_out (P : Vec F S40x768 .f32) :
    vo.read (Elt F) (vo.writes (Elt F) fo
      [⟨rQry1, k1_pay3 (va.readCov [(⟨rAcc1, P⟩ : View.Piece (Elt F) S40x768 .f32)] rTop1.toLoadRect)
          (va.readCov [(⟨rAcc1, P⟩ : View.Piece (Elt F) S40x768 .f32)] rRow1.toLoadRect)
          (vq.readAt (Elt F) rQry1.toLoadRect fq)⟩])
      = k1_pay3 (top1 P) (row1 P) (vq.read (Elt F) fq) := by
  refine (readStoreWhole1 (S := S32x768) vo fo zeroOff1 _ _ _).trans ?_
  rw [readCovWhole1 (S := S40x768) va zeroOff1 _ P [] rTop1, readCovWhole1 (S := S40x768) va zeroOff1 _ P [] rRow1,
    readWhole1 (S := S32x768) vq fq zeroOff1]
  rfl

end Stored

/-! ## The body's two conditions, from the reduction coordinate -/

theorem hzero1_first (i : grid1.Coords) (hi : (i 1).val = 0) :
    Scalar.cmpi .ne (Scalar.extui (Scalar.cmpi .eq (BitVec.ofNat 32 (i 1).val) 0#32)) 0#32 = 1#1 := by
  rw [hi]; decide
theorem hzero1_later (i : grid1.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin1_last (i : grid1.Coords) (hi : (i 1).val = 2) : k1_cond2 i = 1#1 := by
  unfold k1_cond2; dsimp only; rw [hi]; decide
theorem hfin1_earlier (i : grid1.Coords) (hi : (i 1).val ≠ 2) : ¬ (k1_cond2 i = 1#1) := by
  have h := (i 1).isLt
  have h' : (i 1).val < 3 := h
  have : (i 1).val = 0 ∨ (i 1).val = 1 := by omega
  unfold k1_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel1_first (c : Dev nD) (E : Set ℕ) (i : grid1.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k1_pay2 x0 x1 (k1_pay1 (F := F)))) -∗ K ⟨⟩))
      ⊢ wp frame (wpE (defs₀ (F := F)) Variants.none c none) E (cc1__ms_step_kernel i arg2 harg2 arg3 harg3 arg4 harg4 arg5 harg5) K := by
  have hc1 := hzero1_first i hi
  have hc2 := hfin1_earlier i (by omega)
  simp only [cc1__ms_step_kernel_eq_skeleton]; unfold cc1__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored1_first (F := F) _ _ _ _ _ _

set_option maxHeartbeats 1000000 in
/-- A middle reduction point (`k = 1`): the point's terms are added to the accumulator; the output block is left as
    found. -/
theorem sound_kernel1_mid (c : Dev nD) (E : Set ℕ) (i : grid1.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k1_pay2 x0 x1 s)) -∗ K ⟨⟩))
      ⊢ wp frame (wpE (defs₀ (F := F)) Variants.none c none) E (cc1__ms_step_kernel i arg2 harg2 arg3 harg3 arg4 harg4 arg5 harg5) K := by
  have hc1 := hzero1_later i (by omega)
  have hc2 := hfin1_earlier i (by omega)
  simp only [cc1__ms_step_kernel_eq_skeleton]; unfold cc1__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored1_later (F := F) _ _ _ _ _ _

set_option maxHeartbeats 1000000 in
/-- A last reduction point (`k = 2`): the point's terms are added to the accumulator, and the output block, whatever
    it held, gets the step's value from the finished sums, the degrees and the queries. -/
theorem sound_kernel1_last (c : Dev nD) (E : Set ℕ) (i : grid1.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay3 (top1 (k1_pay2 x0 x1 s)) (row1 (k1_pay2 x0 x1 s)) x1)
            ∗ owns (c : Thread nD τ) arg5 fullShare (k1_pay2 x0 x1 s)) -∗ K ⟨⟩))
      ⊢ wp frame (wpE (defs₀ (F := F)) Variants.none c none) E (cc1__ms_step_kernel i arg2 harg2 arg3 harg3 arg4 harg4 arg5 harg5) K := by
  have hc1 := hzero1_later i (by omega)
  have hc2 := hfin1_last i hi
  simp only [cc1__ms_step_kernel_eq_skeleton]; unfold cc1__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored1_out (F := F) arg3.view arg4.view arg5.view f1 f2 _).trans ?_
    rw [readWhole1 (S := S32x3072) arg2.view f0 zeroOff1, readWhole1 (S := S32x768) arg3.view f1 zeroOff1,
      readWhole1 (S := S40x768) arg5.view f3 zeroOff1]
  iexists _; isplitr
  swap; · iexact H3
  ipureintro
  sl_unfold_run_names
  exact stored1_later (F := F) _ _ _ _ _ _

end Cert.KernelIdeal.Step

end
-- ==== Proof.KI.Data1.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.KI.Body1
import proofs.«117443_j19241453486857_2_alg».proof.Proof.Shares
import Idealize.ShloMosaic.Lib.Pipeline.FrameBody
import Idealize.ShloMosaic.Lib.Pipeline.Kit

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after `n` points: zero before the first; each point adds its key block's terms to what the
    point before left, or to zero when it opens a query block (`n % 3 = 0`). -/
def scr1 (c : Dev nD) : ℕ → Vec F S40x768 .f32
  | 0 => k1_pay1
  | n + 1 =>
    if h : n < cfg1.N then
      k1_pay2 (iblk1 V c 0 ⟨n, h⟩) (iblk1 V c 1 ⟨n, h⟩) (if n % 3 = 0 then k1_pay1 else scr1 c n)
    else scr1 c n

theorem scr1_zero (c : Dev nD) : scr1 V c 0 = k1_pay1 (F := F) := rfl

/-- The recursion at a point of the grid. -/
theorem scr1_succ (c : Dev nD) (t : Fin cfg1.N) :
    scr1 V c (t.val + 1) = k1_pay2 (iblk1 V c 0 t) (iblk1 V c 1 t) (if t.val % 3 = 0 then k1_pay1 else scr1 V c t.val) := by
  rw [scr1, dif_pos t.isLt]

/-- The output block after point `t` (meaningful where `t % 3 = 2`, the only points that store it): the step's value
    from the accumulator's finished sums and degrees and the query block. -/
def out1 (c : Dev nD) (t : Fin cfg1.N) : Vec F S32x768 .f32 :=
  k1_pay3 (top1 (scr1 V c (t.val + 1))) (row1 (scr1 V c (t.val + 1))) (iblk1 V c 1 t)

/-! ## The invariant -/

/-- Every scoped buffer but the call's accumulator and its staging buffers, at anything. -/
def rest1 (c : Dev nD) : sProp 𝕄 :=
  Pipeline.scopedRestBut (Ix := Unit) (Name := ℕ) (U := UR sig nD τ) (Lvl := ℕ) (Val := Elt F) spec1 c [cc1_scratch0]

/-- The scoped buffers that are no staging buffer of the call: its accumulator, and the rest. -/
theorem scopedRest_scratch1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ rest1 (F := F) c) := by
  rw [Pipeline.scopedRest_split_of_list (win := spec1) (c := c) [cc1_scratch0] (by decide) (List.nodup_singleton _)]
  rfl

/-- Before point `t` (after point `t - 1`): the accumulator whole, at the running sum except where the next point
    re-zeroes it; every other scoped buffer no window of the call stages, at anything. -/
def Φ1 (c : Dev nD) (t : Fin (cfg1.N + 1)) : sProp 𝕄 :=
  iprop((∃ d : Vec F S40x768 .f32, ⌜t.val % 3 ≠ 0 → d = scr1 V c t.val⌝ ∗ owns (c : Thread nD τ) (Memref.whole cc1_scratch0) fullShare d) ∗ rest1 (F := F) c)

/-! ## The pipeline's proof data -/

/-- The proof data of the call on core `c`: the arrays as the call finds them; after the body at point `t` the two
    input windows' buffers at their blocks and the output window's at `out1`; the invariant `Φ1`; nothing owed; the
    two input windows, which read one array, at complementary halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Φ1 V c t
  q w := Cert.MeanShift.winShare w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem Φ_eq1 (c : Dev nD) (t : Fin (cfg1.N + 1)) : (dat1 V c).Φ t = Φ1 V c t := by dsimp only [dat1]
theorem q_eq1 (c : Dev nD) (w : Fin cfg1.W) : (dat1 V c).q w = Cert.MeanShift.winShare w := by dsimp only [dat1]
theorem owed_eq1 (c : Dev nD) (t : Fin (cfg1.N + 1)) : (dat1 V c).owed t = 0 := by dsimp only [dat1]

/-! ## What the body finds in the input windows -/

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The grid's reduction coordinate, and where the output window is idle -/

/-- Point `t`'s reduction coordinate is `t % 3`. -/
theorem coordK1 : ∀ t : Fin cfg1.N, ((cfg1.grid.coords t) 1).val = t.val % 3 :=
  (by decide +kernel : ∀ t : Fin grid1.N, ((grid1.coords t) 1).val = t.val % 3)

/-- The output window is idle at the points that are not a query block's last, and is not written back there. -/
theorem idle1_out (t : Fin cfg1.N) (h : t.val % 3 ≠ 2) : cfg1.idle 2 (cfg1.grid.coords t) = true := by
  have hc := hfin1_earlier (cfg1.grid.coords t) (by rw [coordK1]; exact h)
  show (!(k1_cond2 (cfg1.grid.coords t) == 1#1)) = true
  simp only [Bool.not_eq_true', beq_eq_false_iff_ne, ne_eq]; exact hc
theorem live1_out (t : Fin cfg1.N) (h : t.val % 3 = 2) : cfg1.idle 2 (cfg1.grid.coords t) = false := by
  have hc := hfin1_last (cfg1.grid.coords t) (by rw [coordK1]; exact h)
  show (!(k1_cond2 (cfg1.grid.coords t) == 1#1)) = false
  rw [hc]; rfl
theorem noflush1_out (t : Fin cfg1.N) (h : t.val % 3 ≠ 2) : (cfg1.win 2).flush t = false :=
  Bool.eq_false_iff.mpr (mt (flush1_2 t).mp h)

/-- At a query block's last reduction point the output window is live: the body leaves it at what it stores. -/
theorem leaves1_last (c : Dev nD) (t : Fin cfg1.N) (h : t.val % 3 = 2) :
    (dat1 V c).leavesExact 2 t = owns (c : Thread nD τ) (st1_2 t) fullShare ((dat1 V c).after 2 t) := by
  unfold Dat.leavesExact; rw [live1_out t h]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the output window's buffer as found where the window is idle, at the step's value where it
    is stored. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have hcoord := coordK1 t
  rcases (show t.val % 3 = 0 ∨ t.val % 3 = 1 ∨ t.val % 3 = 2 by omega) with hk | hk | hk
  · rw [Dat.leavesExact_idle (dat1 V c) 2 t (idle1_out t (by omega)) (noflush1_out t (by omega))]
    simp only [before1_0, before1_1]
    rw [show (dat1 V c).owesAt () t.succ = (dat1 V c).owesAt () t.castSucc from rfl, after1_0, after1_1, Φ_eq1, Φ_eq1]
    unfold Φ1
    iintro ⟨⟨⟨%s, -, Hs⟩, Hr⟩, Ho, ⟨%d0, H0⟩, ⟨%d1, H1⟩, ⟨%d2, H2⟩⟩
    iapply (sound_kernel1_first c Set.univ (grid1.coords t) (hcoord.trans hk) _ _ _ _ _ _ _ _ (iblk1 V c 0 t) (iblk1 V c 1 t) ((dat1 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr1 V c (t.val + 1)
        rw [scr1_succ, if_pos hk]
      · iexact Hr
    isplitl [Ho]; · iexact Ho
    isplitl [H0]; · iexact H0
    isplitl [H1]; · iexact H1
    iexists d2; iexact H2
  · rw [Dat.leavesExact_idle (dat1 V c) 2 t (idle1_out t (by omega)) (noflush1_out t (by omega))]
    simp only [before1_0, before1_1]
    rw [show (dat1 V c).owesAt () t.succ = (dat1 V c).owesAt () t.castSucc from rfl, after1_0, after1_1, Φ_eq1, Φ_eq1]
    unfold Φ1
    iintro ⟨⟨⟨%s, %hs, Hs⟩, Hr⟩, Ho, ⟨%d0, H0⟩, ⟨%d1, H1⟩, ⟨%d2, H2⟩⟩
    have hs' : s = scr1 V c t.val := hs (by show t.val % 3 ≠ 0; omega)
    subst hs'
    iapply (sound_kernel1_mid c Set.univ (grid1.coords t) (hcoord.trans hk) _ _ _ _ _ _ _ _ (iblk1 V c 0 t) (iblk1 V c 1 t) ((dat1 V c).before 2 t d2) (scr1 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr1 V c (t.val + 1)
        rw [scr1_succ, if_neg (by omega)]
      · iexact Hr
    isplitl [Ho]; · iexact Ho
    isplitl [H0]; · iexact H0
    isplitl [H1]; · iexact H1
    iexists d2; iexact H2
  · rw [leaves1_last V c t hk]
    simp only [before1_0, before1_1]
    rw [show (dat1 V c).owesAt () t.succ = (dat1 V c).owesAt () t.castSucc from rfl, after1_0, after1_1, after1_2, Φ_eq1, Φ_eq1]
    unfold Φ1 out1
    iintro ⟨⟨⟨%s, %hs, Hs⟩, Hr⟩, Ho, ⟨%d0, H0⟩, ⟨%d1, H1⟩, ⟨%d2, H2⟩⟩
    have hs' : s = scr1 V c t.val := hs (by show t.val % 3 ≠ 0; omega)
    subst hs'
    have hnext : scr1 V c (t.val + 1) = k1_pay2 (iblk1 V c 0 t) (iblk1 V c 1 t) (scr1 V c t.val) := by
      rw [scr1_succ, if_neg (by omega)]
    rw [hnext]
    iapply (sound_kernel1_last c Set.univ (grid1.coords t) (hcoord.trans hk) _ _ _ _ _ _ _ _ (iblk1 V c 0 t) (iblk1 V c 1 t) (scr1 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr1 V c (t.val + 1)
        exact hnext.symm
      · iexact Hr
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Step

end
-- ==== Proof.KI.Reg1.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.KI.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef1 : Ref sig .tc := Pipeline.arrRef spec1 0
abbrev outRef1 : Ref sig .tc := Pipeline.arrRef spec1 2

section Reg
variable (V : (c : Dev nD) → (b : Ref sig .tc) → Buf (Elt F) ((c : Thread nD τ).loc b))

/-- The keys' window and the queries' window hold the two halves of their common array, the output window its own whole. -/
theorem shareK1 (c : Dev nD) : (dat1 V c).share 0 = Cert.MeanShift.shareL := by
  unfold Dat.share; rw [q_eq1]; rfl
theorem shareQ1 (c : Dev nD) : (dat1 V c).share 1 = Cert.MeanShift.shareR := by
  unfold Dat.share; rw [q_eq1]; rfl
theorem shareO1 (c : Dev nD) : (dat1 V c).share 2 = fullShare := by
  unfold Dat.share; rfl

/-- The pipeline's arrays at contents `G`, window by window: the read array twice, at the two halves, and the written
    array whole. -/
theorem arrays_eq1 (c : Dev nD) (G : (w : Fin cfg1.W) → Buf (Elt F) ((cfg1.win w).arr.view.loc (c.tc : Thread nD τ))) :
    ((dat1 V c).arrays G : sProp 𝕄)
      = iprop((((c : Thread nD τ).loc inRef1) ↦{Cert.MeanShift.shareL} G 0) ∗ (((c : Thread nD τ).loc inRef1) ↦{Cert.MeanShift.shareR} G 1)
          ∗ (((c : Thread nD τ).loc outRef1) ↦{fullShare} G 2)) := by
  unfold Dat.arrays
  rw [bigSep_W1, shareK1, shareQ1, shareO1, (arr_whole1 0).set_eq_univ, (arr_whole1 2).set_eq_univ]

/-- An input window's array is never written: at every point it holds the entry contents. -/
theorem arrAtK1 (c : Dev nD) (n : ℕ) : (dat1 V c).arrAt 0 n = V c inRef1 :=
  ((dat1 V c).arrAt_in 0 rfl n).trans (A_eq1 V c 0)
theorem arrAtQ1 (c : Dev nD) (n : ℕ) : (dat1 V c).arrAt 1 n = V c inRef1 :=
  ((dat1 V c).arrAt_in 1 rfl n).trans (A_eq1 V c 1)
/-- Before the first point the written array holds its entry contents. -/
theorem arrAtOz1 (c : Dev nD) : (dat1 V c).arrAt 2 0 = V c outRef1 :=
  A_eq1 V c 2

/-! ## The accumulator in and out of the invariant -/

/-- A whole scoped buffer owned at some contents is its points-to at some contents. -/
theorem whole_owns1 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [Φ_eq1, scopedRest_scratch1]; unfold Φ1
  refine sep_mono ?_ .rfl
  rw [← whole_owns1 c]
  iintro ⟨%d, H⟩
  iexists d
  isplitr
  · ipureintro; intro h; exact absurd rfl h
  iexact H

/-- The invariant at the last point gives the scoped buffers back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [Φ_eq1, scopedRest_scratch1]; unfold Φ1
  refine sep_mono ?_ .rfl
  rw [← whole_owns1 c]
  iintro ⟨%d, -, H⟩
  iexists d
  iexact H

end Reg

/-! ## Entry and exit over a valuation of the core's buffers -/

section RegW
variable (W : Dev nD → Valuation τ sig (Elt F))

/-- A valuation read at the TensorCore's references. -/
abbrev rd1 (c : Dev nD) (b : Ref sig .tc) : Buf (Elt F) ((c : Thread nD τ).loc b) := W c b

/-- The core's unscoped buffers at `W`: the two arrays the call touches, and the rest. -/
theorem held_split1 (c : Dev nD) :
    (StableHlo.held (c : Thread nD τ) (Pipeline.ucRefs τ sig) (W c) : sProp 𝕄)
      = iprop(((((c : Thread nD τ).loc inRef1) ↦{fullShare} rd1 W c inRef1) ∗ (((c : Thread nD τ).loc outRef1) ↦{fullShare} rd1 W c outRef1))
          ∗ Pipeline.unscopedRest spec1 c (rd1 W c)) := by
  rw [← Pipeline.unscopedBufs_held (Ix := Unit) (Name := ℕ) (U := UR sig nD τ) (Lvl := ℕ) c (W c)]
  have hs : (unscopedBufs c (rd1 W c) : sProp 𝕄)
      = iprop(Pipeline.arrBufs spec1 c (rd1 W c) ∗ Pipeline.unscopedRest spec1 c (rd1 W c)) :=
    Pipeline.unscopedBufs_split₀ (fun _ : Unit => cfg1) () winFacts₀1.arr_unscoped c (rd1 W c)
  rw [hs]
  unfold Pipeline.arrBufs
  rw [show Finset.univ.image (Pipeline.arrRef spec1) = ([inRef1, outRef1] : List (Ref sig .tc)).toFinset from by decide,
    bigSep_eq_bigSepL _ (by decide)]
  rfl

/-- ENTRY: of the unscoped buffers, the read array is split into its two halves, one per input window, and the
    written array goes whole to the output window; the rest bypasses the call. -/
theorem entry1 (c : Dev nD) :
    (StableHlo.held (c : Thread nD τ) (Pipeline.ucRefs τ sig) (W c) : sProp 𝕄)
      ⊢ iprop((dat1 (rd1 W) c).arrays ((dat1 (rd1 W) c).arrAt · 0) ∗ Pipeline.unscopedRest spec1 c (rd1 W c)) := by
  rw [held_split1, arrays_eq1, arrAtK1, arrAtQ1, arrAtOz1]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW1 (c : Dev nD) : Valuation τ sig (Elt F) :=
  Function.update (W c) (Proc.devRef .tc outRef1) ((dat1 (rd1 W) c).arrAt 2 cfg1.N)

theorem exitWout1 (c : Dev nD) : exitW1 W c (Proc.devRef .tc outRef1) = (dat1 (rd1 W) c).arrAt 2 cfg1.N := by
  unfold exitW1; exact Function.update_self ..
theorem exitWne1 (c : Dev nD) (b : Ref sig .tc) (h : b ≠ outRef1) : exitW1 W c (Proc.devRef .tc b) = W c (Proc.devRef .tc b) := by
  unfold exitW1; exact Function.update_of_ne (StableHlo.devRef_ne_of_ne h) ..

/-- EXIT: the two halves of the read array, both still at the entry contents, rejoin; the written array is at what
    the write-backs made of it; with the rest these are the unscoped buffers at `exitW1`. -/
theorem exit1 (c : Dev nD) :
    iprop((dat1 (rd1 W) c).arrays ((dat1 (rd1 W) c).arrAt · cfg1.N) ∗ Pipeline.unscopedRest spec1 c (rd1 W c))
      ⊢ (StableHlo.held (c : Thread nD τ) (Pipeline.ucRefs τ sig) (exitW1 W c) : sProp 𝕄) := by
  have hrest : (Pipeline.unscopedRest spec1 c (rd1 (exitW1 W) c) : sProp 𝕄) = Pipeline.unscopedRest spec1 c (rd1 W c) := by
    unfold Pipeline.unscopedRest
    refine bigSep_congr fun b hb => ?_
    have hne : b ≠ outRef1 := fun e => (Finset.mem_sdiff.mp hb).2 (Finset.mem_image.mpr ⟨2, Finset.mem_univ _, e.symm⟩)
    have e : rd1 (exitW1 W) c b = rd1 W c b := exitWne1 W c b hne
    rw [e]
  have eIn : rd1 (exitW1 W) c inRef1 = rd1 W c inRef1 := exitWne1 W c inRef1 (by decide)
  have eOut : rd1 (exitW1 W) c outRef1 = (dat1 (rd1 W) c).arrAt 2 cfg1.N := exitWout1 W c
  rw [held_split1, eIn, eOut, hrest, arrays_eq1, arrAtK1, arrAtQ1]
  refine sep_mono ?_ .rfl
  refine sep_assoc.2.trans ?_
  exact sep_mono (pointsTo_share Cert.MeanShift.full_mem_halves).2 .rfl

end RegW

end Cert.KernelIdeal.Step

end
-- ==== Proof.KI.Body2.lean ====
/-
  The body of one mean-shift step at one grid point, as a triple over whole staging memrefs.

  At a point with reduction coordinate `k` the body (i) zeroes the accumulator if `k = 0`, (ii) adds to it the
  augmented keys times the affinities of the key block and the query block, and (iii) if `k = 2` stores
  `½ · (acc[0:32] / acc[32:33]) + ½ · queries` to the output block.  The three cases are stated one by one; each
  names what every buffer holds afterwards as a closed term of what it held before.
-/
import proofs.«117443_j19241453486857_2_alg».proof.Proof.Gen.KernelIdeal.Launch
import proofs.«117443_j19241453486857_2_alg».proof.Proof.Gen.KernelIdeal.Skeleton
import proofs.«117443_j19241453486857_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The offsets of an access to a whole buffer. -/
theorem zeroOff2 : (![0, 0] : Fin 2 → Nat) = fun _ => 0 := funext fun a => by fin_cases a <;> rfl

/-- The key block, the query block and the accumulator, each accessed whole; -/
abbrev rKeys2 : Rect S32x3072 := Rect.unit (s := S32x3072) ![0, 0] S32x3072.size inb_S32x3072_S32x3072_0_0
abbrev rQry2 : Rect S32x768 := Rect.unit (s := S32x768) ![0, 0] S32x768.size inb_S32x768_S32x768_0_0
abbrev rAcc2 : Rect S40x768 := Rect.unit (s := S40x768) ![0, 0] S40x768.size inb_S40x768_S40x768_0_0
/-- the accumulator's rows 0 to 31 (the weighted sums) and its row 32 (the degrees). -/
abbrev rTop2 : Rect S40x768 := Rect.unit (s := S40x768) ![0, 0] S32x768.size inb_S40x768_S32x768_0_0
abbrev rRow2 : Rect S40x768 := Rect.unit (s := S40x768) ![32, 0] S1x768.size inb_S40x768_S1x768_32_0

/-- Rows 0 to 31 of an accumulator: the weighted sums. -/
def top2 (s : Vec F S40x768 .f32) : Vec F S32x768 .f32 := View.ld s rTop2
/-- Row 32 of an accumulator: the degrees. -/
def row2 (s : Vec F S40x768 .f32) : Vec F S1x768 .f32 := View.ld s rRow2

section Whole
variable {κ : Kind} {sp : Space} {S : Shape} {e : EltTy}

/-- A load of a whole buffer reads its contents. -/
theorem readWhole2 (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of a whole buffer, made last, leaves its payload whatever was stored before. -/
theorem readStoreWhole2 (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through any rectangle of a buffer just stored whole reads the payload there. -/
theorem readCovWhole2 (v : View sig κ sp S e) {off : Fin S.rank → Nat} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld v _ r (fun y => ⟨_, List.mem_cons_self, View.mem_set_unit_zero h inb y⟩),
    View.canon_cons_unit_zero h inb w L]

end Whole

/-! ## What the body's stores leave, read back -/

section Stored
variable {κ : Kind} {sp : Space} (vk : View sig κ sp S32x3072 .f32) (vq : View sig κ sp S32x768 .f32)
  (vo : View sig κ sp S32x768 .f32) (va : View sig κ sp S40x768 .f32)
  (fk : vk.ty.Contents (Elt F)) (fq : vq.ty.Contents (Elt F)) (fo : vo.ty.Contents (Elt F)) (fa : va.ty.Contents (Elt F))

/-- The accumulator after a first reduction point: zeroed, read back, the point's terms added, stored. -/
theorem stored2_first :
    va.read (Elt F) (va.writes (Elt F) fa
      [⟨rAcc2, k2_pay2 (vk.readAt (Elt F) rKeys2.toLoadRect fk) (vq.readAt (Elt F) rQry2.toLoadRect fq)
          (va.readCov [(⟨rAcc2, k2_pay1 (F := F)⟩ : View.Piece (Elt F) S40x768 .f32)] rAcc2.toLoadRect)⟩,
       ⟨rAcc2, k2_pay1 (F := F)⟩])
      = k2_pay2 (vk.read (Elt F) fk) (vq.read (Elt F) fq) (k2_pay1 (F := F)) := by
  refine (readStoreWhole2 (S := S40x768) va fa zeroOff2 _ _ _).trans ?_
  rw [readCovWhole2 (S := S40x768) va zeroOff2 _ _ [] rAcc2, readWhole2 (S := S32x3072) vk fk zeroOff2,
    readWhole2 (S := S32x768) vq fq zeroOff2, View.ld_unit_zero (S := S40x768) zeroOff2]

/-- The accumulator after a later reduction point: read, the point's terms added, stored. -/
theorem stored2_later :
    va.read (Elt F) (va.writes (Elt F) fa
      [⟨rAcc2, k2_pay2 (vk.readAt (Elt F) rKeys2.toLoadRect fk) (vq.readAt (Elt F) rQry2.toLoadRect fq)
          (va.readAt (Elt F) rAcc2.toLoadRect fa)⟩])
      = k2_pay2 (vk.read (Elt F) fk) (vq.read (Elt F) fq) (va.read (Elt F) fa) := by
  refine (readStoreWhole2 (S := S40x768) va fa zeroOff2 _ _ _).trans ?_
  rw [readWhole2 (S := S32x3072) vk fk zeroOff2, readWhole2 (S := S32x768) vq fq zeroOff2,
    readWhole2 (S := S40x768) va fa zeroOff2]

/-- The output block after a last reduction point: the step's value from the accumulator just stored. -/
theorem stored2_out (P : Vec F S40x768 .f32) :
    vo.read (Elt F) (vo.writes (Elt F) fo
      [⟨rQry2, k2_pay3 (va.readCov [(⟨rAcc2, P⟩ : View.Piece (Elt F) S40x768 .f32)] rTop2.toLoadRect)
          (va.readCov [(⟨rAcc2, P⟩ : View.Piece (Elt F) S40x768 .f32)] rRow2.toLoadRect)
          (vq.readAt (Elt F) rQry2.toLoadRect fq)⟩])
      = k2_pay3 (top2 P) (row2 P) (vq.read (Elt F) fq) := by
  refine (readStoreWhole2 (S := S32x768) vo fo zeroOff2 _ _ _).trans ?_
  rw [readCovWhole2 (S := S40x768) va zeroOff2 _ P [] rTop2, readCovWhole2 (S := S40x768) va zeroOff2 _ P [] rRow2,
    readWhole2 (S := S32x768) vq fq zeroOff2]
  rfl

end Stored

/-! ## The body's two conditions, from the reduction coordinate -/

theorem hzero2_first (i : grid2.Coords) (hi : (i 1).val = 0) :
    Scalar.cmpi .ne (Scalar.extui (Scalar.cmpi .eq (BitVec.ofNat 32 (i 1).val) 0#32)) 0#32 = 1#1 := by
  rw [hi]; decide
theorem hzero2_later (i : grid2.Coords) (hi : (i 1).val ≠ 0) :
    ¬ (Scalar.cmpi .ne (Scalar.extui (Scalar.cmpi .eq (BitVec.ofNat 32 (i 1).val) 0#32)) 0#32 = 1#1) := by
  have h := (i 1).isLt
  have h' : (i 1).val < 3 := h
  have : (i 1).val = 1 ∨ (i 1).val = 2 := by omega
  rcases this with e | e <;> rw [e] <;> decide
theorem hfin2_last (i : grid2.Coords) (hi : (i 1).val = 2) : k2_cond2 i = 1#1 := by
  unfold k2_cond2; dsimp only; rw [hi]; decide
theorem hfin2_earlier (i : grid2.Coords) (hi : (i 1).val ≠ 2) : ¬ (k2_cond2 i = 1#1) := by
  have h := (i 1).isLt
  have h' : (i 1).val < 3 := h
  have : (i 1).val = 0 ∨ (i 1).val = 1 := by omega
  unfold k2_cond2; dsimp only
  rcases this with e | e <;> rw [e] <;> decide

/-! ## The body's triple, case by case -/

set_option maxHeartbeats 1000000 in
/-- A first reduction point (`k = 0`): the accumulator, whatever it held, is zeroed and the point's terms added; the
    output block is left as found. -/
theorem sound_kernel2_first (c : Dev nD) (E : Set ℕ) (i : grid2.Coords) (hi : (i 1).val = 0)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (K : PUnit → sProp 𝕄) :
    iprop(owns (c : Thread nD τ) arg2 fullShare x0 ∗ owns (c : Thread nD τ) arg3 fullShare x1
        ∗ owns (c : Thread nD τ) arg4 fullShare d ∗ (∃ s, owns (c : Thread nD τ) arg5 fullShare s)
        ∗ (iprop(owns (c : Thread nD τ) arg2 fullShare x0 ∗ owns (c : Thread nD τ) arg3 fullShare x1
            ∗ owns (c : Thread nD τ) arg4 fullShare d ∗ owns (c : Thread nD τ) arg5 fullShare (k2_pay2 x0 x1 (k2_pay1 (F := F)))) -∗ K ⟨⟩))
      ⊢ wp frame (wpE (defs₀ (F := F)) Variants.none c none) E (cc2__ms_step_kernel i arg2 harg2 arg3 harg3 arg4 harg4 arg5 harg5) K := by
  have hc1 := hzero2_first i hi
  have hc2 := hfin2_earlier i (by omega)
  simp only [cc2__ms_step_kernel_eq_skeleton]; unfold cc2__ms_step_kernel_skel
  unfold owns
  iintro ⟨⟨%f0, %hf0, H0⟩, ⟨%f1, %hf1, H1⟩, ⟨%f2, %hf2, H2⟩, ⟨%s, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact stored2_first (F := F) _ _ _ _ _ _

set_option maxHeartbeats 1000000 in
/-- A middle reduction point (`k = 1`): the point's terms are added to the accumulator; the output block is left as
    found. -/
theorem sound_kernel2_mid (c : Dev nD) (E : Set ℕ) (i : grid2.Coords) (hi : (i 1).val = 1)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (d : Vec F S32x768 .f32) (s : Vec F S40x768 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare d ∗ owns (c : Thread nD τ) arg5 fullShare (k2_pay2 x0 x1 s)) -∗ K ⟨⟩))
      ⊢ wp frame (wpE (defs₀ (F := F)) Variants.none c none) E (cc2__ms_step_kernel i arg2 harg2 arg3 harg3 arg4 harg4 arg5 harg5) K := by
  have hc1 := hzero2_later i (by omega)
  have hc2 := hfin2_earlier i (by omega)
  simp only [cc2__ms_step_kernel_eq_skeleton]; unfold cc2__ms_step_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact stored2_later (F := F) _ _ _ _ _ _

set_option maxHeartbeats 1000000 in
/-- A last reduction point (`k = 2`): the point's terms are added to the accumulator, and the output block, whatever
    it held, gets the step's value from the finished sums, the degrees and the queries. -/
theorem sound_kernel2_last (c : Dev nD) (E : Set ℕ) (i : grid2.Coords) (hi : (i 1).val = 2)
    (arg2 : Memref sig .tc .vmem S32x3072 .f32) (harg2 : arg2.IsWhole) (arg3 : Memref sig .tc .vmem S32x768 .f32) (harg3 : arg3.IsWhole)
    (arg4 : Memref sig .tc .vmem S32x768 .f32) (harg4 : arg4.IsWhole) (arg5 : Memref sig .tc .vmem S40x768 .f32) (harg5 : arg5.IsWhole)
    (x0 : Vec F S32x3072 .f32) (x1 : Vec F S32x768 .f32) (s : Vec F S40x768 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k2_pay3 (top2 (k2_pay2 x0 x1 s)) (row2 (k2_pay2 x0 x1 s)) x1)
            ∗ owns (c : Thread nD τ) arg5 fullShare (k2_pay2 x0 x1 s)) -∗ K ⟨⟩))
      ⊢ wp frame (wpE (defs₀ (F := F)) Variants.none c none) E (cc2__ms_step_kernel i arg2 harg2 arg3 harg3 arg4 harg4 arg5 harg5) K := by
  have hc1 := hzero2_later i (by omega)
  have hc2 := hfin2_last i hi
  simp only [cc2__ms_step_kernel_eq_skeleton]; unfold cc2__ms_step_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (stored2_out (F := F) arg3.view arg4.view arg5.view f1 f2 _).trans ?_
    rw [readWhole2 (S := S32x3072) arg2.view f0 zeroOff2, readWhole2 (S := S32x768) arg3.view f1 zeroOff2,
      readWhole2 (S := S40x768) arg5.view f3 zeroOff2]
  iexists _; isplitr
  swap; · iexact H3
  ipureintro
  sl_unfold_run_names
  exact stored2_later (F := F) _ _ _ _ _ _

end Cert.KernelIdeal.Step

end
-- ==== Proof.KI.Data2.lean ====
/-
  The proof data of one mean-shift step as a pipeline over its 36 grid points, at the buffer contents `V` the call
  finds: what each window's block is, what the accumulator holds after each point, what the output block gets at
  the last reduction point of each query block, the invariant that carries the accumulator from point to point,
  and the body's obligation at every point.

  Point `t` has query block `t / 3` and reduction coordinate `t % 3`.  The accumulator is re-zeroed at every point
  with `t % 3 = 0`, so what it holds before such a point does not matter; before any other point it holds the
  running sum of the query block's earlier points.
-/
import proofs.«117443_j19241453486857_2_alg».proof.Proof.KI.Body2
import proofs.«117443_j19241453486857_2_alg».proof.Proof.Shares
import Idealize.ShloMosaic.Lib.Pipeline.FrameBody
import Idealize.ShloMosaic.Lib.Pipeline.Kit

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffers when the call is entered
variable (V : (c : Dev nD) → (b : Ref sig .tc) → Buf (Elt F) ((c : Thread nD τ).loc b))

/-! ## The windows' blocks, the accumulator, the output -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after `n` points: zero before the first; each point adds its key block's terms to what the
    point before left, or to zero when it opens a query block (`n % 3 = 0`). -/
def scr2 (c : Dev nD) : ℕ → Vec F S40x768 .f32
  | 0 => k2_pay1
  | n + 1 =>
    if h : n < cfg2.N then
      k2_pay2 (iblk2 V c 0 ⟨n, h⟩) (iblk2 V c 1 ⟨n, h⟩) (if n % 3 = 0 then k2_pay1 else scr2 c n)
    else scr2 c n

theorem scr2_zero (c : Dev nD) : scr2 V c 0 = k2_pay1 (F := F) := rfl

/-- The recursion at a point of the grid. -/
theorem scr2_succ (c : Dev nD) (t : Fin cfg2.N) :
    scr2 V c (t.val + 1) = k2_pay2 (iblk2 V c 0 t) (iblk2 V c 1 t) (if t.val % 3 = 0 then k2_pay1 else scr2 V c t.val) := by
  rw [scr2, dif_pos t.isLt]

/-- The output block after point `t` (meaningful where `t % 3 = 2`, the only points that store it): the step's value
    from the accumulator's finished sums and degrees and the query block. -/
def out2 (c : Dev nD) (t : Fin cfg2.N) : Vec F S32x768 .f32 :=
  k2_pay3 (top2 (scr2 V c (t.val + 1))) (row2 (scr2 V c (t.val + 1))) (iblk2 V c 1 t)

/-! ## The invariant -/

/-- Every scoped buffer but the call's accumulator and its staging buffers, at anything. -/
def rest2 (c : Dev nD) : sProp 𝕄 :=
  Pipeline.scopedRestBut (Ix := Unit) (Name := ℕ) (U := UR sig nD τ) (Lvl := ℕ) (Val := Elt F) spec2 c [cc2_scratch0]

/-- The scoped buffers that are no staging buffer of the call: its accumulator, and the rest. -/
theorem scopedRest_scratch2 (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 (F := F) c) := by
  rw [Pipeline.scopedRest_split_of_list (win := spec2) (c := c) [cc2_scratch0] (by decide) (List.nodup_singleton _)]
  rfl

/-- Before point `t` (after point `t - 1`): the accumulator whole, at the running sum except where the next point
    re-zeroes it; every other scoped buffer no window of the call stages, at anything. -/
def Φ2 (c : Dev nD) (t : Fin (cfg2.N + 1)) : sProp 𝕄 :=
  iprop((∃ d : Vec F S40x768 .f32, ⌜t.val % 3 ≠ 0 → d = scr2 V c t.val⌝ ∗ owns (c : Thread nD τ) (Memref.whole cc2_scratch0) fullShare d) ∗ rest2 (F := F) c)

/-! ## The pipeline's proof data -/

/-- The proof data of the call on core `c`: the arrays as the call finds them; after the body at point `t` the two
    input windows' buffers at their blocks and the output window's at `out2`; the invariant `Φ2`; nothing owed; the
    two input windows, which read one array, at complementary halves of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := Φ2 V c t
  q w := Cert.MeanShift.winShare w
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem Φ_eq2 (c : Dev nD) (t : Fin (cfg2.N + 1)) : (dat2 V c).Φ t = Φ2 V c t := by dsimp only [dat2]
theorem q_eq2 (c : Dev nD) (w : Fin cfg2.W) : (dat2 V c).q w = Cert.MeanShift.winShare w := by dsimp only [dat2]
theorem owed_eq2 (c : Dev nD) (t : Fin (cfg2.N + 1)) : (dat2 V c).owed t = 0 := by dsimp only [dat2]

/-! ## What the body finds in the input windows -/

/-- An input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The grid's reduction coordinate, and where the output window is idle -/

/-- Point `t`'s reduction coordinate is `t % 3`. -/
theorem coordK2 : ∀ t : Fin cfg2.N, ((cfg2.grid.coords t) 1).val = t.val % 3 :=
  (by decide +kernel : ∀ t : Fin grid2.N, ((grid2.coords t) 1).val = t.val % 3)

/-- The output window is idle at the points that are not a query block's last, and is not written back there. -/
theorem idle2_out (t : Fin cfg2.N) (h : t.val % 3 ≠ 2) : cfg2.idle 2 (cfg2.grid.coords t) = true := by
  have hc := hfin2_earlier (cfg2.grid.coords t) (by rw [coordK2]; exact h)
  show (!(k2_cond2 (cfg2.grid.coords t) == 1#1)) = true
  simp only [Bool.not_eq_true', beq_eq_false_iff_ne, ne_eq]; exact hc
theorem live2_out (t : Fin cfg2.N) (h : t.val % 3 = 2) : cfg2.idle 2 (cfg2.grid.coords t) = false := by
  have hc := hfin2_last (cfg2.grid.coords t) (by rw [coordK2]; exact h)
  show (!(k2_cond2 (cfg2.grid.coords t) == 1#1)) = false
  rw [hc]; rfl
theorem noflush2_out (t : Fin cfg2.N) (h : t.val % 3 ≠ 2) : (cfg2.win 2).flush t = false :=
  Bool.eq_false_iff.mpr (mt (flush2_2 t).mp h)

/-- At a query block's last reduction point the output window is live: the body leaves it at what it stores. -/
theorem leaves2_last (c : Dev nD) (t : Fin cfg2.N) (h : t.val % 3 = 2) :
    (dat2 V c).leavesExact 2 t = owns (c : Thread nD τ) (st2_2 t) fullShare ((dat2 V c).after 2 t) := by
  unfold Dat.leavesExact; rw [live2_out t h]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the output window's buffer as found where the window is idle, at the step's value where it
    is stored. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (dat2 V c).leavesExact 2 t)

set_option maxHeartbeats 1000000 in
/-- The body at any point, by its reduction coordinate: the input windows hold their blocks, the invariant gives the
    accumulator's contents (which a query block's first point does not read), and the body's triple for the case
    returns the accumulator at the next running sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have hcoord := coordK2 t
  rcases (show t.val % 3 = 0 ∨ t.val % 3 = 1 ∨ t.val % 3 = 2 by omega) with hk | hk | hk
  · rw [Dat.leavesExact_idle (dat2 V c) 2 t (idle2_out t (by omega)) (noflush2_out t (by omega))]
    simp only [before2_0, before2_1]
    rw [show (dat2 V c).owesAt () t.succ = (dat2 V c).owesAt () t.castSucc from rfl, after2_0, after2_1, Φ_eq2, Φ_eq2]
    unfold Φ2
    iintro ⟨⟨⟨%s, -, Hs⟩, Hr⟩, Ho, ⟨%d0, H0⟩, ⟨%d1, H1⟩, ⟨%d2, H2⟩⟩
    iapply (sound_kernel2_first c Set.univ (grid2.coords t) (hcoord.trans hk) _ _ _ _ _ _ _ _ (iblk2 V c 0 t) (iblk2 V c 1 t) ((dat2 V c).before 2 t d2) _)
    isplitl [H0]; · iexact H0
    isplitl [H1]; · iexact H1
    isplitl [H2]; · iexact H2
    isplitl [Hs]; · iexists s; iexact Hs
    iintro ⟨H0, H1, H2, Hs⟩
    isplitl [Hs Hr]
    · isplitl [Hs]
      · iexists _; isplitr
        swap; · iexact Hs
        ipureintro; intro _
        show _ = scr2 V c (t.val + 1)
        rw [scr2_succ, if_pos hk]
      · iexact Hr
    isplitl [Ho]; · iexact Ho
    isplitl [H0]; · iexact H0
    isplitl [H1]; · iexact H1
    iexists d2; iexact H2
  · rw [Dat.leavesExact_idle (dat2 V c) 2 t (idle2_out t (by omega)) (noflush2_out t (by omega))]
    simp only [before2_0, before2_1]
    rw [show (dat2 V c).owesAt () t.succ = (dat2 V c).owesAt () t.castSucc from rfl, after2_0, after2_1, Φ_eq2, Φ_eq2]
    unfold Φ2
    iintro ⟨⟨⟨%s, %hs, Hs⟩, Hr⟩, Ho, ⟨%d0, H0⟩, ⟨%d1, H1⟩, ⟨%d2, H2⟩⟩
    have hs' : s = scr2 V c t.val := hs (by show t.val % 3 ≠ 0; omega)
    subst hs'
    iapply (sound_kernel2_mid c Set.univ (grid2.coords t) (hcoord.trans hk) _ _ _ _ _ _ _ _ (iblk2 V c 0 t) (iblk2 V c 1 t) ((dat2 V c).before 2 t d2) (scr2 V c t.val) _)
    isplitl [H0]; · iexact H0
    isplitl [H1]; · iexact H1
    isplitl [H2]; · iexact H2
    isplitl [Hs]; · iexact Hs
    iintro ⟨H0, H1, H2, Hs⟩
    isplitl [Hs Hr]
    · isplitl [Hs]
      · iexists _; isplitr
        swap; · iexact Hs
        ipureintro; intro _
        show _ = scr2 V c (t.val + 1)
        rw [scr2_succ, if_neg (by omega)]
      · iexact Hr
    isplitl [Ho]; · iexact Ho
    isplitl [H0]; · iexact H0
    isplitl [H1]; · iexact H1
    iexists d2; iexact H2
  · rw [leaves2_last V c t hk]
    simp only [before2_0, before2_1]
    rw [show (dat2 V c).owesAt () t.succ = (dat2 V c).owesAt () t.castSucc from rfl, after2_0, after2_1, after2_2, Φ_eq2, Φ_eq2]
    unfold Φ2 out2
    iintro ⟨⟨⟨%s, %hs, Hs⟩, Hr⟩, Ho, ⟨%d0, H0⟩, ⟨%d1, H1⟩, ⟨%d2, H2⟩⟩
    have hs' : s = scr2 V c t.val := hs (by show t.val % 3 ≠ 0; omega)
    subst hs'
    have hnext : scr2 V c (t.val + 1) = k2_pay2 (iblk2 V c 0 t) (iblk2 V c 1 t) (scr2 V c t.val) := by
      rw [scr2_succ, if_neg (by omega)]
    rw [hnext]
    iapply (sound_kernel2_last c Set.univ (grid2.coords t) (hcoord.trans hk) _ _ _ _ _ _ _ _ (iblk2 V c 0 t) (iblk2 V c 1 t) (scr2 V c t.val) _)
    isplitl [H0]; · iexact H0
    isplitl [H1]; · iexact H1
    isplitl [H2]; · iexists _; iexact H2
    isplitl [Hs]; · iexact Hs
    iintro ⟨H0, H1, H2, Hs⟩
    isplitl [Hs Hr]
    · isplitl [Hs]
      · iexists _; isplitr
        swap; · iexact Hs
        ipureintro; intro _
        show _ = scr2 V c (t.val + 1)
        exact hnext.symm
      · iexact Hr
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Step

end
-- ==== Proof.KI.Reg2.lean ====
/-
  One mean-shift step's call over the core's unscoped buffers.

  The call reads ONE array through two windows (the keys' blocks and the queries' blocks) and writes another through
  a third.  Entering it, the read array's buffer, held whole, is split into two complementary halves, one per input
  window; the written array's buffer goes whole to the output window; every other unscoped buffer bypasses the call.
  Leaving it, the two halves — both still at the entry contents, an input window's array being never written —
  rejoin, and the written array is at what the write-backs made of it.  Of the scoped buffers the call's accumulator
  enters the invariant at any contents (the first point zeroes it) and leaves it with its contents forgotten.
-/
import proofs.«117443_j19241453486857_2_alg».proof.Proof.KI.Data2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the call -/

/-- The array both input windows read, and the array the output window writes. -/
abbrev inRef2 : Ref sig .tc := Pipeline.arrRef spec2 0
abbrev outRef2 : Ref sig .tc := Pipeline.arrRef spec2 2

section Reg
variable (V : (c : Dev nD) → (b : Ref sig .tc) → Buf (Elt F) ((c : Thread nD τ).loc b))

/-- The keys' window and the queries' window hold the two halves of their common array, the output window its own whole. -/
theorem shareK2 (c : Dev nD) : (dat2 V c).share 0 = Cert.MeanShift.shareL := by
  unfold Dat.share; rw [q_eq2]; rfl
theorem shareQ2 (c : Dev nD) : (dat2 V c).share 1 = Cert.MeanShift.shareR := by
  unfold Dat.share; rw [q_eq2]; rfl
theorem shareO2 (c : Dev nD) : (dat2 V c).share 2 = fullShare := by
  unfold Dat.share; rfl

/-- The pipeline's arrays at contents `G`, window by window: the read array twice, at the two halves, and the written
    array whole. -/
theorem arrays_eq2 (c : Dev nD) (G : (w : Fin cfg2.W) → Buf (Elt F) ((cfg2.win w).arr.view.loc (c.tc : Thread nD τ))) :
    ((dat2 V c).arrays G : sProp 𝕄)
      = iprop((((c : Thread nD τ).loc inRef2) ↦{Cert.MeanShift.shareL} G 0) ∗ (((c : Thread nD τ).loc inRef2) ↦{Cert.MeanShift.shareR} G 1)
          ∗ (((c : Thread nD τ).loc outRef2) ↦{fullShare} G 2)) := by
  unfold Dat.arrays
  rw [bigSep_W2, shareK2, shareQ2, shareO2, (arr_whole2 0).set_eq_univ, (arr_whole2 2).set_eq_univ]

/-- An input window's array is never written: at every point it holds the entry contents. -/
theorem arrAtK2 (c : Dev nD) (n : ℕ) : (dat2 V c).arrAt 0 n = V c inRef2 :=
  ((dat2 V c).arrAt_in 0 rfl n).trans (A_eq2 V c 0)
theorem arrAtQ2 (c : Dev nD) (n : ℕ) : (dat2 V c).arrAt 1 n = V c inRef2 :=
  ((dat2 V c).arrAt_in 1 rfl n).trans (A_eq2 V c 1)
/-- Before the first point the written array holds its entry contents. -/
theorem arrAtOz2 (c : Dev nD) : (dat2 V c).arrAt 2 0 = V c outRef2 :=
  A_eq2 V c 2

/-! ## The accumulator in and out of the invariant -/

/-- A whole scoped buffer owned at some contents is its points-to at some contents. -/
theorem whole_owns2 (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

/-- The invariant at the first point: the accumulator at anything (the first point zeroes it), the other scoped
    buffers untouched. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [Φ_eq2, scopedRest_scratch2]; unfold Φ2
  refine sep_mono ?_ .rfl
  rw [← whole_owns2 c]
  iintro ⟨%d, H⟩
  iexists d
  isplitr
  · ipureintro; intro h; exact absurd rfl h
  iexact H

/-- The invariant at the last point gives the scoped buffers back, the accumulator's contents forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [Φ_eq2, scopedRest_scratch2]; unfold Φ2
  refine sep_mono ?_ .rfl
  rw [← whole_owns2 c]
  iintro ⟨%d, -, H⟩
  iexists d
  iexact H

end Reg

/-! ## Entry and exit over a valuation of the core's buffers -/

section RegW
variable (W : Dev nD → Valuation τ sig (Elt F))

/-- A valuation read at the TensorCore's references. -/
abbrev rd2 (c : Dev nD) (b : Ref sig .tc) : Buf (Elt F) ((c : Thread nD τ).loc b) := W c b

/-- The core's unscoped buffers at `W`: the two arrays the call touches, and the rest. -/
theorem held_split2 (c : Dev nD) :
    (StableHlo.held (c : Thread nD τ) (Pipeline.ucRefs τ sig) (W c) : sProp 𝕄)
      = iprop(((((c : Thread nD τ).loc inRef2) ↦{fullShare} rd2 W c inRef2) ∗ (((c : Thread nD τ).loc outRef2) ↦{fullShare} rd2 W c outRef2))
          ∗ Pipeline.unscopedRest spec2 c (rd2 W c)) := by
  rw [← Pipeline.unscopedBufs_held (Ix := Unit) (Name := ℕ) (U := UR sig nD τ) (Lvl := ℕ) c (W c)]
  have hs : (unscopedBufs c (rd2 W c) : sProp 𝕄)
      = iprop(Pipeline.arrBufs spec2 c (rd2 W c) ∗ Pipeline.unscopedRest spec2 c (rd2 W c)) :=
    Pipeline.unscopedBufs_split₀ (fun _ : Unit => cfg2) () winFacts₀2.arr_unscoped c (rd2 W c)
  rw [hs]
  unfold Pipeline.arrBufs
  rw [show Finset.univ.image (Pipeline.arrRef spec2) = ([inRef2, outRef2] : List (Ref sig .tc)).toFinset from by decide,
    bigSep_eq_bigSepL _ (by decide)]
  rfl

/-- ENTRY: of the unscoped buffers, the read array is split into its two halves, one per input window, and the
    written array goes whole to the output window; the rest bypasses the call. -/
theorem entry2 (c : Dev nD) :
    (StableHlo.held (c : Thread nD τ) (Pipeline.ucRefs τ sig) (W c) : sProp 𝕄)
      ⊢ iprop((dat2 (rd2 W) c).arrays ((dat2 (rd2 W) c).arrAt · 0) ∗ Pipeline.unscopedRest spec2 c (rd2 W c)) := by
  rw [held_split2, arrays_eq2, arrAtK2, arrAtQ2, arrAtOz2]
  refine sep_mono ?_ .rfl
  refine (sep_mono (pointsTo_share Cert.MeanShift.full_mem_halves).1 .rfl).trans ?_
  exact sep_assoc.1

/-- The unscoped buffers when the call is left: the written array at what the write-backs made of it, every other as
    entered. -/
def exitW2 (c : Dev nD) : Valuation τ sig (Elt F) :=
  Function.update (W c) (Proc.devRef .tc outRef2) ((dat2 (rd2 W) c).arrAt 2 cfg2.N)

theorem exitWout2 (c : Dev nD) : exitW2 W c (Proc.devRef .tc outRef2) = (dat2 (rd2 W) c).arrAt 2 cfg2.N := by
  unfold exitW2; exact Function.update_self ..
theorem exitWne2 (c : Dev nD) (b : Ref sig .tc) (h : b ≠ outRef2) : exitW2 W c (Proc.devRef .tc b) = W c (Proc.devRef .tc b) := by
  unfold exitW2; exact Function.update_of_ne (StableHlo.devRef_ne_of_ne h) ..

/-- EXIT: the two halves of the read array, both still at the entry contents, rejoin; the written array is at what
    the write-backs made of it; with the rest these are the unscoped buffers at `exitW2`. -/
theorem exit2 (c : Dev nD) :
    iprop((dat2 (rd2 W) c).arrays ((dat2 (rd2 W) c).arrAt · cfg2.N) ∗ Pipeline.unscopedRest spec2 c (rd2 W c))
      ⊢ (StableHlo.held (c : Thread nD τ) (Pipeline.ucRefs τ sig) (exitW2 W c) : sProp 𝕄) := by
  have hrest : (Pipeline.unscopedRest spec2 c (rd2 (exitW2 W) c) : sProp 𝕄) = Pipeline.unscopedRest spec2 c (rd2 W c) := by
    unfold Pipeline.unscopedRest
    refine bigSep_congr fun b hb => ?_
    have hne : b ≠ outRef2 := fun e => (Finset.mem_sdiff.mp hb).2 (Finset.mem_image.mpr ⟨2, Finset.mem_univ _, e.symm⟩)
    have e : rd2 (exitW2 W) c b = rd2 W c b := exitWne2 W c b hne
    rw [e]
  have eIn : rd2 (exitW2 W) c inRef2 = rd2 W c inRef2 := exitWne2 W c inRef2 (by decide)
  have eOut : rd2 (exitW2 W) c outRef2 = (dat2 (rd2 W) c).arrAt 2 cfg2.N := exitWout2 W c
  rw [held_split2, eIn, eOut, hrest, arrays_eq2, arrAtK2, arrAtQ2]
  refine sep_mono ?_ .rfl
  refine sep_assoc.2.trans ?_
  exact sep_mono (pointsTo_share Cert.MeanShift.full_mem_halves).2 .rfl

end RegW

end Cert.KernelIdeal.Step

end
-- ==== Proof.KI.Run.lean ====
/-
  The whole program as a run of segments: a reshape of the argument into channels-by-points, three mean-shift steps,
  and the stacking of the argument's points with the three iterates.

  The core's unscoped buffers are followed from the launch through every segment: `W0` at launch, `W1` after the
  reshape, `W2`, `W3`, `W4` after the first, second and third step — each step changing only the array it writes —
  and `W5` after the stacking.  Every final state holds `W5` in the unscoped buffers; in particular the argument is
  as launched.
-/
import proofs.«117443_j19241453486857_2_alg».proof.Proof.KI.Reg0
import proofs.«117443_j19241453486857_2_alg».proof.Proof.KI.Reg1
import proofs.«117443_j19241453486857_2_alg».proof.Proof.KI.Reg2
import proofs.«117443_j19241453486857_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (⟨m, fun _ => 0, ρ⟩ : MemSt nD τ sig (Elt F)).mem ((c : Dev nD), b)
/-- After the reshape of the argument (the first step's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the first step: its written array at what the write-backs made of it, every other buffer as entered. -/
def W2 : Dev nD → Valuation τ sig (Elt F) := exitW0 (W1 m ρ)
abbrev V2 : (c : Dev nD) → (b : Ref sig .tc) → Buf (Elt F) ((c : Thread nD τ).loc b) := fun c b => W2 m ρ c b
/-- After the second step. -/
def W3 : Dev nD → Valuation τ sig (Elt F) := exitW1 (W2 m ρ)
abbrev V3 : (c : Dev nD) → (b : Ref sig .tc) → Buf (Elt F) ((c : Thread nD τ).loc b) := fun c b => W3 m ρ c b
/-- After the third step. -/
def W4 : Dev nD → Valuation τ sig (Elt F) := exitW2 (W3 m ρ)
/-- After the stacking: what the program ends with. -/
abbrev W5 : Dev nD → Valuation τ sig (Elt F) := fun c => StableHlo.after hostOps3 (W4 m ρ c)

/-! ### Reading the fold -/

/-- What each step leaves in the array it writes. -/
theorem W2_main_v1 (c : Dev nD) : W2 m ρ c (Proc.devRef .tc main_v1) = (dat0 (V1 m ρ) c).arrAt 2 cfg0.N := exitWout0 (W1 m ρ) c
theorem W3_main_v2 (c : Dev nD) : W3 m ρ c (Proc.devRef .tc main_v2) = (dat1 (V2 m ρ) c).arrAt 2 cfg1.N := exitWout1 (W2 m ρ) c
theorem W4_main_v3 (c : Dev nD) : W4 m ρ c (Proc.devRef .tc main_v3) = (dat2 (V3 m ρ) c).arrAt 2 cfg2.N := exitWout2 (W3 m ρ) c

/-- Every other buffer passes through a step unchanged. -/
theorem W2_of (c : Dev nD) (r : Ref sig .tc) (h : r ≠ main_v1) : W2 m ρ c (Proc.devRef .tc r) = W1 m ρ c (Proc.devRef .tc r) := exitWne0 (W1 m ρ) c r h
theorem W3_of (c : Dev nD) (r : Ref sig .tc) (h : r ≠ main_v2) : W3 m ρ c (Proc.devRef .tc r) = W2 m ρ c (Proc.devRef .tc r) := exitWne1 (W2 m ρ) c r h
theorem W4_of (c : Dev nD) (r : Ref sig .tc) (h : r ≠ main_v3) : W4 m ρ c (Proc.devRef .tc r) = W3 m ρ c (Proc.devRef .tc r) := exitWne2 (W3 m ρ) c r h

/-- A buffer no operation of a host stretch writes passes through it unchanged. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h

/-- The argument ends as launched: no host stretch writes it, no step may change it. -/
theorem W5_main_arg0 (c : Dev nD) : W5 m ρ c (Proc.devRef .tc main_arg0) = m ((c : Thread nD τ).loc main_arg0) :=
  (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl

/-! ## The proof data family and the thread state -/

/-- Every pipeline's proof data, each at its step's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The steps as segments -/

set_option backward.isDefEq.respectTransparency.types false in
/-- The first step over the thread state: entered from every unscoped buffer at `W1`, left at `W2`. The array
    it reads is split between its two input windows at entry and rejoined at exit; the accumulator enters the
    invariant at any contents and leaves it forgotten; the generator register bypasses the call; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := entry0 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (dat0 (V1 m ρ) c).Φ 0 from rfl]
    iintro ⟨-, -, Hr⟩
    iapply (hin0 (V1 m ρ) c)
    iexact Hr
  hout c := by
    rw [Pipeline.ownSems0_none, show (pdats m ρ 0 c).Φ (Fin.last _) = (dat0 (V1 m ρ) c).Φ (Fin.last cfg0.N) from rfl]
    iintro H
    isplitr; · iempintro
    isplitr; · iempintro
    iapply (hout0 (V1 m ρ) c)
    iexact H
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := exit0 (W1 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second step over the thread state: entered from every unscoped buffer at `W2`, left at `W3`. The array
    it reads is split between its two input windows at entry and rejoined at exit; the accumulator enters the
    invariant at any contents and leaves it forgotten; the generator register bypasses the call; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(emp)
  Y c := iprop(emp)
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) := entry1 (W2 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (V2 m ρ) c).Φ 0 from rfl]
    iintro ⟨-, -, Hr⟩
    iapply (hin1 (V2 m ρ) c)
    iexact Hr
  hout c := by
    rw [Pipeline.ownSems0_none, show (pdats m ρ 1 c).Φ (Fin.last _) = (dat1 (V2 m ρ) c).Φ (Fin.last cfg1.N) from rfl]
    iintro H
    isplitr; · iempintro
    isplitr; · iempintro
    iapply (hout1 (V2 m ρ) c)
    iexact H
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := exit1 (W2 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The third step over the thread state: entered from every unscoped buffer at `W3`, left at `W4`. The array
    it reads is split between its two input windows at entry and rejoined at exit; the accumulator enters the
    invariant at any contents and leaves it forgotten; the generator register bypasses the call; nothing is owed. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(emp)
  Y c := iprop(emp)
  Z c := iprop(Pipeline.unscopedRest (Ix := Unit) (Name := ℕ) (U := UR sig nD τ) (Lvl := ℕ) spec2 c (V3 m ρ c) ∗ ∃ r, prngReg c r)
  hentry c := by
    rw [Pipeline.ownSems0_none]
    have hsplit : (StableHlo.held (c : Thread nD τ) (Pipeline.ucRefs τ sig) (W3 m ρ c) : sProp 𝕄)
        ⊢ iprop((pdats m ρ 2 c).arrays ((pdats m ρ 2 c).arrAt · 0)
          ∗ Pipeline.unscopedRest (Ix := Unit) (Name := ℕ) (U := UR sig nD τ) (Lvl := ℕ) spec2 c (V3 m ρ c)) := entry2 (W3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (dat2 (V3 m ρ) c).Φ 0 from rfl]
    iintro ⟨-, -, Hr⟩
    iapply (hin2 (V3 m ρ) c)
    iexact Hr
  hout c := by
    rw [Pipeline.ownSems0_none, show (pdats m ρ 2 c).Φ (Fin.last _) = (dat2 (V3 m ρ) c).Φ (Fin.last cfg2.N) from rfl]
    iintro H
    isplitr; · iempintro
    isplitr; · iempintro
    iapply (hout2 (V3 m ρ) c)
    iexact H
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (V3 m ρ c))
        ⊢ (StableHlo.held (c : Thread nD τ) (Pipeline.ucRefs τ sig) (W4 m ρ c) : sProp 𝕄) := exit2 (W3 m ρ) c
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's five segments in order: the reshape, the three steps, the stacking. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state satisfies any `Q` that follows from its unscoped buffers holding `W5`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl,
      fun c => (show iprop(StableHlo.held (c : Thread nD τ) (Pipeline.ucRefs τ sig) (W5 m ρ c) ∗ R c) ⊢ _ from sep_assoc.2)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every final state holds `W5` in every unscoped buffer of every core. -/
theorem run : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_of m ρ fun _ h => h

/-- THE FRAME: every final state has the argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_of m ρ fun _ h c => (h c _ (mem_uc main_arg0 (by decide))).trans (W5_main_arg0 m ρ c)

end Cert.KernelIdeal.Step

end
-- ==== Proof.Spec.lean ====
/-
  The mean-shift iteration on 9216 points with 32 channels, over the extended reals.

  With `X` a `[32, 9216]` array (channel, point), the affinity of points `i` and `j` is
  `exp (2 · Σ_d X[d,i] · X[d,j])`, the degree of `j` the sum of its affinities, and one step sends `X` to
  `½ · ((Σ_i X[d,i] · K[i,j]) / deg j) + ½ · X[d,j]`: the weighted sum is formed first and divided by the
  degree once.  The result stacks the input and its first three iterates, each laid out as `[32, 96, 96]`.
-/
import Idealize.ShloMosaic.PureOps.Ideal
import Idealize.ShloMosaic.Lib.ValueIdx

noncomputable section

namespace Cert.MeanShift

open Idealize.ShloMosaic Idealize.ShloMosaic.ValueIdx

/-- Channels by points. -/
abbrev Pts : Shape := ⟨2, ![32, 9216]⟩
/-- The argument: one image of 32 channels, 96 by 96. -/
abbrev Img : Shape := ⟨4, ![1, 32, 96, 96]⟩
/-- The result: the argument and three iterates. -/
abbrev Stack : Shape := ⟨4, ![4, 32, 96, 96]⟩

/-- The bandwidth `2` and the step size `½`, as the binary words both programs carry. -/
def two : EReal := Ideal.ofBits .f32 0x40000000#32
def half : EReal := Ideal.ofBits .f32 0x3F000000#32

/-- The affinity of point `i` (summed over) and point `j`. -/
def aff (X : Pts.Idx → EReal) (i j : Fin 9216) : EReal :=
  Ideal.exp (two * ∑ d : Fin 32, X (ix2 d i) * X (ix2 d j))

/-- The degree of point `j`: the sum of its column of affinities. -/
def deg (X : Pts.Idx → EReal) (j : Fin 9216) : EReal := ∑ i : Fin 9216, aff X i j

/-- Channel `d` of all points, weighted by their affinities to `j`. -/
def wsum (X : Pts.Idx → EReal) (d : Fin 32) (j : Fin 9216) : EReal := ∑ i : Fin 9216, X (ix2 d i) * aff X i j

/-- One entry of one step. -/
def stepAt (X : Pts.Idx → EReal) (d : Fin 32) (j : Fin 9216) : EReal :=
  half * Ideal.div (wsum X d j) (deg X j) + half * X (ix2 d j)

/-- One step. -/
def step (X : Pts.Idx → EReal) : Pts.Idx → EReal := fun p => stepAt X (p 0) (p 1)

/-- `n` steps. -/
def iter : Nat → (Pts.Idx → EReal) → (Pts.Idx → EReal)
  | 0, X => X
  | n + 1, X => step (iter n X)

/-- The image's pixels in row-major order as points. -/
def flat (x : Img.Idx → EReal) : Pts.Idx → EReal := fun p =>
  x (ix4 (0 : Fin 1) (p 0) (⟨(p 1).val / 96, Nat.div_lt_of_lt_mul (p 1).isLt⟩ : Fin 96) (⟨(p 1).val % 96, Nat.mod_lt _ (by decide)⟩ : Fin 96))

/-- Entry `(n, d, r, s)` of the result: channel `d` of point `96 r + s` after `n` steps. -/
def result (x : Img.Idx → EReal) : Stack.Idx → EReal := fun o =>
  iter (o 0).val (flat x) (ix2 (o 1) (⟨(o 2).val * 96 + (o 3).val, by
    have h2 := (o 2).isLt; have h3 := (o 3).isLt
    have h2' : (o 2).val < 96 := h2
    have h3' : (o 3).val < 96 := h3
    omega⟩ : Fin 9216))

end Cert.MeanShift

end
-- ==== Proof.KI.Pay0.lean ====
/-
  The three values one grid point of the mean-shift step stores, read at an index, over the extended reals.

  The accumulator is zeroed (k0_pay1); a point adds to it the product of the key block, with one row of ones
  appended, by the affinities of the key block's points to the query block's points (k0_pay2): rows 0..31 gain
  Σ_k x0[d,k] · exp (2 · Σ_e x0[e,k] · x1[e,q]) and row 32 gains the sum of the affinities themselves; the last
  point of a query block divides rows 0..31 by row 32, halves, and adds half the query block (k0_pay3).
-/
import proofs.«117443_j19241453486857_2_alg».proof.Proof.Gen.KernelIdeal.Skeleton
import proofs.«117443_j19241453486857_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.StepValue

open Cert.KernelIdeal Cert.KernelIdeal.Gen Idealize.ShloMosaic Idealize.ShloMosaic.ValueIdx Idealize.SL.Sem

/-! ## The zeroed accumulator and the finalize value -/

/-- The zeroed accumulator reads 0 everywhere. -/
theorem k0_pay1_apply (r : Fin 40) (q : Fin 768) : k0_pay1 (F := Ideal) (ix2 r q) = 0 := by
  unfold k0_pay1
  rw [shapeCast_self]
  exact Ideal.ofBits_zero_f32

/-- The finalize value: half the quotient plus half the query block. -/
theorem k0_pay3_apply (a : Vec Ideal S32x768 .f32) (b : Vec Ideal S1x768 .f32) (x1 : Vec Ideal S32x768 .f32)
    (d : Fin 32) (q : Fin 768) :
    k0_pay3 (F := Ideal) a b x1 (ix2 d q)
      = Cert.MeanShift.half * Ideal.div (a (ix2 d q)) (b (ix2 (0 : Fin 1) q)) + Cert.MeanShift.half * x1 (ix2 d q) := by
  unfold k0_pay3
  rw [shapeCast_self]
  have hb : broadcastTo S32x768 b broadcasts_S1x768_S32x768 (ix2 d q) = b (ix2 (0 : Fin 1) q) :=
    broadcastTo_apply b broadcasts_S1x768_S32x768 (ix2 d q) (ix2 (0 : Fin 1) q) (fun a => by
      match a with
      | ⟨0, _⟩ => rfl
      | ⟨1, _⟩ => rfl)
  show Cert.MeanShift.half * Ideal.div (a (ix2 d q)) (broadcastTo S32x768 b broadcasts_S1x768_S32x768 (ix2 d q)) + Cert.MeanShift.half * x1 (ix2 d q) = _
  rw [hb]

/-! ## The two block products at an index -/

/-- Left operand of the first product: contraction coordinate on axis 0, the output's row on axis 1. -/
theorem gram_lhs_ax0 (i : S3072x768.Idx) (c : dot_S32x3072_S32x768_S3072x768_0_0_1_1_n_n.contr.Idx) :
    (dot_S32x3072_S32x768_S3072x768_0_0_1_1_n_n.lhsIdx i c 0).val = (c ⟨0, by decide⟩).val :=
  dot_S32x3072_S32x768_S3072x768_0_0_1_1_n_n.lhsIdx_val_of_single rfl i c
theorem gram_lhs_ax1 (i : S3072x768.Idx) (c : dot_S32x3072_S32x768_S3072x768_0_0_1_1_n_n.contr.Idx) :
    (dot_S32x3072_S32x768_S3072x768_0_0_1_1_n_n.lhsIdx i c 1).val = (i 0).val := by
  unfold DotDims.lhsIdx
  rw [dif_neg (show ¬(1 : Fin S32x3072.rank) ∈ dot_S32x3072_S32x768_S3072x768_0_0_1_1_n_n.lhsBatch by decide),
    dif_pos (show (1 : Fin S32x3072.rank) ∈ dot_S32x3072_S32x768_S3072x768_0_0_1_1_n_n.lhsNonContracting by decide)]
  rfl
theorem gram_rhs_ax0 (i : S3072x768.Idx) (c : dot_S32x3072_S32x768_S3072x768_0_0_1_1_n_n.contr.Idx) :
    (dot_S32x3072_S32x768_S3072x768_0_0_1_1_n_n.rhsIdx i c 0).val = (c ⟨0, by decide⟩).val :=
  dot_S32x3072_S32x768_S3072x768_0_0_1_1_n_n.rhsIdx_val_of_single rfl i c
theorem gram_rhs_ax1 (i : S3072x768.Idx) (c : dot_S32x3072_S32x768_S3072x768_0_0_1_1_n_n.contr.Idx) :
    (dot_S32x3072_S32x768_S3072x768_0_0_1_1_n_n.rhsIdx i c 1).val = (i 1).val := by
  unfold DotDims.rhsIdx
  rw [dif_neg (show ¬(1 : Fin S32x768.rank) ∈ dot_S32x3072_S32x768_S3072x768_0_0_1_1_n_n.rhsBatch by decide),
    dif_pos (show (1 : Fin S32x768.rank) ∈ dot_S32x3072_S32x768_S3072x768_0_0_1_1_n_n.rhsNonContracting by decide)]
  rfl

/-- The first product into zero: entry (k, q) is the inner product over the channels of key k and query q. -/
theorem gram_apply (y0 : FVec Ideal S32x3072 .bf16) (y1 : FVec Ideal S32x768 .bf16) (k : Fin 3072) (q : Fin 768) :
    matmul (F := Ideal) dot_S32x3072_S32x768_S3072x768_0_0_1_1_n_n none y0 y1 (constant (F := Ideal) S3072x768 .f32 0x00000000#32) (ix2 k q)
      = ∑ e : Fin 32, y0 (ix2 e k) * y1 (ix2 e q) := by
  simp only [matmul]
  rw [Ideal.matmul_constant_zero_apply, ← Equiv.sum_comp (contrEquiv1 dot_S32x3072_S32x768_S3072x768_0_0_1_1_n_n 32 rfl rfl).symm]
  refine Finset.sum_congr rfl fun e _ => ?_
  have he := contrEquiv1_symm_val dot_S32x3072_S32x768_S3072x768_0_0_1_1_n_n 32 rfl rfl e
  have el : dot_S32x3072_S32x768_S3072x768_0_0_1_1_n_n.lhsIdx (ix2 k q) ((contrEquiv1 dot_S32x3072_S32x768_S3072x768_0_0_1_1_n_n 32 rfl rfl).symm e) = ix2 e k :=
    funext fun a => Fin.ext (by
      match a with
      | ⟨0, _⟩ => exact (gram_lhs_ax0 _ _).trans he
      | ⟨1, _⟩ => exact gram_lhs_ax1 _ _)
  have er : dot_S32x3072_S32x768_S3072x768_0_0_1_1_n_n.rhsIdx (ix2 k q) ((contrEquiv1 dot_S32x3072_S32x768_S3072x768_0_0_1_1_n_n 32 rfl rfl).symm e) = ix2 e q :=
    funext fun a => Fin.ext (by
      match a with
      | ⟨0, _⟩ => exact (gram_rhs_ax0 _ _).trans he
      | ⟨1, _⟩ => exact gram_rhs_ax1 _ _)
  rw [el, er]

theorem agg_lhs_ax0 (i : S40x768.Idx) (c : dot_S40x3072_S3072x768_S40x768_1_0_0_1_n_n.contr.Idx) :
    (dot_S40x3072_S3072x768_S40x768_1_0_0_1_n_n.lhsIdx i c 0).val = (i 0).val := by
  unfold DotDims.lhsIdx
  rw [dif_neg (show ¬(0 : Fin S40x3072.rank) ∈ dot_S40x3072_S3072x768_S40x768_1_0_0_1_n_n.lhsBatch by decide),
    dif_pos (show (0 : Fin S40x3072.rank) ∈ dot_S40x3072_S3072x768_S40x768_1_0_0_1_n_n.lhsNonContracting by decide)]
  rfl
theorem agg_lhs_ax1 (i : S40x768.Idx) (c : dot_S40x3072_S3072x768_S40x768_1_0_0_1_n_n.contr.Idx) :
    (dot_S40x3072_S3072x768_S40x768_1_0_0_1_n_n.lhsIdx i c 1).val = (c ⟨0, by decide⟩).val :=
  dot_S40x3072_S3072x768_S40x768_1_0_0_1_n_n.lhsIdx_val_of_single rfl i c
theorem agg_rhs_ax0 (i : S40x768.Idx) (c : dot_S40x3072_S3072x768_S40x768_1_0_0_1_n_n.contr.Idx) :
    (dot_S40x3072_S3072x768_S40x768_1_0_0_1_n_n.rhsIdx i c 0).val = (c ⟨0, by decide⟩).val :=
  dot_S40x3072_S3072x768_S40x768_1_0_0_1_n_n.rhsIdx_val_of_single rfl i c
theorem agg_rhs_ax1 (i : S40x768.Idx) (c : dot_S40x3072_S3072x768_S40x768_1_0_0_1_n_n.contr.Idx) :
    (dot_S40x3072_S3072x768_S40x768_1_0_0_1_n_n.rhsIdx i c 1).val = (i 1).val := by
  unfold DotDims.rhsIdx
  rw [dif_neg (show ¬(1 : Fin S3072x768.rank) ∈ dot_S40x3072_S3072x768_S40x768_1_0_0_1_n_n.rhsBatch by decide),
    dif_pos (show (1 : Fin S3072x768.rank) ∈ dot_S40x3072_S3072x768_S40x768_1_0_0_1_n_n.rhsNonContracting by decide)]
  rfl

/-- The second product into zero: entry (r, q) sums row r of the left operand against column q of the right. -/
theorem agg_apply (z : FVec Ideal S40x3072 .bf16) (w : FVec Ideal S3072x768 .bf16) (r : Fin 40) (q : Fin 768) :
    matmul (F := Ideal) dot_S40x3072_S3072x768_S40x768_1_0_0_1_n_n none z w (constant (F := Ideal) S40x768 .f32 0x00000000#32) (ix2 r q)
      = ∑ k : Fin 3072, z (ix2 r k) * w (ix2 k q) := by
  simp only [matmul]
  rw [Ideal.matmul_constant_zero_apply, ← Equiv.sum_comp (contrEquiv1 dot_S40x3072_S3072x768_S40x768_1_0_0_1_n_n 3072 rfl rfl).symm]
  refine Finset.sum_congr rfl fun k _ => ?_
  have hk := contrEquiv1_symm_val dot_S40x3072_S3072x768_S40x768_1_0_0_1_n_n 3072 rfl rfl k
  have el : dot_S40x3072_S3072x768_S40x768_1_0_0_1_n_n.lhsIdx (ix2 r q) ((contrEquiv1 dot_S40x3072_S3072x768_S40x768_1_0_0_1_n_n 3072 rfl rfl).symm k) = ix2 r k :=
    funext fun a => Fin.ext (by
      match a with
      | ⟨0, _⟩ => exact agg_lhs_ax0 _ _
      | ⟨1, _⟩ => exact (agg_lhs_ax1 _ _).trans hk)
  have er : dot_S40x3072_S3072x768_S40x768_1_0_0_1_n_n.rhsIdx (ix2 r q) ((contrEquiv1 dot_S40x3072_S3072x768_S40x768_1_0_0_1_n_n 3072 rfl rfl).symm k) = ix2 k q :=
    funext fun a => Fin.ext (by
      match a with
      | ⟨0, _⟩ => exact (agg_rhs_ax0 _ _).trans hk
      | ⟨1, _⟩ => exact agg_rhs_ax1 _ _)
  rw [el, er]

/-! ## The key block with the row of ones appended -/

/-- Rows 0..31 of the joined operand are the key block's. -/
theorem aug_apply_top (y : FVec Ideal S32x3072 .bf16) (o : FVec Ideal S8x3072 .bf16) (d : Fin 32) (k : Fin 3072) :
    concatenate S40x3072 0 [⟨S32x3072, y⟩, ⟨S8x3072, o⟩] concatenates_S32x3072_S8x3072_S40x3072_d0 (ix2 (⟨d.val, by omega⟩ : Fin 40) k)
      = y (ix2 d k) :=
  concatenate_pair_apply_left (0 : Fin S40x3072.rank) y o concatenates_S32x3072_S8x3072_S40x3072_d0 _ rfl (ix2 d k) (fun b => by
    match b with
    | ⟨0, _⟩ => rfl
    | ⟨1, _⟩ => rfl)

/-- Row 32 of the joined operand is row 0 of the appended piece. -/
theorem aug_apply_deg (y : FVec Ideal S32x3072 .bf16) (o : FVec Ideal S8x3072 .bf16) (k : Fin 3072) :
    concatenate S40x3072 0 [⟨S32x3072, y⟩, ⟨S8x3072, o⟩] concatenates_S32x3072_S8x3072_S40x3072_d0 (ix2 (⟨32, by omega⟩ : Fin 40) k)
      = o (ix2 (0 : Fin 8) k) :=
  concatenate_pair_apply_right (0 : Fin S40x3072.rank) y o concatenates_S32x3072_S8x3072_S40x3072_d0 _ rfl rfl (ix2 (0 : Fin 8) k) (fun b hb => by
    match b with
    | ⟨0, _⟩ => exact absurd rfl hb
    | ⟨1, _⟩ => rfl) rfl

/-- The appended piece is 1 on its row 0. -/
theorem onehot_apply_zero (k : Fin 3072) :
    select (cmpi .eq (iota .tc S8x3072 32 [0] iota_S8x3072_d0_w32) (broadcast S8x3072 0#32))
        (broadcast S8x3072 (Scalar.ofBits (F := Ideal) .bf16 0x3F80#16)) (broadcast S8x3072 (Scalar.ofBits (F := Ideal) .bf16 0x0000#16))
        (ix2 (0 : Fin 8) k) = (1 : EReal) := by
  rw [select_apply]
  have hc : cmpi .eq (iota .tc S8x3072 32 [0] iota_S8x3072_d0_w32) (broadcast S8x3072 0#32) (ix2 (0 : Fin 8) k) = 1#1 := by
    show IntOp.cmpi .eq (iota .tc S8x3072 32 [0] iota_S8x3072_d0_w32 (ix2 (0 : Fin 8) k)) 0#32 = 1#1
    rw [iota_single_apply]
    rfl
  rw [hc, select_one, broadcast_apply]
  exact Ideal.ofBits_one_bf16

/-! ## The accumulate value at an index -/

/-- The affinity of key k to query q as the body forms it: the exponential of twice the first product's entry. -/
theorem kmat_apply (x0 : Vec Ideal S32x3072 .f32) (x1 : Vec Ideal S32x768 .f32) (k : Fin 3072) (q : Fin 768) :
    (truncf .bf16 (exp (mulf (broadcast S3072x768 (Scalar.ofBits (F := Ideal) .f32 0x40000000#32))
        (matmul (F := Ideal) dot_S32x3072_S32x768_S3072x768_0_0_1_1_n_n none
          (truncf .bf16 (x0 : FVec Ideal S32x3072 .f32) bitsLt_bf16_f32) (truncf .bf16 (x1 : FVec Ideal S32x768 .f32) bitsLt_bf16_f32)
          (constant (F := Ideal) S3072x768 .f32 0x00000000#32)))) bitsLt_bf16_f32 : FVec Ideal S3072x768 .bf16) (ix2 k q)
      = Ideal.exp (Cert.MeanShift.two * ∑ e : Fin 32, x0 (ix2 e k) * x1 (ix2 e q)) := by
  show Ideal.exp (Cert.MeanShift.two * matmul (F := Ideal) dot_S32x3072_S32x768_S3072x768_0_0_1_1_n_n none
      (truncf .bf16 (x0 : FVec Ideal S32x3072 .f32) bitsLt_bf16_f32) (truncf .bf16 (x1 : FVec Ideal S32x768 .f32) bitsLt_bf16_f32)
      (constant (F := Ideal) S3072x768 .f32 0x00000000#32) (ix2 k q)) = _
  exact congrArg (fun t => Ideal.exp (Cert.MeanShift.two * t)) (gram_apply _ _ k q)

/-- The affinity sum a point adds to row d < 32 of the accumulator. -/
theorem k0_pay2_apply_top (x0 : Vec Ideal S32x3072 .f32) (x1 : Vec Ideal S32x768 .f32) (s : Vec Ideal S40x768 .f32)
    (d : Fin 32) (q : Fin 768) :
    k0_pay2 (F := Ideal) x0 x1 s (ix2 (⟨d.val, by omega⟩ : Fin 40) q)
      = s (ix2 (⟨d.val, by omega⟩ : Fin 40) q)
        + ∑ k : Fin 3072, x0 (ix2 d k) * Ideal.exp (Cert.MeanShift.two * ∑ e : Fin 32, x0 (ix2 e k) * x1 (ix2 e q)) := by
  unfold k0_pay2
  simp only [shapeCast_self]
  rw [addf_apply]
  refine congrArg (fun t => s (ix2 (⟨d.val, by omega⟩ : Fin 40) q) + t) ?_
  refine (agg_apply _ _ _ q).trans ?_
  refine Finset.sum_congr rfl fun k _ => ?_
  refine congrArg₂ (fun a b : EReal => a * b) ?_ (kmat_apply x0 x1 k q)
  exact (aug_apply_top _ _ d k).trans (congrFun (shapeCast_self (x0 : S32x3072.Idx → Ideal .f32) shapeCasts_S32x3072_S32x3072) (ix2 d k))

/-- Row 32, against the appended row of ones, gains the affinities' sum. -/
theorem k0_pay2_apply_deg (x0 : Vec Ideal S32x3072 .f32) (x1 : Vec Ideal S32x768 .f32) (s : Vec Ideal S40x768 .f32)
    (q : Fin 768) :
    k0_pay2 (F := Ideal) x0 x1 s (ix2 (⟨32, by omega⟩ : Fin 40) q)
      = s (ix2 (⟨32, by omega⟩ : Fin 40) q)
        + ∑ k : Fin 3072, Ideal.exp (Cert.MeanShift.two * ∑ e : Fin 32, x0 (ix2 e k) * x1 (ix2 e q)) := by
  unfold k0_pay2
  simp only [shapeCast_self]
  rw [addf_apply]
  refine congrArg (fun t => s (ix2 (⟨32, by omega⟩ : Fin 40) q) + t) ?_
  refine (agg_apply _ _ _ q).trans ?_
  refine Finset.sum_congr rfl fun k _ => ?_
  refine (congrArg₂ (fun a b : EReal => a * b) ((aug_apply_deg _ _ k).trans (onehot_apply_zero k)) (kmat_apply x0 x1 k q)).trans ?_
  exact one_mul _

end Cert.KernelIdeal.StepValue

end
-- ==== Proof.KI.Sum0.lean ====
/-
  The sums of one mean-shift step, block by block.

  The 9216 points fall into three key blocks of 3072 and twelve query blocks of 768.  A sum over all points is the
  sum over the key blocks of the sums inside each block; so an accumulator that starts from zero and gains, block after
  block, the block's share of the weighted sum (of the degree) ends at the weighted sum (the degree), and half the
  quotient plus half the point is the step.
-/
import proofs.«117443_j19241453486857_2_alg».proof.Proof.Spec
import Mathlib.Algebra.BigOperators.Fin
import Mathlib.Logic.Equiv.Fin.Basic

noncomputable section

namespace Cert.KernelIdeal.StepValue

open Idealize.ShloMosaic Idealize.ShloMosaic.ValueIdx Cert.MeanShift

/-- Point i of key block k. -/
def keyPt (k : Fin 3) (i : Fin 3072) : Fin 9216 := ⟨3072 * k.val + i.val, by omega⟩
/-- Point j of query block q. -/
def qryPt (q : Fin 12) (j : Fin 768) : Fin 9216 := ⟨768 * q.val + j.val, by omega⟩

@[simp] theorem keyPt_val (k : Fin 3) (i : Fin 3072) : (keyPt k i).val = 3072 * k.val + i.val := rfl
@[simp] theorem qryPt_val (q : Fin 12) (j : Fin 768) : (qryPt q j).val = 768 * q.val + j.val := rfl

/-- A sum over the points is the sum over the key blocks of the sums inside each. -/
theorem sum_keyPt {M : Type*} [AddCommMonoid M] (f : Fin 9216 → M) :
    ∑ k : Fin 3, ∑ i : Fin 3072, f (keyPt k i) = ∑ i : Fin 9216, f i := by
  rw [← Fintype.sum_prod_type' (f := fun k i => f (keyPt k i))]
  refine Fintype.sum_equiv (finProdFinEquiv (m := 3) (n := 3072)) _ _ (fun x => congrArg f (Fin.ext ?_))
  show 3072 * x.1.val + x.2.val = x.2.val + 3072 * x.1.val
  omega

/-- Key block k's share of the weighted sum of channel d at point j. -/
def wpart (X : Pts.Idx → EReal) (d : Fin 32) (j : Fin 9216) (k : Fin 3) : EReal :=
  ∑ i : Fin 3072, X (ix2 d (keyPt k i)) * aff X (keyPt k i) j
/-- Key block k's share of the degree of point j. -/
def dpart (X : Pts.Idx → EReal) (j : Fin 9216) (k : Fin 3) : EReal := ∑ i : Fin 3072, aff X (keyPt k i) j

/-- From zero, the three shares in turn make the weighted sum. -/
theorem wsum_eq_parts (X : Pts.Idx → EReal) (d : Fin 32) (j : Fin 9216) :
    0 + wpart X d j 0 + wpart X d j 1 + wpart X d j 2 = wsum X d j := by
  rw [zero_add, ← Fin.sum_univ_three (wpart X d j)]
  exact sum_keyPt (fun i => X (ix2 d i) * aff X i j)

/-- From zero, the three shares in turn make the degree. -/
theorem deg_eq_parts (X : Pts.Idx → EReal) (j : Fin 9216) :
    0 + dpart X j 0 + dpart X j 1 + dpart X j 2 = deg X j := by
  rw [zero_add, ← Fin.sum_univ_three (dpart X j)]
  exact sum_keyPt (fun i => aff X i j)

/-- Half the quotient of the accumulated sums plus half the point is the step's entry. -/
theorem stepAt_eq_parts (X : Pts.Idx → EReal) (d : Fin 32) (j : Fin 9216) :
    half * Ideal.div (0 + wpart X d j 0 + wpart X d j 1 + wpart X d j 2) (0 + dpart X j 0 + dpart X j 1 + dpart X j 2)
      + half * X (ix2 d j) = stepAt X d j := by
  rw [wsum_eq_parts, deg_eq_parts]
  rfl

end Cert.KernelIdeal.StepValue

end
-- ==== Proof.KI.Value0.lean ====
/-
  What one mean-shift call leaves in its output array: one step of the array it read.

  Point t of the grid has query block t / 3 and key block t % 3.  The key window's block there is key block t % 3 of
  the array and the query window's block is query block t / 3 of the same array; so the accumulator, zeroed at a
  query block's first point, holds after its three points the weighted sums (rows 0..31) and the degrees (row 32) of
  the query block's points, and the block written back at the third point is the step's block.  The written blocks
  tile the output array.
-/
import proofs.«117443_j19241453486857_2_alg».proof.Proof.KI.Data0
import proofs.«117443_j19241453486857_2_alg».proof.Proof.KI.Pay0
import proofs.«117443_j19241453486857_2_alg».proof.Proof.KI.Sum0
import Idealize.ShloMosaic.Lib.Pipeline.Value

noncomputable section

namespace Cert.KernelIdeal.StepValue

open Cert.KernelIdeal Cert.KernelIdeal.Gen Cert.KernelIdeal.Step Cert.MeanShift
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's points -/

/-- Point t's query block and key block. -/
def qOf0 (t : Fin cfg0.N) : Fin 12 := ⟨t.val / 3, by have := t.isLt; have : cfg0.N = 36 := N_0; omega⟩
def kOf0 (t : Fin cfg0.N) : Fin 3 := ⟨t.val % 3, Nat.mod_lt _ (by decide)⟩
/-- Key block k of query block q as a point. -/
def ptOf0 (q : Fin 12) (k : Fin 3) : Fin cfg0.N := ⟨3 * q.val + k.val, by have : cfg0.N = 36 := N_0; omega⟩

theorem qOf0_ptOf (q : Fin 12) (k : Fin 3) : qOf0 (ptOf0 q k) = q := Fin.ext (by show (3 * q.val + k.val) / 3 = q.val; omega)
theorem kOf0_ptOf (q : Fin 12) (k : Fin 3) : kOf0 (ptOf0 q k) = k := Fin.ext (by show (3 * q.val + k.val) % 3 = k.val; omega)

/-- The array the step reads, as points by channels. -/
abbrev src0 (c : Dev nD) : Pts.Idx → EReal := V c (Pipeline.arrRef spec0 0)

/-- The printed index maps over the grid: point t has query block t / 3 and key block t % 3. -/
theorem idx0_facts : ∀ t : Fin cfg0.N, win0_0.index t (0 : Fin 2) = 0 ∧ win0_0.index t (1 : Fin 2) = t.val % 3
    ∧ win0_1.index t (0 : Fin 2) = 0 ∧ win0_1.index t (1 : Fin 2) = t.val / 3
    ∧ win0_2.index t (0 : Fin 2) = 0 ∧ win0_2.index t (1 : Fin 2) = t.val / 3 :=
  (by decide +kernel : ∀ t : Fin grid0.N, _)

/-- The key window's block at point t is key block t % 3 of the array. -/
theorem keys0_apply (c : Dev nD) (t : Fin cfg0.N) (d : Fin 32) (i : Fin 3072) :
    (iblk0 V c 0 t : Vec Ideal S32x3072 .f32) (ix2 d i) = src0 V c (ix2 d (keyPt (kOf0 t) i)) := by
  obtain ⟨ea, eb, -, -, -, -⟩ := idx0_facts t
  unfold iblk0
  rw [View.read_apply]
  refine congrArg (src0 V c) (funext fun a => Fin.ext ?_)
  match a with
  | ⟨0, _⟩ => show win0_0.index t (0 : Fin 2) * 32 + 1 * d.val = d.val; omega
  | ⟨1, _⟩ => show win0_0.index t (1 : Fin 2) * 3072 + 1 * i.val = 3072 * (t.val % 3) + i.val; omega

/-- The query window's block at point t is query block t / 3 of the same array. -/
theorem qry0_apply (c : Dev nD) (t : Fin cfg0.N) (d : Fin 32) (j : Fin 768) :
    (iblk0 V c 1 t : Vec Ideal S32x768 .f32) (ix2 d j) = src0 V c (ix2 d (qryPt (qOf0 t) j)) := by
  obtain ⟨-, -, ea, eb, -, -⟩ := idx0_facts t
  unfold iblk0
  rw [View.read_apply]
  refine congrArg (src0 V c) (funext fun a => Fin.ext ?_)
  match a with
  | ⟨0, _⟩ => show win0_1.index t (0 : Fin 2) * 32 + 1 * d.val = d.val; omega
  | ⟨1, _⟩ => show win0_1.index t (1 : Fin 2) * 768 + 1 * j.val = 768 * (t.val / 3) + j.val; omega

/-! ## The accumulator's rows -/

theorem top0_apply (s : Vec Ideal S40x768 .f32) (d : Fin 32) (j : Fin 768) :
    top0 s (ix2 d j) = s (ix2 (⟨d.val, by omega⟩ : Fin 40) j) := by
  unfold top0
  show s (rTop0.idx (ix2 d j)) = _
  refine congrArg s (funext fun a => Fin.ext ?_)
  match a with
  | ⟨0, _⟩ => show 0 + 1 * d.val = d.val; omega
  | ⟨1, _⟩ => show 0 + 1 * j.val = j.val; omega

theorem row0_apply (s : Vec Ideal S40x768 .f32) (j : Fin 768) :
    row0 s (ix2 (0 : Fin 1) j) = s (ix2 (⟨32, by omega⟩ : Fin 40) j) := by
  unfold row0
  show s (rRow0.idx (ix2 (0 : Fin 1) j)) = _
  refine congrArg s (funext fun a => Fin.ext ?_)
  match a with
  | ⟨0, _⟩ => show 32 + 1 * 0 = 32; omega
  | ⟨1, _⟩ => show 0 + 1 * j.val = j.val; omega

/-! ## One point's contribution -/

/-- A point adds to row d of the accumulator its key block's share of the weighted sum at the query block's points. -/
theorem acc0_step_top (c : Dev nD) (t : Fin cfg0.N) (s : Vec Ideal S40x768 .f32) (d : Fin 32) (j : Fin 768) :
    k0_pay2 (F := Ideal) (iblk0 V c 0 t) (iblk0 V c 1 t) s (ix2 (⟨d.val, by omega⟩ : Fin 40) j)
      = s (ix2 (⟨d.val, by omega⟩ : Fin 40) j) + wpart (src0 V c) d (qryPt (qOf0 t) j) (kOf0 t) := by
  refine (k0_pay2_apply_top _ _ s d j).trans (congrArg (fun u => s (ix2 (⟨d.val, by omega⟩ : Fin 40) j) + u) ?_)
  unfold wpart aff
  refine Finset.sum_congr rfl fun i _ => ?_
  rw [keys0_apply]
  refine congrArg (fun u => src0 V c (ix2 d (keyPt (kOf0 t) i)) * Ideal.exp (two * u)) ?_
  refine Finset.sum_congr rfl fun e _ => ?_
  rw [keys0_apply, qry0_apply]

/-- and to row 32 its share of the degree. -/
theorem acc0_step_deg (c : Dev nD) (t : Fin cfg0.N) (s : Vec Ideal S40x768 .f32) (j : Fin 768) :
    k0_pay2 (F := Ideal) (iblk0 V c 0 t) (iblk0 V c 1 t) s (ix2 (⟨32, by omega⟩ : Fin 40) j)
      = s (ix2 (⟨32, by omega⟩ : Fin 40) j) + dpart (src0 V c) (qryPt (qOf0 t) j) (kOf0 t) := by
  refine (k0_pay2_apply_deg _ _ s j).trans (congrArg (fun u => s (ix2 (⟨32, by omega⟩ : Fin 40) j) + u) ?_)
  unfold dpart aff
  refine Finset.sum_congr rfl fun i _ => ?_
  refine congrArg (fun u => Ideal.exp (two * u)) ?_
  refine Finset.sum_congr rfl fun e _ => ?_
  rw [keys0_apply, qry0_apply]

/-! ## The accumulator over a query block's three points -/

/-- A point that opens a query block adds to zero; -/
theorem scr0_open (c : Dev nD) (t : Fin cfg0.N) (ht : t.val % 3 = 0) :
    scr0 V c (t.val + 1) = k0_pay2 (iblk0 V c 0 t) (iblk0 V c 1 t) (k0_pay1 (F := Ideal)) := by
  rw [scr0_succ, if_pos ht]
/-- any other adds to what the point before left. -/
theorem scr0_cont (c : Dev nD) (t : Fin cfg0.N) (ht : ¬ t.val % 3 = 0) :
    scr0 V c (t.val + 1) = k0_pay2 (iblk0 V c 0 t) (iblk0 V c 1 t) (scr0 V c t.val) := by
  rw [scr0_succ, if_neg ht]

theorem scr0_one_top (c : Dev nD) (q : Fin 12) (d : Fin 32) (j : Fin 768) :
    scr0 V c (3 * q.val + 1) (ix2 (⟨d.val, by omega⟩ : Fin 40) j) = 0 + wpart (src0 V c) d (qryPt q j) 0 := by
  have h : scr0 V c (3 * q.val + 1) = k0_pay2 (iblk0 V c 0 (ptOf0 q 0)) (iblk0 V c 1 (ptOf0 q 0)) (k0_pay1 (F := Ideal)) :=
    scr0_open V c (ptOf0 q 0) (by show (3 * q.val + 0) % 3 = 0; omega)
  refine (congrFun h _).trans ((acc0_step_top V c (ptOf0 q 0) _ d j).trans ?_)
  rw [k0_pay1_apply, qOf0_ptOf, kOf0_ptOf]

theorem scr0_two_top (c : Dev nD) (q : Fin 12) (d : Fin 32) (j : Fin 768) :
    scr0 V c (3 * q.val + 2) (ix2 (⟨d.val, by omega⟩ : Fin 40) j)
      = 0 + wpart (src0 V c) d (qryPt q j) 0 + wpart (src0 V c) d (qryPt q j) 1 := by
  have h : scr0 V c (3 * q.val + 2) = k0_pay2 (iblk0 V c 0 (ptOf0 q 1)) (iblk0 V c 1 (ptOf0 q 1)) (scr0 V c (3 * q.val + 1)) :=
    scr0_cont V c (ptOf0 q 1) (by show ¬ (3 * q.val + 1) % 3 = 0; omega)
  refine (congrFun h _).trans ((acc0_step_top V c (ptOf0 q 1) _ d j).trans ?_)
  rw [scr0_one_top, qOf0_ptOf, kOf0_ptOf]

theorem scr0_three_top (c : Dev nD) (q : Fin 12) (d : Fin 32) (j : Fin 768) :
    scr0 V c (3 * q.val + 3) (ix2 (⟨d.val, by omega⟩ : Fin 40) j)
      = 0 + wpart (src0 V c) d (qryPt q j) 0 + wpart (src0 V c) d (qryPt q j) 1 + wpart (src0 V c) d (qryPt q j) 2 := by
  have h : scr0 V c (3 * q.val + 3) = k0_pay2 (iblk0 V c 0 (ptOf0 q 2)) (iblk0 V c 1 (ptOf0 q 2)) (scr0 V c (3 * q.val + 2)) :=
    scr0_cont V c (ptOf0 q 2) (by show ¬ (3 * q.val + 2) % 3 = 0; omega)
  refine (congrFun h _).trans ((acc0_step_top V c (ptOf0 q 2) _ d j).trans ?_)
  rw [scr0_two_top, qOf0_ptOf, kOf0_ptOf]

theorem scr0_one_deg (c : Dev nD) (q : Fin 12) (j : Fin 768) :
    scr0 V c (3 * q.val + 1) (ix2 (⟨32, by omega⟩ : Fin 40) j) = 0 + dpart (src0 V c) (qryPt q j) 0 := by
  have h : scr0 V c (3 * q.val + 1) = k0_pay2 (iblk0 V c 0 (ptOf0 q 0)) (iblk0 V c 1 (ptOf0 q 0)) (k0_pay1 (F := Ideal)) :=
    scr0_open V c (ptOf0 q 0) (by show (3 * q.val + 0) % 3 = 0; omega)
  refine (congrFun h _).trans ((acc0_step_deg V c (ptOf0 q 0) _ j).trans ?_)
  rw [k0_pay1_apply, qOf0_ptOf, kOf0_ptOf]

theorem scr0_two_deg (c : Dev nD) (q : Fin 12) (j : Fin 768) :
    scr0 V c (3 * q.val + 2) (ix2 (⟨32, by omega⟩ : Fin 40) j)
      = 0 + dpart (src0 V c) (qryPt q j) 0 + dpart (src0 V c) (qryPt q j) 1 := by
  have h : scr0 V c (3 * q.val + 2) = k0_pay2 (iblk0 V c 0 (ptOf0 q 1)) (iblk0 V c 1 (ptOf0 q 1)) (scr0 V c (3 * q.val + 1)) :=
    scr0_cont V c (ptOf0 q 1) (by show ¬ (3 * q.val + 1) % 3 = 0; omega)
  refine (congrFun h _).trans ((acc0_step_deg V c (ptOf0 q 1) _ j).trans ?_)
  rw [scr0_one_deg, qOf0_ptOf, kOf0_ptOf]

theorem scr0_three_deg (c : Dev nD) (q : Fin 12) (j : Fin 768) :
    scr0 V c (3 * q.val + 3) (ix2 (⟨32, by omega⟩ : Fin 40) j)
      = 0 + dpart (src0 V c) (qryPt q j) 0 + dpart (src0 V c) (qryPt q j) 1 + dpart (src0 V c) (qryPt q j) 2 := by
  have h : scr0 V c (3 * q.val + 3) = k0_pay2 (iblk0 V c 0 (ptOf0 q 2)) (iblk0 V c 1 (ptOf0 q 2)) (scr0 V c (3 * q.val + 2)) :=
    scr0_cont V c (ptOf0 q 2) (by show ¬ (3 * q.val + 2) % 3 = 0; omega)
  refine (congrFun h _).trans ((acc0_step_deg V c (ptOf0 q 2) _ j).trans ?_)
  rw [scr0_two_deg, qOf0_ptOf, kOf0_ptOf]

/-! ## The output block at a query block's last point -/

/-- At the last point of its query block the output block is the step's block. -/
theorem out0_apply (c : Dev nD) (t : Fin cfg0.N) (ht : t.val % 3 = 2) (d : Fin 32) (j : Fin 768) :
    out0 V c t (ix2 d j) = stepAt (src0 V c) d (qryPt (qOf0 t) j) := by
  have e : t.val + 1 = 3 * (qOf0 t).val + 3 := by show t.val + 1 = 3 * (t.val / 3) + 3; omega
  unfold out0
  rw [e]
  refine (k0_pay3_apply _ _ _ d j).trans ?_
  rw [top0_apply, row0_apply, scr0_three_top, scr0_three_deg, qry0_apply]
  exact stepAt_eq_parts _ d _

/-! ## From the blocks to the array -/

/-- What a writing point writes back is its block of the step of the array read. -/
theorem flushed0_eq (c : Dev nD) (t : Fin cfg0.N) (hf : (cfg0.win 2).flush t = true) :
    (dat0 V c).flushed 2 t = ((cfg0.win 2).blk t).view.read (Elt Ideal) (step (src0 V c)) := by
  have ht : t.val % 3 = 2 := (flush0_2 t).mp hf
  obtain ⟨-, -, -, -, ea, eb⟩ := idx0_facts t
  show (cfg0.win 2).cut (grid0.coords t) ((dat0 V c).after 2 t) = _
  rw [after0_2]
  funext y
  obtain ⟨d, j, rfl⟩ : ∃ (d : Fin 32) (j : Fin 768), y = ix2 d j := ⟨y 0, y 1, eq_ix2 y⟩
  show out0 V c t (ix2 d j) = _
  rw [out0_apply V c t ht, View.read_apply]
  show stepAt (src0 V c) d (qryPt (qOf0 t) j) = stepAt (src0 V c) ((((cfg0.win 2).blk t).view.emb (ix2 d j)) 0) ((((cfg0.win 2).blk t).view.emb (ix2 d j)) 1)
  refine congrArg₂ (stepAt (src0 V c)) (Fin.ext ?_) (Fin.ext ?_)
  · show d.val = win0_2.index t (0 : Fin 2) * 32 + 1 * d.val; omega
  · show 768 * (t.val / 3) + j.val = win0_2.index t (1 : Fin 2) * 768 + 1 * j.val; omega

/-- An index of the output array is in point t's block iff each coordinate is in the block's range on its axis. -/
theorem blk0_mem (t : Fin cfg0.N) (i : S32x9216.Idx) :
    i ∈ ((cfg0.win 2).blk t).view.set ↔ ∀ a : Fin 2, win0_2.index t a * S32x768.size a ≤ (i a).val ∧ (i a).val < win0_2.index t a * S32x768.size a + S32x768.size a := by
  show i ∈ ((View.whole (Pipeline.arrRef spec0 2)).slice (win0_2.rect t)).set ↔ _
  rw [View.set_slice_whole, Rect.mem_set_unit]
  exact Iff.rfl

/-- Every index of the output array is in the block of its query block's last point. -/
theorem cover0 (i : S32x9216.Idx) : ∃ t : Fin cfg0.N, (cfg0.win 2).flush t = true ∧ i ∈ ((cfg0.win 2).blk t).view.set := by
  have hr : (i 0).val < 32 := (i 0).isLt
  have hc : (i 1).val < 9216 := (i 1).isLt
  obtain ⟨t, ht⟩ : ∃ t : Fin cfg0.N, t.val = 3 * ((i 1).val / 768) + 2 :=
    ⟨⟨3 * ((i 1).val / 768) + 2, by rw [show cfg0.N = 36 from N_0]; omega⟩, rfl⟩
  refine ⟨t, (flush0_2 t).mpr (by omega), ?_⟩
  obtain ⟨-, -, -, -, ea, eb⟩ := idx0_facts t
  rw [blk0_mem]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 768 ≤ (i 1).val ∧ (i 1).val < win0_2.index t (1 : Fin 2) * 768 + 768; omega

/-- The output array after the call is one mean-shift step of the array the call read. -/
theorem arrAt0 (c : Dev nD) :
    (dat0 (F := Ideal) V c).arrAt 2 cfg0.N = Cert.MeanShift.step (V c (Pipeline.arrRef spec0 0)) :=
  (dat0 V c).arrAt_eq_of_cover 2 (step (src0 V c)) (fun t hf => flushed0_eq V c t hf) cover0

end Cert.KernelIdeal.StepValue

end
-- ==== Proof.KI.Pay1.lean ====
/-
  The three values one grid point of the mean-shift step stores, read at an index, for call 1: its payloads are
  the same operations on the same shapes as call 0's, so they read as call 0's do.
-/
import proofs.«117443_j19241453486857_2_alg».proof.Proof.KI.Pay0

noncomputable section

namespace Cert.KernelIdeal.StepValue

open Cert.KernelIdeal Cert.KernelIdeal.Gen Idealize.ShloMosaic Idealize.ShloMosaic.ValueIdx Idealize.SL.Sem

/-- The zeroed accumulator reads 0 everywhere. -/
theorem k1_pay1_apply (r : Fin 40) (q : Fin 768) : k1_pay1 (F := Ideal) (ix2 r q) = 0 :=
  k0_pay1_apply r q

/-- The affinity sum a point adds to row d < 32 of the accumulator. -/
theorem k1_pay2_apply_top (x0 : Vec Ideal S32x3072 .f32) (x1 : Vec Ideal S32x768 .f32) (s : Vec Ideal S40x768 .f32)
    (d : Fin 32) (q : Fin 768) :
    k1_pay2 (F := Ideal) x0 x1 s (ix2 (⟨d.val, by omega⟩ : Fin 40) q)
      = s (ix2 (⟨d.val, by omega⟩ : Fin 40) q)
        + ∑ k : Fin 3072, x0 (ix2 d k) * Ideal.exp (Cert.MeanShift.two * ∑ e : Fin 32, x0 (ix2 e k) * x1 (ix2 e q)) :=
  k0_pay2_apply_top x0 x1 s d q

/-- Row 32, against the appended row of ones, gains the affinities' sum. -/
theorem k1_pay2_apply_deg (x0 : Vec Ideal S32x3072 .f32) (x1 : Vec Ideal S32x768 .f32) (s : Vec Ideal S40x768 .f32)
    (q : Fin 768) :
    k1_pay2 (F := Ideal) x0 x1 s (ix2 (⟨32, by omega⟩ : Fin 40) q)
      = s (ix2 (⟨32, by omega⟩ : Fin 40) q)
        + ∑ k : Fin 3072, Ideal.exp (Cert.MeanShift.two * ∑ e : Fin 32, x0 (ix2 e k) * x1 (ix2 e q)) :=
  k0_pay2_apply_deg x0 x1 s q

/-- The finalize value: half the quotient plus half the query block. -/
theorem k1_pay3_apply (a : Vec Ideal S32x768 .f32) (b : Vec Ideal S1x768 .f32) (x1 : Vec Ideal S32x768 .f32)
    (d : Fin 32) (q : Fin 768) :
    k1_pay3 (F := Ideal) a b x1 (ix2 d q)
      = Cert.MeanShift.half * Ideal.div (a (ix2 d q)) (b (ix2 (0 : Fin 1) q)) + Cert.MeanShift.half * x1 (ix2 d q) :=
  k0_pay3_apply a b x1 d q

end Cert.KernelIdeal.StepValue

end
-- ==== Proof.KI.Value1.lean ====
/-
  What one mean-shift call leaves in its output array: one step of the array it read.

  Point t of the grid has query block t / 3 and key block t % 3.  The key window's block there is key block t % 3 of
  the array and the query window's block is query block t / 3 of the same array; so the accumulator, zeroed at a
  query block's first point, holds after its three points the weighted sums (rows 0..31) and the degrees (row 32) of
  the query block's points, and the block written back at the third point is the step's block.  The written blocks
  tile the output array.
-/
import proofs.«117443_j19241453486857_2_alg».proof.Proof.KI.Data1
import proofs.«117443_j19241453486857_2_alg».proof.Proof.KI.Pay1
import proofs.«117443_j19241453486857_2_alg».proof.Proof.KI.Sum0
import Idealize.ShloMosaic.Lib.Pipeline.Value

noncomputable section

namespace Cert.KernelIdeal.StepValue

open Cert.KernelIdeal Cert.KernelIdeal.Gen Cert.KernelIdeal.Step Cert.MeanShift
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's points -/

/-- Point t's query block and key block. -/
def qOf1 (t : Fin cfg1.N) : Fin 12 := ⟨t.val / 3, by have := t.isLt; have : cfg1.N = 36 := N_1; omega⟩
def kOf1 (t : Fin cfg1.N) : Fin 3 := ⟨t.val % 3, Nat.mod_lt _ (by decide)⟩
/-- Key block k of query block q as a point. -/
def ptOf1 (q : Fin 12) (k : Fin 3) : Fin cfg1.N := ⟨3 * q.val + k.val, by have : cfg1.N = 36 := N_1; omega⟩

theorem qOf1_ptOf (q : Fin 12) (k : Fin 3) : qOf1 (ptOf1 q k) = q := Fin.ext (by show (3 * q.val + k.val) / 3 = q.val; omega)
theorem kOf1_ptOf (q : Fin 12) (k : Fin 3) : kOf1 (ptOf1 q k) = k := Fin.ext (by show (3 * q.val + k.val) % 3 = k.val; omega)

/-- The array the step reads, as points by channels. -/
abbrev src1 (c : Dev nD) : Pts.Idx → EReal := V c (Pipeline.arrRef spec1 0)

/-- The printed index maps over the grid: point t has query block t / 3 and key block t % 3. -/
theorem idx1_facts : ∀ t : Fin cfg1.N, win1_0.index t (0 : Fin 2) = 0 ∧ win1_0.index t (1 : Fin 2) = t.val % 3
    ∧ win1_1.index t (0 : Fin 2) = 0 ∧ win1_1.index t (1 : Fin 2) = t.val / 3
    ∧ win1_2.index t (0 : Fin 2) = 0 ∧ win1_2.index t (1 : Fin 2) = t.val / 3 :=
  (by decide +kernel : ∀ t : Fin grid1.N, _)

/-- The key window's block at point t is key block t % 3 of the array. -/
theorem keys1_apply (c : Dev nD) (t : Fin cfg1.N) (d : Fin 32) (i : Fin 3072) :
    (iblk1 V c 0 t : Vec Ideal S32x3072 .f32) (ix2 d i) = src1 V c (ix2 d (keyPt (kOf1 t) i)) := by
  obtain ⟨ea, eb, -, -, -, -⟩ := idx1_facts t
  unfold iblk1
  rw [View.read_apply]
  refine congrArg (src1 V c) (funext fun a => Fin.ext ?_)
  match a with
  | ⟨0, _⟩ => show win1_0.index t (0 : Fin 2) * 32 + 1 * d.val = d.val; omega
  | ⟨1, _⟩ => show win1_0.index t (1 : Fin 2) * 3072 + 1 * i.val = 3072 * (t.val % 3) + i.val; omega

/-- The query window's block at point t is query block t / 3 of the same array. -/
theorem qry1_apply (c : Dev nD) (t : Fin cfg1.N) (d : Fin 32) (j : Fin 768) :
    (iblk1 V c 1 t : Vec Ideal S32x768 .f32) (ix2 d j) = src1 V c (ix2 d (qryPt (qOf1 t) j)) := by
  obtain ⟨-, -, ea, eb, -, -⟩ := idx1_facts t
  unfold iblk1
  rw [View.read_apply]
  refine congrArg (src1 V c) (funext fun a => Fin.ext ?_)
  match a with
  | ⟨0, _⟩ => show win1_1.index t (0 : Fin 2) * 32 + 1 * d.val = d.val; omega
  | ⟨1, _⟩ => show win1_1.index t (1 : Fin 2) * 768 + 1 * j.val = 768 * (t.val / 3) + j.val; omega

/-! ## The accumulator's rows -/

theorem top1_apply (s : Vec Ideal S40x768 .f32) (d : Fin 32) (j : Fin 768) :
    top1 s (ix2 d j) = s (ix2 (⟨d.val, by omega⟩ : Fin 40) j) := by
  unfold top1
  show s (rTop1.idx (ix2 d j)) = _
  refine congrArg s (funext fun a => Fin.ext ?_)
  match a with
  | ⟨0, _⟩ => show 0 + 1 * d.val = d.val; omega
  | ⟨1, _⟩ => show 0 + 1 * j.val = j.val; omega

theorem row1_apply (s : Vec Ideal S40x768 .f32) (j : Fin 768) :
    row1 s (ix2 (0 : Fin 1) j) = s (ix2 (⟨32, by omega⟩ : Fin 40) j) := by
  unfold row1
  show s (rRow1.idx (ix2 (0 : Fin 1) j)) = _
  refine congrArg s (funext fun a => Fin.ext ?_)
  match a with
  | ⟨0, _⟩ => show 32 + 1 * 0 = 32; omega
  | ⟨1, _⟩ => show 0 + 1 * j.val = j.val; omega

/-! ## One point's contribution -/

/-- A point adds to row d of the accumulator its key block's share of the weighted sum at the query block's points. -/
theorem acc1_step_top (c : Dev nD) (t : Fin cfg1.N) (s : Vec Ideal S40x768 .f32) (d : Fin 32) (j : Fin 768) :
    k1_pay2 (F := Ideal) (iblk1 V c 0 t) (iblk1 V c 1 t) s (ix2 (⟨d.val, by omega⟩ : Fin 40) j)
      = s (ix2 (⟨d.val, by omega⟩ : Fin 40) j) + wpart (src1 V c) d (qryPt (qOf1 t) j) (kOf1 t) := by
  refine (k1_pay2_apply_top _ _ s d j).trans (congrArg (fun u => s (ix2 (⟨d.val, by omega⟩ : Fin 40) j) + u) ?_)
  unfold wpart aff
  refine Finset.sum_congr rfl fun i _ => ?_
  rw [keys1_apply]
  refine congrArg (fun u => src1 V c (ix2 d (keyPt (kOf1 t) i)) * Ideal.exp (two * u)) ?_
  refine Finset.sum_congr rfl fun e _ => ?_
  rw [keys1_apply, qry1_apply]

/-- and to row 32 its share of the degree. -/
theorem acc1_step_deg (c : Dev nD) (t : Fin cfg1.N) (s : Vec Ideal S40x768 .f32) (j : Fin 768) :
    k1_pay2 (F := Ideal) (iblk1 V c 0 t) (iblk1 V c 1 t) s (ix2 (⟨32, by omega⟩ : Fin 40) j)
      = s (ix2 (⟨32, by omega⟩ : Fin 40) j) + dpart (src1 V c) (qryPt (qOf1 t) j) (kOf1 t) := by
  refine (k1_pay2_apply_deg _ _ s j).trans (congrArg (fun u => s (ix2 (⟨32, by omega⟩ : Fin 40) j) + u) ?_)
  unfold dpart aff
  refine Finset.sum_congr rfl fun i _ => ?_
  refine congrArg (fun u => Ideal.exp (two * u)) ?_
  refine Finset.sum_congr rfl fun e _ => ?_
  rw [keys1_apply, qry1_apply]

/-! ## The accumulator over a query block's three points -/

/-- A point that opens a query block adds to zero; -/
theorem scr1_open (c : Dev nD) (t : Fin cfg1.N) (ht : t.val % 3 = 0) :
    scr1 V c (t.val + 1) = k1_pay2 (iblk1 V c 0 t) (iblk1 V c 1 t) (k1_pay1 (F := Ideal)) := by
  rw [scr1_succ, if_pos ht]
/-- any other adds to what the point before left. -/
theorem scr1_cont (c : Dev nD) (t : Fin cfg1.N) (ht : ¬ t.val % 3 = 0) :
    scr1 V c (t.val + 1) = k1_pay2 (iblk1 V c 0 t) (iblk1 V c 1 t) (scr1 V c t.val) := by
  rw [scr1_succ, if_neg ht]

theorem scr1_one_top (c : Dev nD) (q : Fin 12) (d : Fin 32) (j : Fin 768) :
    scr1 V c (3 * q.val + 1) (ix2 (⟨d.val, by omega⟩ : Fin 40) j) = 0 + wpart (src1 V c) d (qryPt q j) 0 := by
  have h : scr1 V c (3 * q.val + 1) = k1_pay2 (iblk1 V c 0 (ptOf1 q 0)) (iblk1 V c 1 (ptOf1 q 0)) (k1_pay1 (F := Ideal)) :=
    scr1_open V c (ptOf1 q 0) (by show (3 * q.val + 0) % 3 = 0; omega)
  refine (congrFun h _).trans ((acc1_step_top V c (ptOf1 q 0) _ d j).trans ?_)
  rw [k1_pay1_apply, qOf1_ptOf, kOf1_ptOf]

theorem scr1_two_top (c : Dev nD) (q : Fin 12) (d : Fin 32) (j : Fin 768) :
    scr1 V c (3 * q.val + 2) (ix2 (⟨d.val, by omega⟩ : Fin 40) j)
      = 0 + wpart (src1 V c) d (qryPt q j) 0 + wpart (src1 V c) d (qryPt q j) 1 := by
  have h : scr1 V c (3 * q.val + 2) = k1_pay2 (iblk1 V c 0 (ptOf1 q 1)) (iblk1 V c 1 (ptOf1 q 1)) (scr1 V c (3 * q.val + 1)) :=
    scr1_cont V c (ptOf1 q 1) (by show ¬ (3 * q.val + 1) % 3 = 0; omega)
  refine (congrFun h _).trans ((acc1_step_top V c (ptOf1 q 1) _ d j).trans ?_)
  rw [scr1_one_top, qOf1_ptOf, kOf1_ptOf]

theorem scr1_three_top (c : Dev nD) (q : Fin 12) (d : Fin 32) (j : Fin 768) :
    scr1 V c (3 * q.val + 3) (ix2 (⟨d.val, by omega⟩ : Fin 40) j)
      = 0 + wpart (src1 V c) d (qryPt q j) 0 + wpart (src1 V c) d (qryPt q j) 1 + wpart (src1 V c) d (qryPt q j) 2 := by
  have h : scr1 V c (3 * q.val + 3) = k1_pay2 (iblk1 V c 0 (ptOf1 q 2)) (iblk1 V c 1 (ptOf1 q 2)) (scr1 V c (3 * q.val + 2)) :=
    scr1_cont V c (ptOf1 q 2) (by show ¬ (3 * q.val + 2) % 3 = 0; omega)
  refine (congrFun h _).trans ((acc1_step_top V c (ptOf1 q 2) _ d j).trans ?_)
  rw [scr1_two_top, qOf1_ptOf, kOf1_ptOf]

theorem scr1_one_deg (c : Dev nD) (q : Fin 12) (j : Fin 768) :
    scr1 V c (3 * q.val + 1) (ix2 (⟨32, by omega⟩ : Fin 40) j) = 0 + dpart (src1 V c) (qryPt q j) 0 := by
  have h : scr1 V c (3 * q.val + 1) = k1_pay2 (iblk1 V c 0 (ptOf1 q 0)) (iblk1 V c 1 (ptOf1 q 0)) (k1_pay1 (F := Ideal)) :=
    scr1_open V c (ptOf1 q 0) (by show (3 * q.val + 0) % 3 = 0; omega)
  refine (congrFun h _).trans ((acc1_step_deg V c (ptOf1 q 0) _ j).trans ?_)
  rw [k1_pay1_apply, qOf1_ptOf, kOf1_ptOf]

theorem scr1_two_deg (c : Dev nD) (q : Fin 12) (j : Fin 768) :
    scr1 V c (3 * q.val + 2) (ix2 (⟨32, by omega⟩ : Fin 40) j)
      = 0 + dpart (src1 V c) (qryPt q j) 0 + dpart (src1 V c) (qryPt q j) 1 := by
  have h : scr1 V c (3 * q.val + 2) = k1_pay2 (iblk1 V c 0 (ptOf1 q 1)) (iblk1 V c 1 (ptOf1 q 1)) (scr1 V c (3 * q.val + 1)) :=
    scr1_cont V c (ptOf1 q 1) (by show ¬ (3 * q.val + 1) % 3 = 0; omega)
  refine (congrFun h _).trans ((acc1_step_deg V c (ptOf1 q 1) _ j).trans ?_)
  rw [scr1_one_deg, qOf1_ptOf, kOf1_ptOf]

theorem scr1_three_deg (c : Dev nD) (q : Fin 12) (j : Fin 768) :
    scr1 V c (3 * q.val + 3) (ix2 (⟨32, by omega⟩ : Fin 40) j)
      = 0 + dpart (src1 V c) (qryPt q j) 0 + dpart (src1 V c) (qryPt q j) 1 + dpart (src1 V c) (qryPt q j) 2 := by
  have h : scr1 V c (3 * q.val + 3) = k1_pay2 (iblk1 V c 0 (ptOf1 q 2)) (iblk1 V c 1 (ptOf1 q 2)) (scr1 V c (3 * q.val + 2)) :=
    scr1_cont V c (ptOf1 q 2) (by show ¬ (3 * q.val + 2) % 3 = 0; omega)
  refine (congrFun h _).trans ((acc1_step_deg V c (ptOf1 q 2) _ j).trans ?_)
  rw [scr1_two_deg, qOf1_ptOf, kOf1_ptOf]

/-! ## The output block at a query block's last point -/

/-- At the last point of its query block the output block is the step's block. -/
theorem out1_apply (c : Dev nD) (t : Fin cfg1.N) (ht : t.val % 3 = 2) (d : Fin 32) (j : Fin 768) :
    out1 V c t (ix2 d j) = stepAt (src1 V c) d (qryPt (qOf1 t) j) := by
  have e : t.val + 1 = 3 * (qOf1 t).val + 3 := by show t.val + 1 = 3 * (t.val / 3) + 3; omega
  unfold out1
  rw [e]
  refine (k1_pay3_apply _ _ _ d j).trans ?_
  rw [top1_apply, row1_apply, scr1_three_top, scr1_three_deg, qry1_apply]
  exact stepAt_eq_parts _ d _

/-! ## From the blocks to the array -/

/-- What a writing point writes back is its block of the step of the array read. -/
theorem flushed1_eq (c : Dev nD) (t : Fin cfg1.N) (hf : (cfg1.win 2).flush t = true) :
    (dat1 V c).flushed 2 t = ((cfg1.win 2).blk t).view.read (Elt Ideal) (step (src1 V c)) := by
  have ht : t.val % 3 = 2 := (flush1_2 t).mp hf
  obtain ⟨-, -, -, -, ea, eb⟩ := idx1_facts t
  show (cfg1.win 2).cut (grid1.coords t) ((dat1 V c).after 2 t) = _
  rw [after1_2]
  funext y
  obtain ⟨d, j, rfl⟩ : ∃ (d : Fin 32) (j : Fin 768), y = ix2 d j := ⟨y 0, y 1, eq_ix2 y⟩
  show out1 V c t (ix2 d j) = _
  rw [out1_apply V c t ht, View.read_apply]
  show stepAt (src1 V c) d (qryPt (qOf1 t) j) = stepAt (src1 V c) ((((cfg1.win 2).blk t).view.emb (ix2 d j)) 0) ((((cfg1.win 2).blk t).view.emb (ix2 d j)) 1)
  refine congrArg₂ (stepAt (src1 V c)) (Fin.ext ?_) (Fin.ext ?_)
  · show d.val = win1_2.index t (0 : Fin 2) * 32 + 1 * d.val; omega
  · show 768 * (t.val / 3) + j.val = win1_2.index t (1 : Fin 2) * 768 + 1 * j.val; omega

/-- An index of the output array is in point t's block iff each coordinate is in the block's range on its axis. -/
theorem blk1_mem (t : Fin cfg1.N) (i : S32x9216.Idx) :
    i ∈ ((cfg1.win 2).blk t).view.set ↔ ∀ a : Fin 2, win1_2.index t a * S32x768.size a ≤ (i a).val ∧ (i a).val < win1_2.index t a * S32x768.size a + S32x768.size a := by
  show i ∈ ((View.whole (Pipeline.arrRef spec1 2)).slice (win1_2.rect t)).set ↔ _
  rw [View.set_slice_whole, Rect.mem_set_unit]
  exact Iff.rfl

/-- Every index of the output array is in the block of its query block's last point. -/
theorem cover1 (i : S32x9216.Idx) : ∃ t : Fin cfg1.N, (cfg1.win 2).flush t = true ∧ i ∈ ((cfg1.win 2).blk t).view.set := by
  have hr : (i 0).val < 32 := (i 0).isLt
  have hc : (i 1).val < 9216 := (i 1).isLt
  obtain ⟨t, ht⟩ : ∃ t : Fin cfg1.N, t.val = 3 * ((i 1).val / 768) + 2 :=
    ⟨⟨3 * ((i 1).val / 768) + 2, by rw [show cfg1.N = 36 from N_1]; omega⟩, rfl⟩
  refine ⟨t, (flush1_2 t).mpr (by omega), ?_⟩
  obtain ⟨-, -, -, -, ea, eb⟩ := idx1_facts t
  rw [blk1_mem]
  intro a
  match a with
  | ⟨0, _⟩ => show win1_2.index t (0 : Fin 2) * 32 ≤ (i 0).val ∧ (i 0).val < win1_2.index t (0 : Fin 2) * 32 + 32; omega
  | ⟨1, _⟩ => show win1_2.index t (1 : Fin 2) * 768 ≤ (i 1).val ∧ (i 1).val < win1_2.index t (1 : Fin 2) * 768 + 768; omega

/-- The output array after the call is one mean-shift step of the array the call read. -/
theorem arrAt1 (c : Dev nD) :
    (dat1 (F := Ideal) V c).arrAt 2 cfg1.N = Cert.MeanShift.step (V c (Pipeline.arrRef spec1 0)) :=
  (dat1 V c).arrAt_eq_of_cover 2 (step (src1 V c)) (fun t hf => flushed1_eq V c t hf) cover1

end Cert.KernelIdeal.StepValue

end
-- ==== Proof.KI.Pay2.lean ====
/-
  The three values one grid point of the mean-shift step stores, read at an index, for call 2: its payloads are
  the same operations on the same shapes as call 0's, so they read as call 0's do.
-/
import proofs.«117443_j19241453486857_2_alg».proof.Proof.KI.Pay0

noncomputable section

namespace Cert.KernelIdeal.StepValue

open Cert.KernelIdeal Cert.KernelIdeal.Gen Idealize.ShloMosaic Idealize.ShloMosaic.ValueIdx Idealize.SL.Sem

/-- The zeroed accumulator reads 0 everywhere. -/
theorem k2_pay1_apply (r : Fin 40) (q : Fin 768) : k2_pay1 (F := Ideal) (ix2 r q) = 0 :=
  k0_pay1_apply r q

/-- The affinity sum a point adds to row d < 32 of the accumulator. -/
theorem k2_pay2_apply_top (x0 : Vec Ideal S32x3072 .f32) (x1 : Vec Ideal S32x768 .f32) (s : Vec Ideal S40x768 .f32)
    (d : Fin 32) (q : Fin 768) :
    k2_pay2 (F := Ideal) x0 x1 s (ix2 (⟨d.val, by omega⟩ : Fin 40) q)
      = s (ix2 (⟨d.val, by omega⟩ : Fin 40) q)
        + ∑ k : Fin 3072, x0 (ix2 d k) * Ideal.exp (Cert.MeanShift.two * ∑ e : Fin 32, x0 (ix2 e k) * x1 (ix2 e q)) :=
  k0_pay2_apply_top x0 x1 s d q

/-- Row 32, against the appended row of ones, gains the affinities' sum. -/
theorem k2_pay2_apply_deg (x0 : Vec Ideal S32x3072 .f32) (x1 : Vec Ideal S32x768 .f32) (s : Vec Ideal S40x768 .f32)
    (q : Fin 768) :
    k2_pay2 (F := Ideal) x0 x1 s (ix2 (⟨32, by omega⟩ : Fin 40) q)
      = s (ix2 (⟨32, by omega⟩ : Fin 40) q)
        + ∑ k : Fin 3072, Ideal.exp (Cert.MeanShift.two * ∑ e : Fin 32, x0 (ix2 e k) * x1 (ix2 e q)) :=
  k0_pay2_apply_deg x0 x1 s q

/-- The finalize value: half the quotient plus half the query block. -/
theorem k2_pay3_apply (a : Vec Ideal S32x768 .f32) (b : Vec Ideal S1x768 .f32) (x1 : Vec Ideal S32x768 .f32)
    (d : Fin 32) (q : Fin 768) :
    k2_pay3 (F := Ideal) a b x1 (ix2 d q)
      = Cert.MeanShift.half * Ideal.div (a (ix2 d q)) (b (ix2 (0 : Fin 1) q)) + Cert.MeanShift.half * x1 (ix2 d q) :=
  k0_pay3_apply a b x1 d q

end Cert.KernelIdeal.StepValue

end
-- ==== Proof.KI.Value2.lean ====
/-
  What one mean-shift call leaves in its output array: one step of the array it read.

  Point t of the grid has query block t / 3 and key block t % 3.  The key window's block there is key block t % 3 of
  the array and the query window's block is query block t / 3 of the same array; so the accumulator, zeroed at a
  query block's first point, holds after its three points the weighted sums (rows 0..31) and the degrees (row 32) of
  the query block's points, and the block written back at the third point is the step's block.  The written blocks
  tile the output array.
-/
import proofs.«117443_j19241453486857_2_alg».proof.Proof.KI.Data2
import proofs.«117443_j19241453486857_2_alg».proof.Proof.KI.Pay2
import proofs.«117443_j19241453486857_2_alg».proof.Proof.KI.Sum0
import Idealize.ShloMosaic.Lib.Pipeline.Value

noncomputable section

namespace Cert.KernelIdeal.StepValue

open Cert.KernelIdeal Cert.KernelIdeal.Gen Cert.KernelIdeal.Step Cert.MeanShift
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's points -/

/-- Point t's query block and key block. -/
def qOf2 (t : Fin cfg2.N) : Fin 12 := ⟨t.val / 3, by have := t.isLt; have : cfg2.N = 36 := N_2; omega⟩
def kOf2 (t : Fin cfg2.N) : Fin 3 := ⟨t.val % 3, Nat.mod_lt _ (by decide)⟩
/-- Key block k of query block q as a point. -/
def ptOf2 (q : Fin 12) (k : Fin 3) : Fin cfg2.N := ⟨3 * q.val + k.val, by have : cfg2.N = 36 := N_2; omega⟩

theorem qOf2_ptOf (q : Fin 12) (k : Fin 3) : qOf2 (ptOf2 q k) = q := Fin.ext (by show (3 * q.val + k.val) / 3 = q.val; omega)
theorem kOf2_ptOf (q : Fin 12) (k : Fin 3) : kOf2 (ptOf2 q k) = k := Fin.ext (by show (3 * q.val + k.val) % 3 = k.val; omega)

/-- The array the step reads, as points by channels. -/
abbrev src2 (c : Dev nD) : Pts.Idx → EReal := V c (Pipeline.arrRef spec2 0)

/-- The printed index maps over the grid: point t has query block t / 3 and key block t % 3. -/
theorem idx2_facts : ∀ t : Fin cfg2.N, win2_0.index t (0 : Fin 2) = 0 ∧ win2_0.index t (1 : Fin 2) = t.val % 3
    ∧ win2_1.index t (0 : Fin 2) = 0 ∧ win2_1.index t (1 : Fin 2) = t.val / 3
    ∧ win2_2.index t (0 : Fin 2) = 0 ∧ win2_2.index t (1 : Fin 2) = t.val / 3 :=
  (by decide +kernel : ∀ t : Fin grid2.N, _)

/-- The key window's block at point t is key block t % 3 of the array. -/
theorem keys2_apply (c : Dev nD) (t : Fin cfg2.N) (d : Fin 32) (i : Fin 3072) :
    (iblk2 V c 0 t : Vec Ideal S32x3072 .f32) (ix2 d i) = src2 V c (ix2 d (keyPt (kOf2 t) i)) := by
  obtain ⟨ea, eb, -, -, -, -⟩ := idx2_facts t
  unfold iblk2
  rw [View.read_apply]
  refine congrArg (src2 V c) (funext fun a => Fin.ext ?_)
  match a with
  | ⟨0, _⟩ => show win2_0.index t (0 : Fin 2) * 32 + 1 * d.val = d.val; omega
  | ⟨1, _⟩ => show win2_0.index t (1 : Fin 2) * 3072 + 1 * i.val = 3072 * (t.val % 3) + i.val; omega

/-- The query window's block at point t is query block t / 3 of the same array. -/
theorem qry2_apply (c : Dev nD) (t : Fin cfg2.N) (d : Fin 32) (j : Fin 768) :
    (iblk2 V c 1 t : Vec Ideal S32x768 .f32) (ix2 d j) = src2 V c (ix2 d (qryPt (qOf2 t) j)) := by
  obtain ⟨-, -, ea, eb, -, -⟩ := idx2_facts t
  unfold iblk2
  rw [View.read_apply]
  refine congrArg (src2 V c) (funext fun a => Fin.ext ?_)
  match a with
  | ⟨0, _⟩ => show win2_1.index t (0 : Fin 2) * 32 + 1 * d.val = d.val; omega
  | ⟨1, _⟩ => show win2_1.index t (1 : Fin 2) * 768 + 1 * j.val = 768 * (t.val / 3) + j.val; omega

/-! ## The accumulator's rows -/

theorem top2_apply (s : Vec Ideal S40x768 .f32) (d : Fin 32) (j : Fin 768) :
    top2 s (ix2 d j) = s (ix2 (⟨d.val, by omega⟩ : Fin 40) j) := by
  unfold top2
  show s (rTop2.idx (ix2 d j)) = _
  refine congrArg s (funext fun a => Fin.ext ?_)
  match a with
  | ⟨0, _⟩ => show 0 + 1 * d.val = d.val; omega
  | ⟨1, _⟩ => show 0 + 1 * j.val = j.val; omega

theorem row2_apply (s : Vec Ideal S40x768 .f32) (j : Fin 768) :
    row2 s (ix2 (0 : Fin 1) j) = s (ix2 (⟨32, by omega⟩ : Fin 40) j) := by
  unfold row2
  show s (rRow2.idx (ix2 (0 : Fin 1) j)) = _
  refine congrArg s (funext fun a => Fin.ext ?_)
  match a with
  | ⟨0, _⟩ => show 32 + 1 * 0 = 32; omega
  | ⟨1, _⟩ => show 0 + 1 * j.val = j.val; omega

/-! ## One point's contribution -/

/-- A point adds to row d of the accumulator its key block's share of the weighted sum at the query block's points. -/
theorem acc2_step_top (c : Dev nD) (t : Fin cfg2.N) (s : Vec Ideal S40x768 .f32) (d : Fin 32) (j : Fin 768) :
    k2_pay2 (F := Ideal) (iblk2 V c 0 t) (iblk2 V c 1 t) s (ix2 (⟨d.val, by omega⟩ : Fin 40) j)
      = s (ix2 (⟨d.val, by omega⟩ : Fin 40) j) + wpart (src2 V c) d (qryPt (qOf2 t) j) (kOf2 t) := by
  refine (k2_pay2_apply_top _ _ s d j).trans (congrArg (fun u => s (ix2 (⟨d.val, by omega⟩ : Fin 40) j) + u) ?_)
  unfold wpart aff
  refine Finset.sum_congr rfl fun i _ => ?_
  rw [keys2_apply]
  refine congrArg (fun u => src2 V c (ix2 d (keyPt (kOf2 t) i)) * Ideal.exp (two * u)) ?_
  refine Finset.sum_congr rfl fun e _ => ?_
  rw [keys2_apply, qry2_apply]

/-- and to row 32 its share of the degree. -/
theorem acc2_step_deg (c : Dev nD) (t : Fin cfg2.N) (s : Vec Ideal S40x768 .f32) (j : Fin 768) :
    k2_pay2 (F := Ideal) (iblk2 V c 0 t) (iblk2 V c 1 t) s (ix2 (⟨32, by omega⟩ : Fin 40) j)
      = s (ix2 (⟨32, by omega⟩ : Fin 40) j) + dpart (src2 V c) (qryPt (qOf2 t) j) (kOf2 t) := by
  refine (k2_pay2_apply_deg _ _ s j).trans (congrArg (fun u => s (ix2 (⟨32, by omega⟩ : Fin 40) j) + u) ?_)
  unfold dpart aff
  refine Finset.sum_congr rfl fun i _ => ?_
  refine congrArg (fun u => Ideal.exp (two * u)) ?_
  refine Finset.sum_congr rfl fun e _ => ?_
  rw [keys2_apply, qry2_apply]

/-! ## The accumulator over a query block's three points -/

/-- A point that opens a query block adds to zero; -/
theorem scr2_open (c : Dev nD) (t : Fin cfg2.N) (ht : t.val % 3 = 0) :
    scr2 V c (t.val + 1) = k2_pay2 (iblk2 V c 0 t) (iblk2 V c 1 t) (k2_pay1 (F := Ideal)) := by
  rw [scr2_succ, if_pos ht]
/-- any other adds to what the point before left. -/
theorem scr2_cont (c : Dev nD) (t : Fin cfg2.N) (ht : ¬ t.val % 3 = 0) :
    scr2 V c (t.val + 1) = k2_pay2 (iblk2 V c 0 t) (iblk2 V c 1 t) (scr2 V c t.val) := by
  rw [scr2_succ, if_neg ht]

theorem scr2_one_top (c : Dev nD) (q : Fin 12) (d : Fin 32) (j : Fin 768) :
    scr2 V c (3 * q.val + 1) (ix2 (⟨d.val, by omega⟩ : Fin 40) j) = 0 + wpart (src2 V c) d (qryPt q j) 0 := by
  have h : scr2 V c (3 * q.val + 1) = k2_pay2 (iblk2 V c 0 (ptOf2 q 0)) (iblk2 V c 1 (ptOf2 q 0)) (k2_pay1 (F := Ideal)) :=
    scr2_open V c (ptOf2 q 0) (by show (3 * q.val + 0) % 3 = 0; omega)
  refine (congrFun h _).trans ((acc2_step_top V c (ptOf2 q 0) _ d j).trans ?_)
  rw [k2_pay1_apply, qOf2_ptOf, kOf2_ptOf]

theorem scr2_two_top (c : Dev nD) (q : Fin 12) (d : Fin 32) (j : Fin 768) :
    scr2 V c (3 * q.val + 2) (ix2 (⟨d.val, by omega⟩ : Fin 40) j)
      = 0 + wpart (src2 V c) d (qryPt q j) 0 + wpart (src2 V c) d (qryPt q j) 1 := by
  have h : scr2 V c (3 * q.val + 2) = k2_pay2 (iblk2 V c 0 (ptOf2 q 1)) (iblk2 V c 1 (ptOf2 q 1)) (scr2 V c (3 * q.val + 1)) :=
    scr2_cont V c (ptOf2 q 1) (by show ¬ (3 * q.val + 1) % 3 = 0; omega)
  refine (congrFun h _).trans ((acc2_step_top V c (ptOf2 q 1) _ d j).trans ?_)
  rw [scr2_one_top, qOf2_ptOf, kOf2_ptOf]

theorem scr2_three_top (c : Dev nD) (q : Fin 12) (d : Fin 32) (j : Fin 768) :
    scr2 V c (3 * q.val + 3) (ix2 (⟨d.val, by omega⟩ : Fin 40) j)
      = 0 + wpart (src2 V c) d (qryPt q j) 0 + wpart (src2 V c) d (qryPt q j) 1 + wpart (src2 V c) d (qryPt q j) 2 := by
  have h : scr2 V c (3 * q.val + 3) = k2_pay2 (iblk2 V c 0 (ptOf2 q 2)) (iblk2 V c 1 (ptOf2 q 2)) (scr2 V c (3 * q.val + 2)) :=
    scr2_cont V c (ptOf2 q 2) (by show ¬ (3 * q.val + 2) % 3 = 0; omega)
  refine (congrFun h _).trans ((acc2_step_top V c (ptOf2 q 2) _ d j).trans ?_)
  rw [scr2_two_top, qOf2_ptOf, kOf2_ptOf]

theorem scr2_one_deg (c : Dev nD) (q : Fin 12) (j : Fin 768) :
    scr2 V c (3 * q.val + 1) (ix2 (⟨32, by omega⟩ : Fin 40) j) = 0 + dpart (src2 V c) (qryPt q j) 0 := by
  have h : scr2 V c (3 * q.val + 1) = k2_pay2 (iblk2 V c 0 (ptOf2 q 0)) (iblk2 V c 1 (ptOf2 q 0)) (k2_pay1 (F := Ideal)) :=
    scr2_open V c (ptOf2 q 0) (by show (3 * q.val + 0) % 3 = 0; omega)
  refine (congrFun h _).trans ((acc2_step_deg V c (ptOf2 q 0) _ j).trans ?_)
  rw [k2_pay1_apply, qOf2_ptOf, kOf2_ptOf]

theorem scr2_two_deg (c : Dev nD) (q : Fin 12) (j : Fin 768) :
    scr2 V c (3 * q.val + 2) (ix2 (⟨32, by omega⟩ : Fin 40) j)
      = 0 + dpart (src2 V c) (qryPt q j) 0 + dpart (src2 V c) (qryPt q j) 1 := by
  have h : scr2 V c (3 * q.val + 2) = k2_pay2 (iblk2 V c 0 (ptOf2 q 1)) (iblk2 V c 1 (ptOf2 q 1)) (scr2 V c (3 * q.val + 1)) :=
    scr2_cont V c (ptOf2 q 1) (by show ¬ (3 * q.val + 1) % 3 = 0; omega)
  refine (congrFun h _).trans ((acc2_step_deg V c (ptOf2 q 1) _ j).trans ?_)
  rw [scr2_one_deg, qOf2_ptOf, kOf2_ptOf]

theorem scr2_three_deg (c : Dev nD) (q : Fin 12) (j : Fin 768) :
    scr2 V c (3 * q.val + 3) (ix2 (⟨32, by omega⟩ : Fin 40) j)
      = 0 + dpart (src2 V c) (qryPt q j) 0 + dpart (src2 V c) (qryPt q j) 1 + dpart (src2 V c) (qryPt q j) 2 := by
  have h : scr2 V c (3 * q.val + 3) = k2_pay2 (iblk2 V c 0 (ptOf2 q 2)) (iblk2 V c 1 (ptOf2 q 2)) (scr2 V c (3 * q.val + 2)) :=
    scr2_cont V c (ptOf2 q 2) (by show ¬ (3 * q.val + 2) % 3 = 0; omega)
  refine (congrFun h _).trans ((acc2_step_deg V c (ptOf2 q 2) _ j).trans ?_)
  rw [scr2_two_deg, qOf2_ptOf, kOf2_ptOf]

/-! ## The output block at a query block's last point -/

/-- At the last point of its query block the output block is the step's block. -/
theorem out2_apply (c : Dev nD) (t : Fin cfg2.N) (ht : t.val % 3 = 2) (d : Fin 32) (j : Fin 768) :
    out2 V c t (ix2 d j) = stepAt (src2 V c) d (qryPt (qOf2 t) j) := by
  have e : t.val + 1 = 3 * (qOf2 t).val + 3 := by show t.val + 1 = 3 * (t.val / 3) + 3; omega
  unfold out2
  rw [e]
  refine (k2_pay3_apply _ _ _ d j).trans ?_
  rw [top2_apply, row2_apply, scr2_three_top, scr2_three_deg, qry2_apply]
  exact stepAt_eq_parts _ d _

/-! ## From the blocks to the array -/

/-- What a writing point writes back is its block of the step of the array read. -/
theorem flushed2_eq (c : Dev nD) (t : Fin cfg2.N) (hf : (cfg2.win 2).flush t = true) :
    (dat2 V c).flushed 2 t = ((cfg2.win 2).blk t).view.read (Elt Ideal) (step (src2 V c)) := by
  have ht : t.val % 3 = 2 := (flush2_2 t).mp hf
  obtain ⟨-, -, -, -, ea, eb⟩ := idx2_facts t
  show (cfg2.win 2).cut (grid2.coords t) ((dat2 V c).after 2 t) = _
  rw [after2_2]
  funext y
  obtain ⟨d, j, rfl⟩ : ∃ (d : Fin 32) (j : Fin 768), y = ix2 d j := ⟨y 0, y 1, eq_ix2 y⟩
  show out2 V c t (ix2 d j) = _
  rw [out2_apply V c t ht, View.read_apply]
  show stepAt (src2 V c) d (qryPt (qOf2 t) j) = stepAt (src2 V c) ((((cfg2.win 2).blk t).view.emb (ix2 d j)) 0) ((((cfg2.win 2).blk t).view.emb (ix2 d j)) 1)
  refine congrArg₂ (stepAt (src2 V c)) (Fin.ext ?_) (Fin.ext ?_)
  · show d.val = win2_2.index t (0 : Fin 2) * 32 + 1 * d.val; omega
  · show 768 * (t.val / 3) + j.val = win2_2.index t (1 : Fin 2) * 768 + 1 * j.val; omega

/-- An index of the output array is in point t's block iff each coordinate is in the block's range on its axis. -/
theorem blk2_mem (t : Fin cfg2.N) (i : S32x9216.Idx) :
    i ∈ ((cfg2.win 2).blk t).view.set ↔ ∀ a : Fin 2, win2_2.index t a * S32x768.size a ≤ (i a).val ∧ (i a).val < win2_2.index t a * S32x768.size a + S32x768.size a := by
  show i ∈ ((View.whole (Pipeline.arrRef spec2 2)).slice (win2_2.rect t)).set ↔ _
  rw [View.set_slice_whole, Rect.mem_set_unit]
  exact Iff.rfl

/-- Every index of the output array is in the block of its query block's last point. -/
theorem cover2 (i : S32x9216.Idx) : ∃ t : Fin cfg2.N, (cfg2.win 2).flush t = true ∧ i ∈ ((cfg2.win 2).blk t).view.set := by
  have hr : (i 0).val < 32 := (i 0).isLt
  have hc : (i 1).val < 9216 := (i 1).isLt
  obtain ⟨t, ht⟩ : ∃ t : Fin cfg2.N, t.val = 3 * ((i 1).val / 768) + 2 :=
    ⟨⟨3 * ((i 1).val / 768) + 2, by rw [show cfg2.N = 36 from N_2]; omega⟩, rfl⟩
  refine ⟨t, (flush2_2 t).mpr (by omega), ?_⟩
  obtain ⟨-, -, -, -, ea, eb⟩ := idx2_facts t
  rw [blk2_mem]
  intro a
  match a with
  | ⟨0, _⟩ => show win2_2.index t (0 : Fin 2) * 32 ≤ (i 0).val ∧ (i 0).val < win2_2.index t (0 : Fin 2) * 32 + 32; omega
  | ⟨1, _⟩ => show win2_2.index t (1 : Fin 2) * 768 ≤ (i 1).val ∧ (i 1).val < win2_2.index t (1 : Fin 2) * 768 + 768; omega

/-- The output array after the call is one mean-shift step of the array the call read. -/
theorem arrAt2 (c : Dev nD) :
    (dat2 (F := Ideal) V c).arrAt 2 cfg2.N = Cert.MeanShift.step (V c (Pipeline.arrRef spec2 0)) :=
  (dat2 V c).arrAt_eq_of_cover 2 (step (src2 V c)) (fun t hf => flushed2_eq V c t hf) cover2

end Cert.KernelIdeal.StepValue

end
-- ==== Proof.LibConcat4.lean ====
/-
  A concatenation of four pieces of one shape, read at an index.
-/
import Idealize.ShloMosaic.Lib.Pipeline.Value

noncomputable section

namespace Cert.LibConcat4

open Idealize.ShloMosaic

/-- Four pieces `u 0, u 1, u 2, u 3` of one shape `s`, of extent `K` along axis `a`, laid end to end along that axis:
    at an index whose axis-`a` coordinate is `g · K + e` with `e` a coordinate of the piece, the concatenation reads
    piece `g` at the index with `e` on the axis and the same coordinates elsewhere. -/
theorem concat4_at {α : Type} {t s : Shape} (a : Fin t.rank) (u : Fin 4 → (s.Idx → α))
    (h : Shape.Concatenates ([(⟨s, u 0⟩ : (s : Shape) × (s.Idx → α)), ⟨s, u 1⟩, ⟨s, u 2⟩, ⟨s, u 3⟩].map (·.1)) t a)
    (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, u 0⟩, ⟨s, u 1⟩, ⟨s, u 2⟩, ⟨s, u 3⟩] h j = u g i := by
  subst hK
  match g with
  | ⟨0, _⟩ =>
    exact concatenate_apply_piece a _ h j 0 (by simp) s (u 0) rfl hr 0 (by simp) i hi (by simpa using ha)
  | ⟨1, _⟩ =>
    exact concatenate_apply_piece a _ h j 1 (by simp) s (u 1) rfl hr (1 * s.size (a.cast hr.symm))
      (by simp [dif_pos hr]) i hi ha
  | ⟨2, _⟩ =>
    exact concatenate_apply_piece a _ h j 2 (by simp) s (u 2) rfl hr (2 * s.size (a.cast hr.symm))
      (by simp [dif_pos hr]; omega) i hi ha
  | ⟨3, _⟩ =>
    exact concatenate_apply_piece a _ h j 3 (by simp) s (u 3) rfl hr (3 * s.size (a.cast hr.symm))
      (by simp [dif_pos hr]; omega) i hi ha

end Cert.LibConcat4

end
-- ==== Proof.Glue.lean ====
/-
  The two re-layings around the three steps.  The argument `[1, 32, 96, 96]` viewed as `[32, 9216]` keeps row-major
  order, so point `j` of channel `d` is pixel `(j / 96, j % 96)`: that is `flat`.  Four `[32, 9216]` arrays, each
  given a leading unit axis, laid end to end along it and viewed as `[4, 32, 96, 96]`, read at `(n, d, r, s)` the
  `n`-th array at `(d, 96 r + s)`.
-/
import Idealize.ShloMosaic.Lib.Pipeline.Value
import Idealize.ShloMosaic.Lib.ValueIdx
import proofs.«117443_j19241453486857_2_alg».proof.Proof.Spec
import proofs.«117443_j19241453486857_2_alg».proof.Proof.LibConcat4

noncomputable section

namespace Cert.MeanShift

open Idealize.ShloMosaic Idealize.ShloMosaic.ValueIdx

/-- One array with a leading unit axis, and four of them end to end. -/
abbrev Pts1 : Shape := ⟨3, ![1, 32, 9216]⟩
abbrev Pts4 : Shape := ⟨3, ![4, 32, 9216]⟩

/-- The image viewed as channels by points. -/
theorem flat_eq {α : Type} (x : Img.Idx → α) (h : Img.ShapeCasts Pts) (d : Fin 32) (j : Fin 9216) :
    shapeCast Pts x h (ix2 d j)
      = x (ix4 (0 : Fin 1) d (⟨j.val / 96, Nat.div_lt_of_lt_mul j.isLt⟩ : Fin 96) (⟨j.val % 96, Nat.mod_lt _ (by decide)⟩ : Fin 96)) := by
  refine shapeCast_apply x h _ _ ?_
  rw [Shape.rowMajor_val_four, Shape.rowMajor_val_two]
  show ((0 * 32 + d.val) * 96 + j.val / 96) * 96 + j.val % 96 = d.val * 9216 + j.val
  omega

/-- The stack of four arrays read at an entry. -/
theorem stack_at {α : Type} (X : Fin 4 → (Pts.Idx → α)) (hb : Pts.BroadcastsInDim Pts1 ![1, 2])
    (hc : Shape.Concatenates ([(⟨Pts1, broadcastInDim Pts1 ![1, 2] hb (X 0)⟩ : (s : Shape) × (s.Idx → α)),
      ⟨Pts1, broadcastInDim Pts1 ![1, 2] hb (X 1)⟩, ⟨Pts1, broadcastInDim Pts1 ![1, 2] hb (X 2)⟩,
      ⟨Pts1, broadcastInDim Pts1 ![1, 2] hb (X 3)⟩].map (·.1)) Pts4 0)
    (hs : Pts4.ShapeCasts Stack) (n : Fin 4) (d : Fin 32) (r s : Fin 96) (hj : r.val * 96 + s.val < 9216) :
    shapeCast Stack (concatenate Pts4 0 [⟨Pts1, broadcastInDim Pts1 ![1, 2] hb (X 0)⟩,
      ⟨Pts1, broadcastInDim Pts1 ![1, 2] hb (X 1)⟩, ⟨Pts1, broadcastInDim Pts1 ![1, 2] hb (X 2)⟩,
      ⟨Pts1, broadcastInDim Pts1 ![1, 2] hb (X 3)⟩] hc) hs (ix4 n d r s)
      = X n (ix2 d (⟨r.val * 96 + s.val, hj⟩ : Fin 9216)) := by
  refine (shapeCast_apply _ hs _ (ix3 n d (⟨r.val * 96 + s.val, hj⟩ : Fin 9216)) ?_).trans ?_
  · rw [Shape.rowMajor_val_four, Shape.rowMajor_val_three]
    show (n.val * 32 + d.val) * 9216 + (r.val * 96 + s.val) = ((n.val * 32 + d.val) * 96 + r.val) * 96 + s.val
    ring
  · refine (Cert.LibConcat4.concat4_at (t := Pts4) (s := Pts1) 0 (fun g => broadcastInDim Pts1 ![1, 2] hb (X g)) hc rfl 1 rfl
      (ix3 n d (⟨r.val * 96 + s.val, hj⟩ : Fin 9216)) n (ix3 (0 : Fin 1) d (⟨r.val * 96 + s.val, hj⟩ : Fin 9216)) ?_ ?_).trans ?_
    · intro b hb'
      match b with
      | ⟨0, _⟩ => exact absurd rfl hb'
      | ⟨1, _⟩ => rfl
      | ⟨2, _⟩ => rfl
    · show n.val * 1 + 0 = n.val
      omega
    · refine broadcastInDim_apply _ hb (X n) _ (ix2 d (⟨r.val * 96 + s.val, hj⟩ : Fin 9216)) ?_
      intro a
      match a with
      | ⟨0, _⟩ => rfl
      | ⟨1, _⟩ => rfl

end Cert.MeanShift

end
-- ==== Proof.KI.Result.lean ====
/-
  The kernel's result array.

  The program reshapes the image to 32 channels by 9216 points, runs the three mean-shift calls one after
  another — each writing one step of the array it reads —, gives the four arrays a leading unit axis, joins
  them along it and reshapes the points back to 96 by 96.  Entry `(n, d, r, s)` of the result is entry
  `(d, 96 r + s)` of the `n`-th iterate of the image's pixels: the specification's result.
-/
import proofs.«117443_j19241453486857_2_alg».proof.Proof.KI.Run
import proofs.«117443_j19241453486857_2_alg».proof.Proof.KI.Value0
import proofs.«117443_j19241453486857_2_alg».proof.Proof.KI.Value1
import proofs.«117443_j19241453486857_2_alg».proof.Proof.KI.Value2
import proofs.«117443_j19241453486857_2_alg».proof.Proof.Glue

noncomputable section

namespace Cert.KernelIdeal.StepValue

open Cert.KernelIdeal Cert.KernelIdeal.Gen
open Idealize.ShloMosaic Idealize.ShloMosaic.TcCoe Idealize.SL.Sem Idealize.ShloMosaic.StableHlo Idealize.ShloMosaic.ValueIdx

/-! ## The two host stretches read at their results -/

/-- The first stretch: the points are the image reshaped. -/
theorem head_read (W : Valuation τ sig (Elt Ideal)) :
    (StableHlo.after (hostOps0 (F := Ideal)) W (Proc.devRef .tc main_v0) : S32x9216.Idx → EReal)
      = shapeCast S32x9216 (W (Proc.devRef .tc main_arg0)) shapeCasts_S1x32x96x96_S32x9216 := by
  after_results
  rfl

/-- The last stretch: the result is the four arrays, each under a leading unit axis, joined and reshaped. -/
theorem tail_read (W : Valuation τ sig (Elt Ideal)) :
    (StableHlo.after (hostOps3 (F := Ideal)) W (Proc.devRef .tc main_v9) : S4x32x96x96.Idx → EReal)
      = shapeCast S4x32x96x96 (concatenate S4x32x9216 0
          [⟨S1x32x9216, broadcastInDim S1x32x9216 ![1, 2] bcast_S32x9216_S1x32x9216_1_2 (W (Proc.devRef .tc main_v0))⟩,
           ⟨S1x32x9216, broadcastInDim S1x32x9216 ![1, 2] bcast_S32x9216_S1x32x9216_1_2 (W (Proc.devRef .tc main_v1))⟩,
           ⟨S1x32x9216, broadcastInDim S1x32x9216 ![1, 2] bcast_S32x9216_S1x32x9216_1_2 (W (Proc.devRef .tc main_v2))⟩,
           ⟨S1x32x9216, broadcastInDim S1x32x9216 ![1, 2] bcast_S32x9216_S1x32x9216_1_2 (W (Proc.devRef .tc main_v3))⟩]
          concatenates_S1x32x9216_S1x32x9216_S1x32x9216_S1x32x9216_S4x32x9216_d0) shapeCasts_S4x32x9216_S4x32x96x96 := by
  after_results
  rfl

/-! ## The stack of the four iterates is the specification's result -/

/-- The reshaped image is its pixels in row-major order. -/
theorem reshape_eq_flat (x : Cert.MeanShift.Img.Idx → EReal) :
    shapeCast S32x9216 x shapeCasts_S1x32x96x96_S32x9216 = Cert.MeanShift.flat x := by
  funext p
  obtain ⟨d, j, rfl⟩ : ∃ (d : Fin 32) (j : Fin 9216), p = ix2 d j := ⟨p 0, p 1, eq_ix2 p⟩
  exact Cert.MeanShift.flat_eq x shapeCasts_S1x32x96x96_S32x9216 d j

/-- Four arrays that are the pixels and their first three steps, stacked, are the result. -/
theorem stack_eq_result (x : Cert.MeanShift.Img.Idx → EReal) (A0 A1 A2 A3 : Cert.MeanShift.Pts.Idx → EReal)
    (h0 : A0 = Cert.MeanShift.flat x) (h1 : A1 = Cert.MeanShift.step A0) (h2 : A2 = Cert.MeanShift.step A1)
    (h3 : A3 = Cert.MeanShift.step A2) :
    shapeCast S4x32x96x96 (concatenate S4x32x9216 0
        [⟨S1x32x9216, broadcastInDim S1x32x9216 ![1, 2] bcast_S32x9216_S1x32x9216_1_2 A0⟩,
         ⟨S1x32x9216, broadcastInDim S1x32x9216 ![1, 2] bcast_S32x9216_S1x32x9216_1_2 A1⟩,
         ⟨S1x32x9216, broadcastInDim S1x32x9216 ![1, 2] bcast_S32x9216_S1x32x9216_1_2 A2⟩,
         ⟨S1x32x9216, broadcastInDim S1x32x9216 ![1, 2] bcast_S32x9216_S1x32x9216_1_2 A3⟩]
        concatenates_S1x32x9216_S1x32x9216_S1x32x9216_S1x32x9216_S4x32x9216_d0) shapeCasts_S4x32x9216_S4x32x96x96
      = Cert.MeanShift.result x := by
  funext o
  obtain ⟨n, d, r, s, rfl⟩ : ∃ (n : Fin 4) (d : Fin 32) (r s : Fin 96), o = ix4 n d r s :=
    ⟨o 0, o 1, o 2, o 3, eq_ix4 o⟩
  have hq : r.val * 96 + s.val < 9216 := by have := r.isLt; have := s.isLt; omega
  refine (Cert.MeanShift.stack_at (fun n : Fin 4 => (![A0, A1, A2, A3] n : Cert.MeanShift.Pts.Idx → EReal))
    bcast_S32x9216_S1x32x9216_1_2 concatenates_S1x32x9216_S1x32x9216_S1x32x9216_S1x32x9216_S4x32x9216_d0
    shapeCasts_S4x32x9216_S4x32x96x96 n d r s hq).trans ?_
  have hn : n = 0 ∨ n = 1 ∨ n = 2 ∨ n = 3 := by
    have := n.isLt
    rcases n with ⟨_ | _ | _ | _ | k, hk⟩
    · exact Or.inl rfl
    · exact Or.inr (Or.inl rfl)
    · exact Or.inr (Or.inr (Or.inl rfl))
    · exact Or.inr (Or.inr (Or.inr rfl))
    · omega
  rcases hn with rfl | rfl | rfl | rfl
  · show A0 _ = _
    rw [h0]; rfl
  · show A1 _ = _
    rw [h1, h0]; rfl
  · show A2 _ = _
    rw [h2, h1, h0]; rfl
  · show A3 _ = _
    rw [h3, h2, h1, h0]; rfl

/-! ## The result array after the run -/

/-- After the last stretch the result array holds the specification's result of the argument: the points at the
    last stretch's entry are the reshaped argument (no call writes them), and each call's output, which no later
    call writes, is one step of the array before it. -/
theorem W5_result (m : (ℓ : Loc nD τ sig) → Buf (Elt Ideal) ℓ) (ρ : Dev nD → PrngReg) (c : Dev nD) :
    Step.W5 m ρ c (Proc.devRef .tc main_v9) = Cert.MeanShift.result (m ((c : Thread nD τ).loc main_arg0)) := by
  have e0 : Step.W4 m ρ c (Proc.devRef .tc main_v0) = Step.W1 m ρ c (Proc.devRef .tc main_v0) :=
    (Step.W4_of m ρ c main_v0 (by decide)).trans
      ((Step.W3_of m ρ c main_v0 (by decide)).trans (Step.W2_of m ρ c main_v0 (by decide)))
  have e1 : Step.W4 m ρ c (Proc.devRef .tc main_v1) = Step.W2 m ρ c (Proc.devRef .tc main_v1) :=
    (Step.W4_of m ρ c main_v1 (by decide)).trans (Step.W3_of m ρ c main_v1 (by decide))
  have e2 : Step.W4 m ρ c (Proc.devRef .tc main_v2) = Step.W3 m ρ c (Proc.devRef .tc main_v2) :=
    Step.W4_of m ρ c main_v2 (by decide)
  have h0 : (Step.W4 m ρ c (Proc.devRef .tc main_v0) : Cert.MeanShift.Pts.Idx → EReal)
      = Cert.MeanShift.flat (m ((c : Thread nD τ).loc main_arg0)) :=
    e0.trans ((head_read (Step.W0 m ρ c)).trans (reshape_eq_flat _))
  have h1 : (Step.W4 m ρ c (Proc.devRef .tc main_v1) : Cert.MeanShift.Pts.Idx → EReal)
      = Cert.MeanShift.step (Step.W4 m ρ c (Proc.devRef .tc main_v0)) :=
    e1.trans ((Step.W2_main_v1 m ρ c).trans ((arrAt0 (Step.V1 m ρ) c).trans (congrArg Cert.MeanShift.step e0.symm)))
  have h2 : (Step.W4 m ρ c (Proc.devRef .tc main_v2) : Cert.MeanShift.Pts.Idx → EReal)
      = Cert.MeanShift.step (Step.W4 m ρ c (Proc.devRef .tc main_v1)) :=
    e2.trans ((Step.W3_main_v2 m ρ c).trans ((arrAt1 (Step.V2 m ρ) c).trans (congrArg Cert.MeanShift.step e1.symm)))
  have h3 : (Step.W4 m ρ c (Proc.devRef .tc main_v3) : Cert.MeanShift.Pts.Idx → EReal)
      = Cert.MeanShift.step (Step.W4 m ρ c (Proc.devRef .tc main_v2)) :=
    (Step.W4_main_v3 m ρ c).trans ((arrAt2 (Step.V3 m ρ) c).trans (congrArg Cert.MeanShift.step e2.symm))
  exact (tail_read (Step.W4 m ρ c)).trans (stack_eq_result _ _ _ _ _ h0 h1 h2 h3)

end Cert.KernelIdeal.StepValue

end
-- ==== Proof.Ref.Law.lean ====
/-
  The exchange between the two arrangements of one weighted mean, over an arbitrary finite index type.

  A sum of extended reals that are all real is the real sum; and with real terms `a i`, real weights `k i`
  and a nonzero real divisor `D`, dividing every weight by `D` before the weighted sum is dividing the
  weighted sum by `D` once: both are `(Σ a i · k i) · D⁻¹` in the reals.
-/
import Idealize.ShloMosaic.PureOps.Ideal

noncomputable section

namespace Cert.MeanShift.Law

open Idealize.ShloMosaic

/-- A finite sum of real numbers, summed in the extended reals, is their real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Dividing each weight by a nonzero real before the weighted sum is dividing the weighted sum once. -/
theorem sum_mul_div {ι : Type*} [Fintype ι] (a k : ι → ℝ) {D : ℝ} (hD : D ≠ 0) :
    ∑ i, (a i : EReal) * Ideal.div (k i : EReal) (D : EReal)
      = Ideal.div (∑ i, (a i : EReal) * (k i : EReal)) (D : EReal) := by
  simp only [Ideal.div_coe hD, ← EReal.coe_mul, coe_sum]
  congr 1
  rw [Finset.sum_mul]
  exact Finset.sum_congr rfl fun i _ => by ring

end Cert.MeanShift.Law

end
-- ==== Proof.Ref.Real.lean ====
/-
  Finiteness. Every entry of an argument that passes the precondition `|x| < +∞` is a real number; and one
  mean-shift step of an array of reals is again an array of reals — an affinity is the exponential of a real,
  hence a positive real; a degree is a sum of 9216 positive reals, hence a positive real; the weighted sum
  is a real and the quotient by a positive real a real — so every iterate of a real array is real.
-/
import proofs.«117443_j19241453486857_2_alg».proof.Pre_finite_inputs
import proofs.«117443_j19241453486857_2_alg».proof.Proof.Gen.Pre_finite_inputs
import proofs.«117443_j19241453486857_2_alg».proof.Proof.Spec
import proofs.«117443_j19241453486857_2_alg».proof.Proof.Ref.Law
import Idealize.ShloMosaic.Lib.ReduceAll
import Idealize.ShloMosaic.Lib.Pipeline.Value
import Idealize.ShloMosaic.PureOps.Ideal.Laws

noncomputable section

namespace Cert.MeanShift

open Idealize.ShloMosaic Idealize.ShloMosaic.ValueIdx

/-! ## The two constants -/

theorem two_eq : two = ((2 : ℝ) : EReal) := by
  simp [two, Ideal.ofBits, Ideal.ieee]
  rw [← EReal.coe_mul]
  congr 1
  norm_num

theorem half_eq : half = ((1 / 2 : ℝ) : EReal) := by
  simp [half, Ideal.ofBits, Ideal.ieee]
  rw [← EReal.coe_mul]
  congr 1
  norm_num

/-! ## An array of reals and its step in the reals -/

/-- An array of reals read in the extended reals. -/
def up (x : Pts.Idx → ℝ) : Pts.Idx → EReal := fun p => ((x p : ℝ) : EReal)

/-- The affinity of two points of a real array. -/
def affR (x : Pts.Idx → ℝ) (i j : Fin 9216) : ℝ := Real.exp (2 * ∑ d : Fin 32, x (ix2 d i) * x (ix2 d j))

/-- The degree of a point of a real array. -/
def degR (x : Pts.Idx → ℝ) (j : Fin 9216) : ℝ := ∑ i : Fin 9216, affR x i j

/-- The weighted sum of a real array. -/
def wsumR (x : Pts.Idx → ℝ) (d : Fin 32) (j : Fin 9216) : ℝ := ∑ i : Fin 9216, x (ix2 d i) * affR x i j

/-- One step of a real array, in the reals. -/
def stepR (x : Pts.Idx → ℝ) : Pts.Idx → ℝ := fun p =>
  1 / 2 * (wsumR x (p 0) (p 1) * (1 / degR x (p 1))) + 1 / 2 * x (ix2 (p 0) (p 1))

theorem affR_pos (x : Pts.Idx → ℝ) (i j : Fin 9216) : 0 < affR x i j := Real.exp_pos _

theorem degR_pos (x : Pts.Idx → ℝ) (j : Fin 9216) : 0 < degR x j :=
  Finset.sum_pos (fun i _ => affR_pos x i j) ⟨⟨0, by decide⟩, Finset.mem_univ _⟩

theorem aff_up (x : Pts.Idx → ℝ) (i j : Fin 9216) : aff (up x) i j = ((affR x i j : ℝ) : EReal) := by
  simp only [aff, up, affR, two_eq, ← EReal.coe_mul, Law.coe_sum, Ideal.exp_coe]

theorem deg_up (x : Pts.Idx → ℝ) (j : Fin 9216) : deg (up x) j = ((degR x j : ℝ) : EReal) := by
  simp only [deg, aff_up, degR, Law.coe_sum]

theorem wsum_up (x : Pts.Idx → ℝ) (d : Fin 32) (j : Fin 9216) : wsum (up x) d j = ((wsumR x d j : ℝ) : EReal) := by
  simp only [wsum, aff_up, wsumR, ← EReal.coe_mul, Law.coe_sum, up]

theorem step_up (x : Pts.Idx → ℝ) : step (up x) = up (stepR x) := by
  funext p
  obtain ⟨d, j, rfl⟩ : ∃ (d : Fin 32) (j : Fin 9216), p = ix2 d j := ⟨p 0, p 1, eq_ix2 p⟩
  show stepAt (up x) d j
    = (((1 / 2 * (wsumR x d j * (1 / degR x j)) + 1 / 2 * x (ix2 d j) : ℝ)) : EReal)
  rw [stepAt, wsum_up, deg_up, Ideal.div_coe (degR_pos x j).ne', half_eq]
  simp only [up, ← EReal.coe_mul, ← EReal.coe_add]

/-- Every array of extended reals whose entries are all real is an array of reals. -/
theorem exists_up (X : Pts.Idx → EReal) (hX : ∀ p, ∃ r : ℝ, X p = r) : ∃ x : Pts.Idx → ℝ, X = up x := by
  choose x hx using hX
  exact ⟨x, funext hx⟩

/-- A positive real degree at every point of an array of reals. -/
theorem deg_pos (X : Pts.Idx → EReal) (hX : ∀ p, ∃ r : ℝ, X p = r) (j : Fin 9216) :
    ∃ D : ℝ, 0 < D ∧ deg X j = (D : EReal) := by
  obtain ⟨x, rfl⟩ := exists_up X hX
  exact ⟨degR x j, degR_pos x j, deg_up x j⟩

/-- An affinity of an array of reals is a real. -/
theorem aff_real (X : Pts.Idx → EReal) (hX : ∀ p, ∃ r : ℝ, X p = r) (i j : Fin 9216) :
    ∃ r : ℝ, aff X i j = (r : EReal) := by
  obtain ⟨x, rfl⟩ := exists_up X hX
  exact ⟨affR x i j, aff_up x i j⟩

/-- One step of an array of reals is an array of reals. -/
theorem step_real (X : Pts.Idx → EReal) (hX : ∀ p, ∃ r : ℝ, X p = r) : ∀ p, ∃ r : ℝ, step X p = r := by
  obtain ⟨x, rfl⟩ := exists_up X hX
  intro p
  exact ⟨stepR x p, congrFun (step_up x) p⟩

/-- Every iterate of an array of reals is an array of reals. -/
theorem iter_real (X : Pts.Idx → EReal) (hX : ∀ p, ∃ r : ℝ, X p = r) (n : ℕ) : ∀ p, ∃ r : ℝ, iter n X p = r := by
  induction n with
  | zero => exact hX
  | succ n ih => exact step_real _ ih

/-! ## The precondition -/

instance : Subsingleton Cert.Pre_finite_inputs.S_.Idx := ⟨fun a b => funext fun d => d.elim0⟩

/-- An argument every entry of which is below `+∞` in absolute value has only real entries. -/
theorem real_of_pre [Cert.Pre_finite_inputs.Facts] (x : FVec Ideal Cert.Pre_finite_inputs.S1x32x96x96 .f32)
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  have e : broadcastInDim Cert.Pre_finite_inputs.S1x32x96x96 ![] Cert.Pre_finite_inputs.Facts.bcast_S_S1x32x96x96
      (constant (F := Ideal) Cert.Pre_finite_inputs.S_ .f32 0x7F800000#32) i = ⊤ := by
    rw [broadcastInDim_apply _ _ _ i ix0 (fun a => a.elim0)]
    show Ideal.ofBits .f32 0x7F800000#32 = ⊤
    simp [Ideal.ofBits, Ideal.ieee]
  have hlt : max (x i) (-(x i)) < ⊤ := by
    have hc : BitVec.ofBool (decide (max (x i) (-(x i)) < ⊤)) = 1#1 := by rw [← e]; exact hi
    have hd : decide (max (x i) (-(x i)) < ⊤) = true := by
      revert hc
      cases decide (max (x i) (-(x i)) < ⊤) <;> decide
    exact of_decide_eq_true hd
  generalize x i = y at hlt ⊢
  induction y using EReal.rec with
  | bot => simp at hlt
  | coe r => exact ⟨r, rfl⟩
  | top => simp at hlt

end Cert.MeanShift

end
-- ==== Proof.Ref.Arrange.lean ====
/-
  The reference's arrangement of one step, and its equality with the specification's on arrays of reals.

  The reference divides every affinity by the degree of its column before the weighted sum; the specification
  forms the weighted sum and divides once. On an array of reals the affinities are reals and the degree a
  positive real, so the two are one real number.
-/
import proofs.«117443_j19241453486857_2_alg».proof.Proof.Ref.Real

noncomputable section

namespace Cert.MeanShift

open Idealize.ShloMosaic Idealize.ShloMosaic.ValueIdx

/-- One entry of one step as the reference arranges it: each affinity divided by its column's degree first. -/
def refAt (X : Pts.Idx → EReal) (d : Fin 32) (j : Fin 9216) : EReal :=
  half * (∑ i : Fin 9216, X (ix2 d i) * Ideal.div (aff X i j) (deg X j)) + half * X (ix2 d j)

/-- On an array of reals the reference's arrangement is the specification's. -/
theorem refAt_eq_stepAt (X : Pts.Idx → EReal) (hX : ∀ p, ∃ r : ℝ, X p = r) (d : Fin 32) (j : Fin 9216) :
    refAt X d j = stepAt X d j := by
  obtain ⟨x, rfl⟩ := exists_up X hX
  unfold refAt stepAt wsum
  simp only [aff_up, deg_up]
  exact congrArg (fun t => half * t + half * up x (ix2 d j))
    (Law.sum_mul_div (fun i => x (ix2 d i)) (fun i => affR x i j) (degR_pos x j).ne')

end Cert.MeanShift

end
-- ==== Proof.Ref.Stages.lean ====
/-
  The reference's stages read at an index.

  One iteration of the reference is the same fourteen operations each time, applied to the previous iterate
  `Y` (an array of 32 channels by 9216 points): the Gram matrix `YᵀY`, its double's exponential (the
  affinities), the column sums of the affinities (the degrees), every affinity divided by its column's
  degree, the product of `Y` with that normalized matrix, and the half-and-half mean with `Y`. They are
  carried here as ONE function `stage` of `Y`; the reference's first, second and third iterates are
  `stage` of the reshaped argument, of the first and of the second. Read at an index, `stage Y` is the
  reference's arrangement of one mean-shift step; on an array of reals that is the specification's step.
-/
import proofs.«117443_j19241453486857_2_alg».proof.Proof.Gen.ReferenceIdeal.Read
import proofs.«117443_j19241453486857_2_alg».proof.Proof.Ref.Arrange

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- Arrays of 32 channels by 9216 points; square arrays over the points; rows over the points. -/
abbrev ArrOf (F : FTy → Type) : Type := (⟨S32x9216, .f32⟩ : BufTy).Contents (Elt F)
abbrev SqOf (F : FTy → Type) : Type := (⟨S9216x9216, .f32⟩ : BufTy).Contents (Elt F)
abbrev RowOf (F : FTy → Type) : Type := (⟨S9216, .f32⟩ : BufTy).Contents (Elt F)
abbrev Arr : Type := ArrOf Ideal
abbrev Sq : Type := SqOf Ideal
abbrev Row : Type := RowOf Ideal

section
variable {F : FTy → Type} [FloatOps F]

/-! ## One iteration as a function of the previous iterate -/

/-- The Gram matrix of the points. -/
def gram (Y : ArrOf F) : SqOf F := Host.dotGeneral dot_S32x9216_S32x9216_S9216x9216_0_0_1_1_n_n none Y Y

/-- The affinities: the exponential of twice the Gram matrix. -/
def kern (Y : ArrOf F) : SqOf F :=
  Host.exp (mulf (broadcastInDim S9216x9216 ![] bcast_S_S9216x9216 (constant (F := F) S_ .f32 0x40000000#32)) (gram Y))

/-- The degrees: the column sums of the affinities. -/
def colsum (Y : ArrOf F) : RowOf F :=
  Host.reduceAdd (kern Y) (constant (F := F) S_ .f32 0x00000000#32) reducesTo_S9216x9216_S9216_d0 h_S_

/-- The affinities, each divided by its column's degree. -/
def normed (Y : ArrOf F) : SqOf F :=
  Host.divf (kern Y) (broadcastInDim S9216x9216 ![0, 1] bcast_S1x9216_S9216x9216_0_1
    (broadcastInDim S1x9216 ![1] bcast_S9216_S1x9216_1 (colsum Y)))

/-- One iteration of the reference. -/
def stage (Y : ArrOf F) : ArrOf F :=
  addf
    (mulf (broadcastInDim S32x9216 ![] bcast_S_S32x9216 (constant (F := F) S_ .f32 0x3F000000#32))
      (Host.dotGeneral dot_S32x9216_S9216x9216_S32x9216_1_0_0_1_n_n none Y (normed Y)))
    (mulf (broadcastInDim S32x9216 ![] bcast_S_S32x9216 (constant (F := F) S_ .f32 0x3F000000#32)) Y)

/-- The reference's three iterates are `stage` of the reshaped argument, of the first and of the second. -/
theorem v14_eq (x0 : (⟨S1x32x96x96, .f32⟩ : BufTy).Contents (Elt F)) :
    Read.val_main_v14 (F := F) x0 = stage (Read.val_main_v0 (F := F) x0) := rfl
theorem v28_eq (x0 : (⟨S1x32x96x96, .f32⟩ : BufTy).Contents (Elt F)) :
    Read.val_main_v28 (F := F) x0 = stage (Read.val_main_v14 (F := F) x0) := rfl
theorem v42_eq (x0 : (⟨S1x32x96x96, .f32⟩ : BufTy).Contents (Elt F)) :
    Read.val_main_v42 (F := F) x0 = stage (Read.val_main_v28 (F := F) x0) := rfl

end

/-! ## Each operation at an index -/

/-- An entry of the Gram matrix is the inner product of two points. -/
theorem gram_apply (Y : Arr) (i j : Fin 9216) : gram Y (ix2 i j) = ∑ k : Fin 32, Y (ix2 k i) * Y (ix2 k j) := by
  unfold gram
  simp only [Host.dotGeneral]
  rw [Ideal.dotGeneral_apply, ← Equiv.sum_comp (ValueIdx.contrEquiv1 dot_S32x9216_S32x9216_S9216x9216_0_0_1_1_n_n 32 rfl rfl).symm]
  refine Finset.sum_congr rfl fun k _ => ?_
  have hk := ValueIdx.contrEquiv1_symm_val dot_S32x9216_S32x9216_S9216x9216_0_0_1_1_n_n 32 rfl rfl k
  have el : dot_S32x9216_S32x9216_S9216x9216_0_0_1_1_n_n.lhsIdx (ix2 i j) ((ValueIdx.contrEquiv1 dot_S32x9216_S32x9216_S9216x9216_0_0_1_1_n_n 32 rfl rfl).symm k) = ix2 k i := funext fun a => Fin.ext (by
    match a with
    | ⟨0, _⟩ => exact (Read.lhs_main_v1_0 _ _).trans hk
    | ⟨1, _⟩ => exact Read.lhs_main_v1_1 _ _)
  have er : dot_S32x9216_S32x9216_S9216x9216_0_0_1_1_n_n.rhsIdx (ix2 i j) ((ValueIdx.contrEquiv1 dot_S32x9216_S32x9216_S9216x9216_0_0_1_1_n_n 32 rfl rfl).symm k) = ix2 k j := funext fun a => Fin.ext (by
    match a with
    | ⟨0, _⟩ => exact (Read.rhs_main_v1_0 _ _).trans hk
    | ⟨1, _⟩ => exact Read.rhs_main_v1_1 _ _)
  rw [el, er]

/-- An affinity of the reference is the specification's. -/
theorem kern_apply (Y : Arr) (i j : Fin 9216) : kern Y (ix2 i j) = Cert.MeanShift.aff Y i j := by
  show Ideal.exp (Ideal.ofBits .f32 0x40000000#32 * gram Y (ix2 i j)) = _
  rw [gram_apply]
  rfl

/-- A degree of the reference is the specification's. -/
theorem colsum_apply (Y : Arr) (j : Fin 9216) : colsum Y (ix1 j) = Cert.MeanShift.deg Y j := by
  have h1 : ∀ A : Sq, Host.reduceAdd (F := Ideal) A (constant (F := Ideal) S_ .f32 0x00000000#32) reducesTo_S9216x9216_S9216_d0 h_S_ (ix1 j)
      = Ideal.ofBits .f32 0x00000000#32 + ∑ k : Fin 9216, A (ix2 k j) := by
    intro A
    simp only [Host.reduceAdd, Ideal.hostReduceAdd_def]
    rw [Ideal.hostReduceAdd_single reducesTo_S9216x9216_S9216_d0 (by decide)]
    refine congrArg (_ + ·) (Finset.sum_congr rfl fun k _ => ?_)
    exact congrArg A (funext fun a => Fin.ext (by match a with | ⟨0, _⟩ => rfl | ⟨1, _⟩ => rfl))
  unfold colsum
  rw [h1, Ideal.ofBits_zero_f32, zero_add]
  exact Finset.sum_congr rfl fun k _ => kern_apply Y k j

/-- A row broadcast down the columns reads its own entry. -/
theorem bcast_row_apply (v : Row) (i j : Fin 9216) :
    broadcastInDim S9216x9216 ![0, 1] bcast_S1x9216_S9216x9216_0_1
      (broadcastInDim S1x9216 ![1] bcast_S9216_S1x9216_1 v) (ix2 i j) = v (ix1 j) := by
  rw [broadcastInDim_apply _ bcast_S1x9216_S9216x9216_0_1 _ (ix2 i j) (ix2 (0 : Fin 1) j) (fun a => match a with
    | ⟨0, _⟩ => by show 0 = if (1 : Nat) = 1 then 0 else i.val; rw [if_pos rfl]
    | ⟨1, _⟩ => by show j.val = if (9216 : Nat) = 1 then 0 else j.val; rw [if_neg (by decide)])]
  exact broadcastInDim_apply _ bcast_S9216_S1x9216_1 v (ix2 (0 : Fin 1) j) (ix1 j) (fun a => match a with
    | ⟨0, _⟩ => by show j.val = if (9216 : Nat) = 1 then 0 else j.val; rw [if_neg (by decide)])

/-- A normalized affinity. -/
theorem normed_apply (Y : Arr) (i j : Fin 9216) :
    normed Y (ix2 i j) = Ideal.div (Cert.MeanShift.aff Y i j) (Cert.MeanShift.deg Y j) := by
  show Ideal.div (kern Y (ix2 i j)) (broadcastInDim S9216x9216 ![0, 1] bcast_S1x9216_S9216x9216_0_1
    (broadcastInDim S1x9216 ![1] bcast_S9216_S1x9216_1 (colsum Y)) (ix2 i j)) = _
  rw [bcast_row_apply, kern_apply, colsum_apply]

/-- The product of the points with a square matrix, at an entry. -/
theorem mix_apply (Y : Arr) (W : Sq) (d : Fin 32) (j : Fin 9216) :
    Host.dotGeneral (F := Ideal) (φ₁ := .f32) (φ₂ := .f32) dot_S32x9216_S9216x9216_S32x9216_1_0_0_1_n_n none Y W (ix2 d j) = ∑ k : Fin 9216, Y (ix2 d k) * W (ix2 k j) := by
  simp only [Host.dotGeneral]
  rw [Ideal.dotGeneral_apply, ← Equiv.sum_comp (ValueIdx.contrEquiv1 dot_S32x9216_S9216x9216_S32x9216_1_0_0_1_n_n 9216 rfl rfl).symm]
  refine Finset.sum_congr rfl fun k _ => ?_
  have hk := ValueIdx.contrEquiv1_symm_val dot_S32x9216_S9216x9216_S32x9216_1_0_0_1_n_n 9216 rfl rfl k
  have el : dot_S32x9216_S9216x9216_S32x9216_1_0_0_1_n_n.lhsIdx (ix2 d j) ((ValueIdx.contrEquiv1 dot_S32x9216_S9216x9216_S32x9216_1_0_0_1_n_n 9216 rfl rfl).symm k) = ix2 d k := funext fun a => Fin.ext (by
    match a with
    | ⟨0, _⟩ => exact Read.lhs_main_v9_0 _ _
    | ⟨1, _⟩ => exact (Read.lhs_main_v9_1 _ _).trans hk)
  have er : dot_S32x9216_S9216x9216_S32x9216_1_0_0_1_n_n.rhsIdx (ix2 d j) ((ValueIdx.contrEquiv1 dot_S32x9216_S9216x9216_S32x9216_1_0_0_1_n_n 9216 rfl rfl).symm k) = ix2 k j := funext fun a => Fin.ext (by
    match a with
    | ⟨0, _⟩ => exact (Read.rhs_main_v9_0 _ _).trans hk
    | ⟨1, _⟩ => exact Read.rhs_main_v9_1 _ _)
  rw [el, er]

/-- One iteration of the reference at an entry: the reference's arrangement of one step. -/
theorem stage_apply (Y : Arr) (d : Fin 32) (j : Fin 9216) : stage Y (ix2 d j) = Cert.MeanShift.refAt Y d j := by
  show Ideal.ofBits .f32 0x3F000000#32
        * Host.dotGeneral (F := Ideal) (φ₁ := .f32) (φ₂ := .f32) dot_S32x9216_S9216x9216_S32x9216_1_0_0_1_n_n none Y (normed Y) (ix2 d j)
      + Ideal.ofBits .f32 0x3F000000#32 * Y (ix2 d j) = _
  rw [mix_apply]
  unfold Cert.MeanShift.refAt
  simp only [normed_apply]
  rfl

/-- On an array of reals one iteration of the reference is the specification's step. -/
theorem stage_eq_step (Y : Arr) (hY : ∀ p, ∃ r : ℝ, Y p = (r : EReal)) : stage Y = Cert.MeanShift.step Y := by
  funext p
  obtain ⟨d, j, rfl⟩ : ∃ (d : Fin 32) (j : Fin 9216), p = ix2 d j := ⟨p 0, p 1, eq_ix2 p⟩
  rw [stage_apply, Cert.MeanShift.refAt_eq_stepAt Y hY]
  rfl

end Cert.ReferenceIdeal.RefValue

end
-- ==== Proof.Ref.Stack.lean ====
/-
  The reference's result read at an index.

  The reference reshapes the image to 32 channels by 9216 points (the pixels in row-major order), iterates
  three times, lays the four arrays out as four slabs of one, joins the slabs along the new axis and reshapes
  the points back to 96 by 96. Entry `(n, d, r, s)` of the result is therefore entry `(d, 96 r + s)` of the
  `n`-th iterate; and on an image of reals, where each of the reference's iterations is the specification's
  step, it is the specification's result.
-/
import proofs.«117443_j19241453486857_2_alg».proof.Proof.Ref.Stages

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- An image, and one slab of the stacked result. -/
abbrev Image : Type := (⟨S1x32x96x96, .f32⟩ : BufTy).Contents (Elt Ideal)
abbrev Slab : Type := (⟨S1x32x9216, .f32⟩ : BufTy).Contents (Elt Ideal)

/-- The reshaped argument is the image's pixels in row-major order. -/
theorem v0_eq_flat (x0 : Image) : Read.val_main_v0 (F := Ideal) x0 = Cert.MeanShift.flat x0 := by
  funext p
  obtain ⟨d, q, rfl⟩ : ∃ (d : Fin 32) (q : Fin 9216), p = ix2 d q := ⟨p 0, p 1, eq_ix2 p⟩
  rw [Read.val_main_v0_apply]
  unfold Cert.MeanShift.flat
  have hd := d.isLt
  have hq := q.isLt
  refine congrArg x0 (funext fun a => Fin.ext ?_)
  match a with
  | ⟨0, _⟩ => rfl
  | ⟨1, _⟩ => show (d.val * 9216 + q.val) / 9216 % 32 = d.val; omega
  | ⟨2, _⟩ => show (d.val * 9216 + q.val) / 96 % 96 = q.val / 96; omega
  | ⟨3, _⟩ => show (d.val * 9216 + q.val) % 96 = q.val % 96; omega

/-- The pixels of an image of reals are reals. -/
theorem flat_real (x0 : Image) (hx : ∀ i, ∃ r : ℝ, x0 i = (r : EReal)) :
    ∀ p, ∃ r : ℝ, Cert.MeanShift.flat x0 p = (r : EReal) := fun p => hx _

/-- On an image of reals the reference's three iterates are the specification's. -/
theorem v14_eq_iter (x0 : Image) (hx : ∀ i, ∃ r : ℝ, x0 i = (r : EReal)) :
    Read.val_main_v14 (F := Ideal) x0 = Cert.MeanShift.iter 1 (Cert.MeanShift.flat x0) := by
  rw [v14_eq, v0_eq_flat, stage_eq_step _ (flat_real x0 hx)]
  rfl

theorem v28_eq_iter (x0 : Image) (hx : ∀ i, ∃ r : ℝ, x0 i = (r : EReal)) :
    Read.val_main_v28 (F := Ideal) x0 = Cert.MeanShift.iter 2 (Cert.MeanShift.flat x0) := by
  rw [v28_eq, v14_eq_iter x0 hx, stage_eq_step _ (Cert.MeanShift.iter_real _ (flat_real x0 hx) 1)]
  rfl

theorem v42_eq_iter (x0 : Image) (hx : ∀ i, ∃ r : ℝ, x0 i = (r : EReal)) :
    Read.val_main_v42 (F := Ideal) x0 = Cert.MeanShift.iter 3 (Cert.MeanShift.flat x0) := by
  rw [v42_eq, v28_eq_iter x0 hx, stage_eq_step _ (Cert.MeanShift.iter_real _ (flat_real x0 hx) 2)]
  rfl

/-- Four slabs joined along the first axis, read in each of the four. -/
theorem stack_apply (a0 a1 a2 a3 : Slab) (d : Fin 32) (q : Fin 9216) :
    (concatenate S4x32x9216 0 [⟨S1x32x9216, a0⟩, ⟨S1x32x9216, a1⟩, ⟨S1x32x9216, a2⟩, ⟨S1x32x9216, a3⟩]
        concatenates_S1x32x9216_S1x32x9216_S1x32x9216_S1x32x9216_S4x32x9216_d0 (ix3 (0 : Fin 4) d q) = a0 (ix3 (0 : Fin 1) d q))
    ∧ (concatenate S4x32x9216 0 [⟨S1x32x9216, a0⟩, ⟨S1x32x9216, a1⟩, ⟨S1x32x9216, a2⟩, ⟨S1x32x9216, a3⟩]
        concatenates_S1x32x9216_S1x32x9216_S1x32x9216_S1x32x9216_S4x32x9216_d0 (ix3 (1 : Fin 4) d q) = a1 (ix3 (0 : Fin 1) d q))
    ∧ (concatenate S4x32x9216 0 [⟨S1x32x9216, a0⟩, ⟨S1x32x9216, a1⟩, ⟨S1x32x9216, a2⟩, ⟨S1x32x9216, a3⟩]
        concatenates_S1x32x9216_S1x32x9216_S1x32x9216_S1x32x9216_S4x32x9216_d0 (ix3 (2 : Fin 4) d q) = a2 (ix3 (0 : Fin 1) d q))
    ∧ (concatenate S4x32x9216 0 [⟨S1x32x9216, a0⟩, ⟨S1x32x9216, a1⟩, ⟨S1x32x9216, a2⟩, ⟨S1x32x9216, a3⟩]
        concatenates_S1x32x9216_S1x32x9216_S1x32x9216_S1x32x9216_S4x32x9216_d0 (ix3 (3 : Fin 4) d q) = a3 (ix3 (0 : Fin 1) d q)) := by
  have hi : ∀ (n : Fin 4) (b : Fin S1x32x9216.rank), b.cast (rfl : S1x32x9216.rank = S4x32x9216.rank) ≠ (0 : Fin S4x32x9216.rank) →
      ((ix3 (0 : Fin 1) d q : S1x32x9216.Idx) b).val = ((ix3 n d q : S4x32x9216.Idx) (b.cast rfl)).val := fun n b hb =>
    match b, hb with
    | ⟨0, _⟩, hb => absurd rfl hb
    | ⟨1, _⟩, _ => rfl
    | ⟨2, _⟩, _ => rfl
  refine ⟨?_, ?_, ?_, ?_⟩
  · exact concatenate_apply_piece 0 [⟨S1x32x9216, a0⟩, ⟨S1x32x9216, a1⟩, ⟨S1x32x9216, a2⟩, ⟨S1x32x9216, a3⟩]
      _ (ix3 (0 : Fin 4) d q) 0 (show 0 < 4 by decide) S1x32x9216 a0 rfl rfl 0 rfl (ix3 (0 : Fin 1) d q) (hi 0) rfl
  · exact concatenate_apply_piece 0 [⟨S1x32x9216, a0⟩, ⟨S1x32x9216, a1⟩, ⟨S1x32x9216, a2⟩, ⟨S1x32x9216, a3⟩]
      _ (ix3 (1 : Fin 4) d q) 1 (show 1 < 4 by decide) S1x32x9216 a1 rfl rfl 1 rfl (ix3 (0 : Fin 1) d q) (hi 1) rfl
  · exact concatenate_apply_piece 0 [⟨S1x32x9216, a0⟩, ⟨S1x32x9216, a1⟩, ⟨S1x32x9216, a2⟩, ⟨S1x32x9216, a3⟩]
      _ (ix3 (2 : Fin 4) d q) 2 (show 2 < 4 by decide) S1x32x9216 a2 rfl rfl 2 rfl (ix3 (0 : Fin 1) d q) (hi 2) rfl
  · exact concatenate_apply_piece 0 [⟨S1x32x9216, a0⟩, ⟨S1x32x9216, a1⟩, ⟨S1x32x9216, a2⟩, ⟨S1x32x9216, a3⟩]
      _ (ix3 (3 : Fin 4) d q) 3 (show 3 < 4 by decide) S1x32x9216 a3 rfl rfl 3 rfl (ix3 (0 : Fin 1) d q) (hi 3) rfl

/-- Where the final reshape reads the stacked array. -/
theorem idx48_eq (n : Fin 4) (d : Fin 32) (r s : Fin 96) (h : r.val * 96 + s.val < 9216) :
    Read.idx_main_v48 (ix4 n d r s) = ix3 n d (⟨r.val * 96 + s.val, h⟩ : Fin 9216) := by
  have hn := n.isLt
  have hd := d.isLt
  have hr := r.isLt
  have hs := s.isLt
  refine funext fun a => Fin.ext ?_
  match a with
  | ⟨0, _⟩ => show (((n.val * 32 + d.val) * 96 + r.val) * 96 + s.val) / 294912 = n.val; omega
  | ⟨1, _⟩ => show (((n.val * 32 + d.val) * 96 + r.val) * 96 + s.val) / 9216 % 32 = d.val; omega
  | ⟨2, _⟩ => show (((n.val * 32 + d.val) * 96 + r.val) * 96 + s.val) % 9216 = r.val * 96 + s.val; omega

/-- Where each of the four slabs reads its array. -/
theorem idx_slab0_eq (d : Fin 32) (q : Fin 9216) : Read.idx_main_v43 (ix3 (0 : Fin 1) d q) = ix2 d q :=
  funext fun a => Fin.ext (by match a with | ⟨0, _⟩ => rfl | ⟨1, _⟩ => rfl)
theorem idx_slab1_eq (d : Fin 32) (q : Fin 9216) : Read.idx_main_v44 (ix3 (0 : Fin 1) d q) = ix2 d q :=
  funext fun a => Fin.ext (by match a with | ⟨0, _⟩ => rfl | ⟨1, _⟩ => rfl)
theorem idx_slab2_eq (d : Fin 32) (q : Fin 9216) : Read.idx_main_v45 (ix3 (0 : Fin 1) d q) = ix2 d q :=
  funext fun a => Fin.ext (by match a with | ⟨0, _⟩ => rfl | ⟨1, _⟩ => rfl)
theorem idx_slab3_eq (d : Fin 32) (q : Fin 9216) : Read.idx_main_v46 (ix3 (0 : Fin 1) d q) = ix2 d q :=
  funext fun a => Fin.ext (by match a with | ⟨0, _⟩ => rfl | ⟨1, _⟩ => rfl)

/-- On an image of reals the reference's result is the specification's. -/
theorem ref_eq_result (x0 : Image) (hx : ∀ i, ∃ r : ℝ, x0 i = (r : EReal)) :
    Read.val_main_v48 (F := Ideal) x0 = Cert.MeanShift.result x0 := by
  funext o
  obtain ⟨n, d, r, s, rfl⟩ : ∃ (n : Fin 4) (d : Fin 32) (r s : Fin 96), o = ix4 n d r s :=
    ⟨o 0, o 1, o 2, o 3, eq_ix4 o⟩
  have hq : r.val * 96 + s.val < 9216 := by have := r.isLt; have := s.isLt; omega
  rw [Read.val_main_v48_apply, idx48_eq n d r s hq]
  unfold Read.val_main_v47
  have hn : n = 0 ∨ n = 1 ∨ n = 2 ∨ n = 3 := by
    have := n.isLt
    rcases n with ⟨_ | _ | _ | _ | k, hk⟩
    · exact Or.inl rfl
    · exact Or.inr (Or.inl rfl)
    · exact Or.inr (Or.inr (Or.inl rfl))
    · exact Or.inr (Or.inr (Or.inr rfl))
    · omega
  rcases hn with rfl | rfl | rfl | rfl
  · rw [(stack_apply _ _ _ _ d _).1, Read.val_main_v43_apply, idx_slab0_eq, v0_eq_flat]
    rfl
  · rw [(stack_apply _ _ _ _ d _).2.1, Read.val_main_v44_apply, idx_slab1_eq, v14_eq_iter x0 hx]
    rfl
  · rw [(stack_apply _ _ _ _ d _).2.2.1, Read.val_main_v45_apply, idx_slab2_eq, v28_eq_iter x0 hx]
    rfl
  · rw [(stack_apply _ _ _ _ d _).2.2.2, Read.val_main_v46_apply, idx_slab3_eq, v42_eq_iter x0 hx]
    rfl

end Cert.ReferenceIdeal.RefValue

end
-- ==== Proof.Ref.Result.lean ====
/-
  The reference's run: on an argument of reals every weakly fair execution of the reference ends with the
  specification's result of the argument in its result array, and the argument unchanged.
-/
import proofs.«117443_j19241453486857_2_alg».proof.Proof.Ref.Stack

noncomputable section

namespace Cert.ReferenceIdeal.RefValue

open Idealize.ShloMosaic Idealize.ShloMosaic.TcCoe Idealize.SL.Sem

theorem run_result (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ (c : Dev Cert.ReferenceIdeal.nD) i, ∃ r : ℝ,
      m' ((c.tc : Thread Cert.ReferenceIdeal.nD Cert.ReferenceIdeal.τ).loc Cert.ReferenceIdeal.main_arg0) i = (r : EReal)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v48)
            = Cert.MeanShift.result (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run Cert.ReferenceIdeal.defs _ _).mono
    (fun _ h c => ⟨(h c).1.trans ((Cert.ReferenceIdeal.Read.val_main_v48_eq m' c).trans (ref_eq_result _ (hreal c))), (h c).2⟩)
    (Cert.ReferenceIdeal.Value.run (F := Ideal) m' ρ')

end Cert.ReferenceIdeal.RefValue

end
-- ==== Proof.lean ====
/-
  Three mean-shift steps on 9216 points with 32 channels, and the stack of the four iterates.

  One step sends the array `X` (channel, point) to `½ · ((Σ_i X[d,i] · K[i,j]) / deg_j) + ½ · X[d,j]`, where
  `K[i,j] = exp (2 · Σ_d X[d,i] · X[d,j])` is the affinity of points `i` and `j` and `deg_j = Σ_i K[i,j]` the degree
  of `j`.  The program makes each step by one call that, query block by query block, accumulates over three key
  blocks the weighted sums and, in one extra row, the degrees, and divides once at the last key block: that IS
  the step as written above, with the sum over the points cut in three.  The reference forms the whole
  9216-by-9216 matrix of affinities, divides every entry by its column's degree, and only then multiplies.
  The two arrangements are joined by the law `Σ_i a_i · (k_i / D) = (Σ_i a_i · k_i) / D`, which on the extended
  reals needs every `a_i`, `k_i` real and `D` a nonzero real: an affinity is the exponential of a real, hence a
  positive real; a degree is a sum of positive reals, hence a positive real; and a step of an array of reals is an
  array of reals, so that, the argument being finite by the precondition, every iterate is.  Both programs then
  reshape the image to points by the row-major order of its pixels and back, and stack the four iterates.
-/
import proofs.«117443_j19241453486857_2_alg».proof.Defs
import proofs.«117443_j19241453486857_2_alg».proof.Proof.Gen.Kernel
import proofs.«117443_j19241453486857_2_alg».proof.Proof.Gen.Kernel.Skeleton
import proofs.«117443_j19241453486857_2_alg».proof.Proof.Gen.Kernel.Launch
import proofs.«117443_j19241453486857_2_alg».proof.Proof.Gen.Kernel.Regions
import proofs.«117443_j19241453486857_2_alg».proof.Proof.Gen.Kernel.Points
import proofs.«117443_j19241453486857_2_alg».proof.Proof.Gen.KernelIdeal
import proofs.«117443_j19241453486857_2_alg».proof.Proof.Gen.KernelIdeal.Skeleton
import proofs.«117443_j19241453486857_2_alg».proof.Proof.Gen.KernelIdeal.Launch
import proofs.«117443_j19241453486857_2_alg».proof.Proof.Gen.KernelIdeal.Regions
import proofs.«117443_j19241453486857_2_alg».proof.Proof.Gen.KernelIdeal.Points
import proofs.«117443_j19241453486857_2_alg».proof.Proof.Gen.ReferenceIdeal
import proofs.«117443_j19241453486857_2_alg».proof.Proof.Gen.Pre_finite_inputs
import proofs.«117443_j19241453486857_2_alg».proof.Proof.Gen.ReferenceIdeal.Run
import proofs.«117443_j19241453486857_2_alg».proof.Proof.Gen.ReferenceIdeal.Read
import proofs.«117443_j19241453486857_2_alg».proof.Proof.K.Run
import proofs.«117443_j19241453486857_2_alg».proof.Proof.KI.Run
import proofs.«117443_j19241453486857_2_alg».proof.Proof.KI.Result
import proofs.«117443_j19241453486857_2_alg».proof.Proof.Ref.Real
import proofs.«117443_j19241453486857_2_alg».proof.Proof.Ref.Result
import Idealize.ShloMosaic.Adequacy
import Idealize.ShloMosaic.Init

noncomputable section

namespace Cert.Proof

open Idealize.ShloMosaic Idealize.ShloMosaic.TcCoe Idealize.SL.Sem

/-- The word-level program runs and leaves its argument as launched. -/
theorem frame_Kernel : Cert.frame_Kernel := fun m ρ _ => Cert.Kernel.Step.frame (F := Bits) m ρ

/-- So does the program read over the extended reals. -/
theorem frame_KernelIdeal : Cert.frame_KernelIdeal := fun m ρ _ => Cert.KernelIdeal.Step.frame (F := Ideal) m ρ

/-- So does the reference. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Over the extended reals, from one argument of reals, the program and the reference both end with the
    specification's result of the argument — the program because each call is one step as the specification
    arranges it, the reference because on reals its arrangement of a step is the specification's — and with the
    argument unchanged. -/
theorem algebraic : Cert.algebraic_KernelIdeal_ReferenceIdeal := by
  intro m ρ m' ρ' hpre hagree
  refine ⟨fun c => Cert.MeanShift.result
    (m ((c.tc : Thread Cert.KernelIdeal.nD Cert.KernelIdeal.τ).loc Cert.KernelIdeal.main_arg0)), ?_, ?_⟩
  · refine (θ_run Cert.KernelIdeal.defs _ _).mono (fun _ h c => ⟨?_, ?_⟩) (Cert.KernelIdeal.Step.run (F := Ideal) m ρ)
    · exact (h c _ (Cert.KernelIdeal.Step.mem_uc Cert.KernelIdeal.main_v9 (by decide))).trans
        (Cert.KernelIdeal.StepValue.W5_result m ρ c)
    · exact (h c _ (Cert.KernelIdeal.Step.mem_uc Cert.KernelIdeal.main_arg0 (by decide))).trans
        (Cert.KernelIdeal.Step.W5_main_arg0 m ρ c)
  · have hreal : ∀ (c : Dev Cert.ReferenceIdeal.nD) i, ∃ r : ℝ,
        m' ((c.tc : Thread Cert.ReferenceIdeal.nD Cert.ReferenceIdeal.τ).loc Cert.ReferenceIdeal.main_arg0) i = (r : EReal) := by
      intro c
      rw [hagree c]
      exact Cert.MeanShift.real_of_pre _ (hpre c)
    refine (θ_run Cert.ReferenceIdeal.defs _ _).mono (fun _ h c => ⟨?_, (h c).2⟩)
      (Cert.ReferenceIdeal.RefValue.run_result m' ρ' hreal)
    rw [(h c).1, hagree c]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
